-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2048x16 : Shape := ⟨2, ![2048, 16]⟩
abbrev S16 : Shape := ⟨1, ![16]⟩
abbrev S16x2048x2048 : Shape := ⟨3, ![16, 2048, 2048]⟩
abbrev S16x2048 : Shape := ⟨2, ![16, 2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16 : S_.BroadcastsInDim S16 (![] : Fin 0 → Fin S16.rank)
  reducesTo_S16_S_d0 : S16.ReducesTo [0] S_
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S16x2048 .f32) (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  let main_v19 : FVec F S16x2048 .f32 := Host.absf main_arg4
  let main_cst_6 : FVec F S_ .f32 := constant S_ .f32 0x7F800000#32
  let main_v20 : FVec F S16x2048 .f32 := broadcastInDim S16x2048 ![] bcast_S_S16x2048 main_cst_6
  let main_v21 : IVec S16x2048 1 := cmpf .olt main_v19 main_v20
  let main_c_7 : IVec S_ 1 := constantI S_ 1 1#1
  let main_v22 : IVec S_ 1 := (fun x v => Host.reduce IntOp.andi x v reducesTo_S16x2048_S_d0_1 h_S_) main_v21 main_c_7
  let main_v23 : IVec S_ 1 := andi main_v18 main_v22
  main_v23

def fn {F : FTy → Type} [FloatOps F] (main_arg0 : FVec F S512x2048 .f32) (main_arg1 : FVec F S2048x16 .f32) (main_arg2 : FVec F S16 .f32) (main_arg3 : FVec F S16x2048x2048 .f32) (main_arg4 : FVec F S16x2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_arg4 main_v13 main_v16
-- ==== Kernel.lean ====
abbrev S512x2048 : Shape := ⟨2, ![512, 2048]⟩
abbrev S2048x16 : Shape := ⟨2, ![2048, 16]⟩
abbrev S16 : Shape := ⟨1, ![16]⟩
abbrev S16x2048x2048 : Shape := ⟨3, ![16, 2048, 2048]⟩
abbrev S16x2048 : Shape := ⟨2, ![16, 2048]⟩
abbrev S1x16 : Shape := ⟨2, ![1, 16]⟩
abbrev S16x1x2048 : Shape := ⟨3, ![16, 1, 2048]⟩
abbrev S16x4x512x2048 : Shape := ⟨4, ![16, 4, 512, 2048]⟩
abbrev S1x1x512x2048 : Shape := ⟨4, ![1, 1, 512, 2048]⟩
abbrev S1x1x2048 : Shape := ⟨3, ![1, 1, 2048]⟩
abbrev S512x16 : Shape := ⟨2, ![512, 16]⟩
abbrev S512 : Shape := ⟨1, ![512]⟩
abbrev S512x1 : Shape := ⟨2, ![512, 1]⟩
abbrev S512x512 : Shape := ⟨2, ![512, 512]⟩
abbrev S2048 : Shape := ⟨1, ![2048]⟩
abbrev S1x2048 : Shape := ⟨2, ![1, 2048]⟩

abbrev nBuf : Space → Nat
  | .hbm => 9
  | .vmem => 15
  | .smem => 0
  | _ => 0

abbrev bufTy : (tb : Table) → Fin (tcTables nBuf tb) → BufTy
  | .hbm, ⟨0, _⟩ => ⟨S512x2048, .f32⟩
  | .hbm, ⟨1, _⟩ => ⟨S2048x16, .f32⟩
  | .hbm, ⟨2, _⟩ => ⟨S16, .f32⟩
  | .hbm, ⟨3, _⟩ => ⟨S16x2048x2048, .f32⟩
  | .hbm, ⟨4, _⟩ => ⟨S16x2048, .f32⟩
  | .hbm, ⟨5, _⟩ => ⟨S1x16, .f32⟩
  | .hbm, ⟨6, _⟩ => ⟨S16x1x2048, .f32⟩
  | .hbm, ⟨7, _⟩ => ⟨S16x4x512x2048, .f32⟩
  | .hbm, ⟨8, _⟩ => ⟨S512x2048, .f32⟩
  | .local _ .vmem, ⟨0, _⟩ => ⟨S512x2048, .f32⟩
  | .local _ .vmem, ⟨1, _⟩ => ⟨S2048x16, .f32⟩
  | .local _ .vmem, ⟨2, _⟩ => ⟨S1x16, .f32⟩
  | .local _ .vmem, ⟨3, _⟩ => ⟨S1x1x512x2048, .f32⟩
  | .local _ .vmem, ⟨4, _⟩ => ⟨S1x1x512x2048, .f32⟩
  | .local _ .vmem, ⟨5, _⟩ => ⟨S1x1x512x2048, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x2048, .f32⟩
  | .local _ .vmem, ⟨9, _⟩ => ⟨S1x1x512x2048, .f32⟩
  | .local _ .vmem, ⟨10, _⟩ => ⟨S1x1x512x2048, .f32⟩
  | .local _ .vmem, ⟨11, _⟩ => ⟨S1x1x2048, .f32⟩
  | .local _ .vmem, ⟨12, _⟩ => ⟨S1x1x2048, .f32⟩
  | .local _ .vmem, ⟨13, _⟩ => ⟨S512x2048, .f32⟩
  | .local _ .vmem, ⟨14, _⟩ => ⟨S512x16, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_32 : BitVec 32 := 0#32
  let v39 : BitVec 1 := Scalar.cmpi .eq arg0 c0_i32_32
  let v40 : BitVec 32 := Scalar.extui v39
  let c0_i32_33 : BitVec 32 := 0#32
  let v41 : BitVec 1 := Scalar.cmpi .ne v40 c0_i32_33
  v41

def k0_cond3 (i : grid0.Coords) : BitVec 1 :=
  let arg0 : BitVec 32 := BitVec.ofNat 32 (i 0).val
  let c0_i32_34 : BitVec 32 := 0#32
  let v42 : BitVec 1 := Scalar.cmpi .sgt arg0 c0_i32_34
  let v43 : BitVec 32 := Scalar.extui v42
  let c0_i32_35 : BitVec 32 := 0#32
  let v44 : BitVec 1 := Scalar.cmpi .ne v43 c0_i32_35
  v44

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_5 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_6 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S16_S1x16 : S16.ShapeCasts S1x16
  shapeCasts_S16x2048_S16x1x2048 : S16x2048.ShapeCasts S16x1x2048
  shapeCasts_S16x2048x2048_S16x4x512x2048 : S16x2048x2048.ShapeCasts S16x4x512x2048
  inb_S512x2048_S512x2048_0_0 : ∀ a, (![0, 0] : Fin 2 → Nat) a + S512x2048.size a ≤ S512x2048.size a
  h_S512x2048 : 0 < S512x2048.numel
  inb_S2048x16_S2048x16_0_0 : ∀ a, (![0, 0] : Fin 2 → Nat) a + S2048x16.size a ≤ S2048x16.size a
  h_S2048x16 : 0 < S2048x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  shapeCasts_S512_S512x1 : S512.ShapeCasts S512x1
  broadcasts_S512x1_S512x16 : S512x1.Broadcasts S512x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x2048_S512x512_0_0 : ∀ a, (![0, 0] : Fin 2 → Nat) a + S512x512.size a ≤ S512x2048.size a
  h_S512x512 : 0 < S512x512.numel
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  inb_S512x2048_S512x512_0_512 : ∀ a, (![0, 512] : Fin 2 → Nat) a + S512x512.size a ≤ S512x2048.size a
  inb_S512x2048_S512x512_0_1024 : ∀ a, (![0, 1024] : Fin 2 → Nat) a + S512x512.size a ≤ S512x2048.size a
  inb_S512x2048_S512x512_0_1536 : ∀ a, (![0, 1536] : Fin 2 → Nat) a + S512x512.size a ≤ S512x2048.size a
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S512x2048 : S1x2048.Broadcasts S512x2048
  iota_S512x16_d1_w32 : S512x16.Iotas .tc 32 [1]
  broadcasts_S512x1_S512x2048 : S512x1.Broadcasts S512x2048
  shapeCasts_S512x2048_S512x2048 : S512x2048.ShapeCasts S512x2048
  dot_S512x2048_S2048x16_S512x16_1_0_0_1_n_n_wf : DotDims.WF S512x2048 S2048x16 S512x16 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S2048x16.size a
  hwx0_1 : ∀ i : grid0.Coords, EltTy.bits .f32 = 32 ∨ (Rect.block (s := S2048x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S16x4x512x2048.size a
  hwx0_3 : ∀ i : grid0.Coords, EltTy.bits .f32 = 32 ∨ (Rect.block (s := S16x4x512x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S16x4x512x2048.size a
  hwx0_4 : ∀ i : grid0.Coords, EltTy.bits .f32 = 32 ∨ (Rect.block (s := S16x4x512x2048) S1x1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S16x4x512x2048.size a
  hwx0_5 : ∀ i : grid0.Coords, EltTy.bits .f32 = 32 ∨ (Rect.block (s := S16x4x512x2048) S1x1x512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x2048.size a ≤ S16x4x512x2048.size a
  hwx0_6 : ∀ i : grid0.Coords, EltTy.bits .f32 = 32 ∨ (Rect.block (s := S16x4x512x2048) S1x1x512x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S16x1x2048.size a
  hwx0_7 : ∀ i : grid0.Coords, EltTy.bits .f32 = 32 ∨ (Rect.block (s := S16x1x2048) S1x1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S512x2048.size a
  hwx0_8 : ∀ i : grid0.Coords, EltTy.bits .f32 = 32 ∨ (Rect.block (s := S512x2048) S512x2048.size (cc0_transform_8 i) (hinb0_8 i)).WholeWords (EltTy.packing .f32)

variable [Facts₀]

def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x1x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x2048.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) && !(k0_cond3 i == 1#1) | ⟨_ + 9, h⟩ => absurd h (Nat.not_lt.2 (Nat.le_add_left _ _))

class Facts : Prop extends Facts₀ where

variable [Facts]
-- ==== ReferenceIdeal.lean ====
abbrev S512x2048 : Shape := ⟨2, ![512, 2048]⟩
abbrev S2048x16 : Shape := ⟨2, ![2048, 16]⟩
abbrev S16 : Shape := ⟨1, ![16]⟩
abbrev S16x2048x2048 : Shape := ⟨3, ![16, 2048, 2048]⟩
abbrev S16x2048 : Shape := ⟨2, ![16, 2048]⟩
abbrev S512x16 : Shape := ⟨2, ![512, 16]⟩
abbrev S1x16 : Shape := ⟨2, ![1, 16]⟩
abbrev S_ : Shape := ⟨0, ![]⟩
abbrev S512 : Shape := ⟨1, ![512]⟩
abbrev S512x1 : Shape := ⟨2, ![512, 1]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩

abbrev nBuf : Space → Nat
  | .hbm => 297
  | .vmem => 0
  | .smem => 0
  | _ => 0

abbrev hbmTy0_0 (i : Nat) : BufTy := match i % 128 with
  | 0 => ⟨S512x2048, .f32⟩
  | 1 => ⟨S2048x16, .f32⟩
  | 2 => ⟨S16, .f32⟩
  | 3 => ⟨S16x2048x2048, .f32⟩
  | 4 => ⟨S16x2048, .f32⟩
  | 5 => ⟨S512x16, .f32⟩
  | 6 => ⟨S1x16, .f32⟩
  | 7 => ⟨S512x16, .f32⟩
  | 8 => ⟨S512x16, .f32⟩
  | 9 => ⟨S_, .f32⟩
  | 10 => ⟨S512, .f32⟩
  | 11 => ⟨S_, .f32⟩
  | 12 => ⟨S512, .f32⟩
  | 13 => ⟨S512, .f32⟩
  | 14 => ⟨S512x1, .f32⟩
  | 15 => ⟨S512x16, .f32⟩
  | 16 => ⟨S512x16, .f32⟩
  | 17 => ⟨S512x16, .f32⟩
  | 18 => ⟨S_, .f32⟩
  | 19 => ⟨S512, .f32⟩
  | 20 => ⟨S512x1, .f32⟩
  | 21 => ⟨S512x16, .f32⟩
  | 22 => ⟨S512x16, .f32⟩
  | 23 => ⟨S_, .f32⟩
  | 24 => ⟨S512x2048, .f32⟩
  | 25 => ⟨S1x2048x2048, .f32⟩
  | 26 => ⟨S2048x2048, .f32⟩
  | 27 => ⟨S512x2048, .f32⟩
  | 28 => ⟨S1x2048, .f32⟩
  | 29 => ⟨S2048, .f32⟩
  | 30 => ⟨S1x2048, .f32⟩
  | 31 => ⟨S512x2048, .f32⟩
  | 32 => ⟨S512x2048, .f32⟩
  | 33 => ⟨S_, .f32⟩
  | 34 => ⟨S512x2048, .f32⟩
  | 35 => ⟨S512x2048, .f32⟩
  | 36 => ⟨S512x1, .f32⟩
  | 37 => ⟨S512, .f32⟩
  | 38 => ⟨S512x1, .f32⟩
  | 39 => ⟨S512x2048, .f32⟩
  | 40 => ⟨S512x2048, .f32⟩
  | 41 => ⟨S512x2048, .f32⟩
  | 42 => ⟨S1x2048x2048, .f32⟩
  | 43 => ⟨S2048x2048, .f32⟩
  | 44 => ⟨S512x2048, .f32⟩
  | 45 => ⟨S1x2048, .f32⟩
  | 46 => ⟨S2048, .f32⟩
  | 47 => ⟨S1x2048, .f32⟩
  | 48 => ⟨S512x2048, .f32⟩
  | 49 => ⟨S512x2048, .f32⟩
  | 50 => ⟨S_, .f32⟩
  | 51 => ⟨S512x2048, .f32⟩
  | 52 => ⟨S512x2048, .f32⟩
  | 53 => ⟨S512x1, .f32⟩
  | 54 => ⟨S512, .f32⟩
  | 55 => ⟨S512x1, .f32⟩
  | 56 => ⟨S512x2048, .f32⟩
  | 57 => ⟨S512x2048, .f32⟩
  | 58 => ⟨S512x2048, .f32⟩
  | 59 => ⟨S1x2048x2048, .f32⟩
  | 60 => ⟨S2048x2048, .f32⟩
  | 61 => ⟨S512x2048, .f32⟩
  | 62 => ⟨S1x2048, .f32⟩
  | 63 => ⟨S2048, .f32⟩
  | 64 => ⟨S1x2048, .f32⟩
  | 65 => ⟨S512x2048, .f32⟩
  | 66 => ⟨S512x2048, .f32⟩
  | 67 => ⟨S_, .f32⟩
  | 68 => ⟨S512x2048, .f32⟩
  | 69 => ⟨S512x2048, .f32⟩
  | 70 => ⟨S512x1, .f32⟩
  | 71 => ⟨S512, .f32⟩
  | 72 => ⟨S512x1, .f32⟩
  | 73 => ⟨S512x2048, .f32⟩
  | 74 => ⟨S512x2048, .f32⟩
  | 75 => ⟨S512x2048, .f32⟩
  | 76 => ⟨S1x2048x2048, .f32⟩
  | 77 => ⟨S2048x2048, .f32⟩
  | 78 => ⟨S512x2048, .f32⟩
  | 79 => ⟨S1x2048, .f32⟩
  | 80 => ⟨S2048, .f32⟩
  | 81 => ⟨S1x2048, .f32⟩
  | 82 => ⟨S512x2048, .f32⟩
  | 83 => ⟨S512x2048, .f32⟩
  | 84 => ⟨S_, .f32⟩
  | 85 => ⟨S512x2048, .f32⟩
  | 86 => ⟨S512x2048, .f32⟩
  | 87 => ⟨S512x1, .f32⟩
  | 88 => ⟨S512, .f32⟩
  | 89 => ⟨S512x1, .f32⟩
  | 90 => ⟨S512x2048, .f32⟩
  | 91 => ⟨S512x2048, .f32⟩
  | 92 => ⟨S512x2048, .f32⟩
  | 93 => ⟨S1x2048x2048, .f32⟩
  | 94 => ⟨S2048x2048, .f32⟩
  | 95 => ⟨S512x2048, .f32⟩
  | 96 => ⟨S1x2048, .f32⟩
  | 97 => ⟨S2048, .f32⟩
  | 98 => ⟨S1x2048, .f32⟩
  | 99 => ⟨S512x2048, .f32⟩
  | 100 => ⟨S512x2048, .f32⟩
  | 101 => ⟨S_, .f32⟩
  | 102 => ⟨S512x2048, .f32⟩
  | 103 => ⟨S512x2048, .f32⟩
  | 104 => ⟨S512x1, .f32⟩
  | 105 => ⟨S512, .f32⟩
  | 106 => ⟨S512x1, .f32⟩
  | 107 => ⟨S512x2048, .f32⟩
  | 108 => ⟨S512x2048, .f32⟩
  | 109 => ⟨S512x2048, .f32⟩
  | 110 => ⟨S1x2048x2048, .f32⟩
  | 111 => ⟨S2048x2048, .f32⟩
  | 112 => ⟨S512x2048, .f32⟩
  | 113 => ⟨S1x2048, .f32⟩
  | 114 => ⟨S2048, .f32⟩
  | 115 => ⟨S1x2048, .f32⟩
  | 116 => ⟨S512x2048, .f32⟩
  | 117 => ⟨S512x2048, .f32⟩
  | 118 => ⟨S_, .f32⟩
  | 119 => ⟨S512x2048, .f32⟩
  | 120 => ⟨S512x2048, .f32⟩
  | 121 => ⟨S512x1, .f32⟩
  | 122 => ⟨S512, .f32⟩
  | 123 => ⟨S512x1, .f32⟩
  | 124 => ⟨S512x2048, .f32⟩
  | 125 => ⟨S512x2048, .f32⟩
  | 126 => ⟨S512x2048, .f32⟩
  | 127 => ⟨S1x2048x2048, .f32⟩
  | _ => ⟨S512x2048, .f32⟩

abbrev hbmTy0_1 (i : Nat) : BufTy := match i % 128 with
  | 0 => ⟨S2048x2048, .f32⟩
  | 1 => ⟨S512x2048, .f32⟩
  | 2 => ⟨S1x2048, .f32⟩
  | 3 => ⟨S2048, .f32⟩
  | 4 => ⟨S1x2048, .f32⟩
  | 5 => ⟨S512x2048, .f32⟩
  | 6 => ⟨S512x2048, .f32⟩
  | 7 => ⟨S_, .f32⟩
  | 8 => ⟨S512x2048, .f32⟩
  | 9 => ⟨S512x2048, .f32⟩
  | 10 => ⟨S512x1, .f32⟩
  | 11 => ⟨S512, .f32⟩
  | 12 => ⟨S512x1, .f32⟩
  | 13 => ⟨S512x2048, .f32⟩
  | 14 => ⟨S512x2048, .f32⟩
  | 15 => ⟨S512x2048, .f32⟩
  | 16 => ⟨S1x2048x2048, .f32⟩
  | 17 => ⟨S2048x2048, .f32⟩
  | 18 => ⟨S512x2048, .f32⟩
  | 19 => ⟨S1x2048, .f32⟩
  | 20 => ⟨S2048, .f32⟩
  | 21 => ⟨S1x2048, .f32⟩
  | 22 => ⟨S512x2048, .f32⟩
  | 23 => ⟨S512x2048, .f32⟩
  | 24 => ⟨S_, .f32⟩
  | 25 => ⟨S512x2048, .f32⟩
  | 26 => ⟨S512x2048, .f32⟩
  | 27 => ⟨S512x1, .f32⟩
  | 28 => ⟨S512, .f32⟩
  | 29 => ⟨S512x1, .f32⟩
  | 30 => ⟨S512x2048, .f32⟩
  | 31 => ⟨S512x2048, .f32⟩
  | 32 => ⟨S512x2048, .f32⟩
  | 33 => ⟨S1x2048x2048, .f32⟩
  | 34 => ⟨S2048x2048, .f32⟩
  | 35 => ⟨S512x2048, .f32⟩
  | 36 => ⟨S1x2048, .f32⟩
  | 37 => ⟨S2048, .f32⟩
  | 38 => ⟨S1x2048, .f32⟩
  | 39 => ⟨S512x2048, .f32⟩
  | 40 => ⟨S512x2048, .f32⟩
  | 41 => ⟨S_, .f32⟩
  | 42 => ⟨S512x2048, .f32⟩
  | 43 => ⟨S512x2048, .f32⟩
  | 44 => ⟨S512x1, .f32⟩
  | 45 => ⟨S512, .f32⟩
  | 46 => ⟨S512x1, .f32⟩
  | 47 => ⟨S512x2048, .f32⟩
  | 48 => ⟨S512x2048, .f32⟩
  | 49 => ⟨S512x2048, .f32⟩
  | 50 => ⟨S1x2048x2048, .f32⟩
  | 51 => ⟨S2048x2048, .f32⟩
  | 52 => ⟨S512x2048, .f32⟩
  | 53 => ⟨S1x2048, .f32⟩
  | 54 => ⟨S2048, .f32⟩
  | 55 => ⟨S1x2048, .f32⟩
  | 56 => ⟨S512x2048, .f32⟩
  | 57 => ⟨S512x2048, .f32⟩
  | 58 => ⟨S_, .f32⟩
  | 59 => ⟨S512x2048, .f32⟩
  | 60 => ⟨S512x2048, .f32⟩
  | 61 => ⟨S512x1, .f32⟩
  | 62 => ⟨S512, .f32⟩
  | 63 => ⟨S512x1, .f32⟩
  | 64 => ⟨S512x2048, .f32⟩
  | 65 => ⟨S512x2048, .f32⟩
  | 66 => ⟨S512x2048, .f32⟩
  | 67 => ⟨S1x2048x2048, .f32⟩
  | 68 => ⟨S2048x2048, .f32⟩
  | 69 => ⟨S512x2048, .f32⟩
  | 70 => ⟨S1x2048, .f32⟩
  | 71 => ⟨S2048, .f32⟩
  | 72 => ⟨S1x2048, .f32⟩
  | 73 => ⟨S512x2048, .f32⟩
  | 74 => ⟨S512x2048, .f32⟩
  | 75 => ⟨S_, .f32⟩
  | 76 => ⟨S512x2048, .f32⟩
  | 77 => ⟨S512x2048, .f32⟩
  | 78 => ⟨S512x1, .f32⟩
  | 79 => ⟨S512, .f32⟩
  | 80 => ⟨S512x1, .f32⟩
  | 81 => ⟨S512x2048, .f32⟩
  | 82 => ⟨S512x2048, .f32⟩
  | 83 => ⟨S512x2048, .f32⟩
  | 84 => ⟨S1x2048x2048, .f32⟩
  | 85 => ⟨S2048x2048, .f32⟩
  | 86 => ⟨S512x2048, .f32⟩
  | 87 => ⟨S1x2048, .f32⟩
  | 88 => ⟨S2048, .f32⟩
  | 89 => ⟨S1x2048, .f32⟩
  | 90 => ⟨S512x2048, .f32⟩
  | 91 => ⟨S512x2048, .f32⟩
  | 92 => ⟨S_, .f32⟩
  | 93 => ⟨S512x2048, .f32⟩
  | 94 => ⟨S512x2048, .f32⟩
  | 95 => ⟨S512x1, .f32⟩
  | 96 => ⟨S512, .f32⟩
  | 97 => ⟨S512x1, .f32⟩
  | 98 => ⟨S512x2048, .f32⟩
  | 99 => ⟨S512x2048, .f32⟩
  | 100 => ⟨S512x2048, .f32⟩
  | 101 => ⟨S1x2048x2048, .f32⟩
  | 102 => ⟨S2048x2048, .f32⟩
  | 103 => ⟨S512x2048, .f32⟩
  | 104 => ⟨S1x2048, .f32⟩
  | 105 => ⟨S2048, .f32⟩
  | 106 => ⟨S1x2048, .f32⟩
  | 107 => ⟨S512x2048, .f32⟩
  | 108 => ⟨S512x2048, .f32⟩
  | 109 => ⟨S_, .f32⟩
  | 110 => ⟨S512x2048, .f32⟩
  | 111 => ⟨S512x2048, .f32⟩
  | 112 => ⟨S512x1, .f32⟩
  | 113 => ⟨S512, .f32⟩
  | 114 => ⟨S512x1, .f32⟩
  | 115 => ⟨S512x2048, .f32⟩
  | 116 => ⟨S512x2048, .f32⟩
  | 117 => ⟨S512x2048, .f32⟩
  | 118 => ⟨S1x2048x2048, .f32⟩
  | 119 => ⟨S2048x2048, .f32⟩
  | 120 => ⟨S512x2048, .f32⟩
  | 121 => ⟨S1x2048, .f32⟩
  | 122 => ⟨S2048, .f32⟩
  | 123 => ⟨S1x2048, .f32⟩
  | 124 => ⟨S512x2048, .f32⟩
  | 125 => ⟨S512x2048, .f32⟩
  | 126 => ⟨S_, .f32⟩
  | 127 => ⟨S512x2048, .f32⟩
  | _ => ⟨S512x2048, .f32⟩

abbrev hbmTy0_2 (i : Nat) : BufTy := match i % 128 with
  | 0 => ⟨S512x2048, .f32⟩
  | 1 => ⟨S512x1, .f32⟩
  | 2 => ⟨S512, .f32⟩
  | 3 => ⟨S512x1, .f32⟩
  | 4 => ⟨S512x2048, .f32⟩
  | 5 => ⟨S512x2048, .f32⟩
  | 6 => ⟨S512x2048, .f32⟩
  | 7 => ⟨S1x2048x2048, .f32⟩
  | 8 => ⟨S2048x2048, .f32⟩
  | 9 => ⟨S512x2048, .f32⟩
  | 10 => ⟨S1x2048, .f32⟩
  | 11 => ⟨S2048, .f32⟩
  | 12 => ⟨S1x2048, .f32⟩
  | 13 => ⟨S512x2048, .f32⟩
  | 14 => ⟨S512x2048, .f32⟩
  | 15 => ⟨S_, .f32⟩
  | 16 => ⟨S512x2048, .f32⟩
  | 17 => ⟨S512x2048, .f32⟩
  | 18 => ⟨S512x1, .f32⟩
  | 19 => ⟨S512, .f32⟩
  | 20 => ⟨S512x1, .f32⟩
  | 21 => ⟨S512x2048, .f32⟩
  | 22 => ⟨S512x2048, .f32⟩
  | 23 => ⟨S512x2048, .f32⟩
  | 24 => ⟨S1x2048x2048, .f32⟩
  | 25 => ⟨S2048x2048, .f32⟩
  | 26 => ⟨S512x2048, .f32⟩
  | 27 => ⟨S1x2048, .f32⟩
  | 28 => ⟨S2048, .f32⟩
  | 29 => ⟨S1x2048, .f32⟩
  | 30 => ⟨S512x2048, .f32⟩
  | 31 => ⟨S512x2048, .f32⟩
  | 32 => ⟨S_, .f32⟩
  | 33 => ⟨S512x2048, .f32⟩
  | 34 => ⟨S512x2048, .f32⟩
  | 35 => ⟨S512x1, .f32⟩
  | 36 => ⟨S512, .f32⟩
  | 37 => ⟨S512x1, .f32⟩
  | 38 => ⟨S512x2048, .f32⟩
  | 39 => ⟨S512x2048, .f32⟩
  | 40 => ⟨S512x2048, .f32⟩
  | _ => ⟨S512x2048, .f32⟩

abbrev hbmTy (i : Nat) : BufTy := match i / 128 with
  | 0 => hbmTy0_0 i
  | 1 => hbmTy0_1 i
  | 2 => hbmTy0_2 i
  | _ => ⟨S512x2048, .f32⟩

abbrev bufTy : (tb : Table) → Fin (tcTables nBuf tb) → BufTy
  | .hbm, ⟨i, _⟩ => hbmTy i
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call1_cst : Ref sig .tc := ⟨.hbm, 50, rfl⟩
abbrev main_call1_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call2_cst : Ref sig .tc := ⟨.hbm, 67, rfl⟩
abbrev main_call2_v0 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call3_cst : Ref sig .tc := ⟨.hbm, 84, rfl⟩
abbrev main_call3_v0 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_call4_cst : Ref sig .tc := ⟨.hbm, 101, rfl⟩
abbrev main_call4_v0 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_call5_cst : Ref sig .tc := ⟨.hbm, 118, rfl⟩
abbrev main_call5_v0 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_call6_cst : Ref sig .tc := ⟨.hbm, 135, rfl⟩
abbrev main_call6_v0 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_call7_cst : Ref sig .tc := ⟨.hbm, 152, rfl⟩
abbrev main_call7_v0 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_call8_cst : Ref sig .tc := ⟨.hbm, 169, rfl⟩
abbrev main_call8_v0 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_call9_cst : Ref sig .tc := ⟨.hbm, 186, rfl⟩
abbrev main_call9_v0 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_call10_cst : Ref sig .tc := ⟨.hbm, 203, rfl⟩
abbrev main_call10_v0 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_call11_cst : Ref sig .tc := ⟨.hbm, 220, rfl⟩
abbrev main_call11_v0 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_call12_cst : Ref sig .tc := ⟨.hbm, 237, rfl⟩
abbrev main_call12_v0 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_call13_cst : Ref sig .tc := ⟨.hbm, 254, rfl⟩
abbrev main_call13_v0 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_call14_cst : Ref sig .tc := ⟨.hbm, 271, rfl⟩
abbrev main_call14_v0 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_call15_cst : Ref sig .tc := ⟨.hbm, 288, rfl⟩
abbrev main_call15_v0 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  reducesTo_S512x16_S512_d1 : S512x16.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  bcast_S_S512x2048 : S_.BroadcastsInDim S512x2048 (![] : Fin 0 → Fin S512x2048.rank)
  slices_S16x2048x2048_S1x2048x2048_0_0_0 : S16x2048x2048.Slices ![0, 0, 0] S1x2048x2048
  shapeCasts_S1x2048x2048_S2048x2048 : S1x2048x2048.ShapeCasts S2048x2048
  slices_S16x2048_S1x2048_0_0 : S16x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  slices_S512x16_S512x1_0_0 : S512x16.Slices ![0, 0] S512x1
  shapeCasts_S512x1_S512 : S512x1.ShapeCasts S512
  bcast_S512x1_S512x2048_0_1 : S512x1.BroadcastsInDim S512x2048 (![0, 1] : Fin 2 → Fin S512x2048.rank)
  slices_S16x2048x2048_S1x2048x2048_1_0_0 : S16x2048x2048.Slices ![1, 0, 0] S1x2048x2048
  slices_S16x2048_S1x2048_1_0 : S16x2048.Slices ![1, 0] S1x2048
  slices_S512x16_S512x1_0_1 : S512x16.Slices ![0, 1] S512x1
  slices_S16x2048x2048_S1x2048x2048_2_0_0 : S16x2048x2048.Slices ![2, 0, 0] S1x2048x2048
  slices_S16x2048_S1x2048_2_0 : S16x2048.Slices ![2, 0] S1x2048
  slices_S512x16_S512x1_0_2 : S512x16.Slices ![0, 2] S512x1
  slices_S16x2048x2048_S1x2048x2048_3_0_0 : S16x2048x2048.Slices ![3, 0, 0] S1x2048x2048
  slices_S16x2048_S1x2048_3_0 : S16x2048.Slices ![3, 0] S1x2048
  slices_S512x16_S512x1_0_3 : S512x16.Slices ![0, 3] S512x1
  slices_S16x2048x2048_S1x2048x2048_4_0_0 : S16x2048x2048.Slices ![4, 0, 0] S1x2048x2048
  slices_S16x2048_S1x2048_4_0 : S16x2048.Slices ![4, 0] S1x2048
  slices_S512x16_S512x1_0_4 : S512x16.Slices ![0, 4] S512x1
  slices_S16x2048x2048_S1x2048x2048_5_0_0 : S16x2048x2048.Slices ![5, 0, 0] S1x2048x2048
  slices_S16x2048_S1x2048_5_0 : S16x2048.Slices ![5, 0] S1x2048
  slices_S512x16_S512x1_0_5 : S512x16.Slices ![0, 5] S512x1
  slices_S16x2048x2048_S1x2048x2048_6_0_0 : S16x2048x2048.Slices ![6, 0, 0] S1x2048x2048
  slices_S16x2048_S1x2048_6_0 : S16x2048.Slices ![6, 0] S1x2048
  slices_S512x16_S512x1_0_6 : S512x16.Slices ![0, 6] S512x1
  slices_S16x2048x2048_S1x2048x2048_7_0_0 : S16x2048x2048.Slices ![7, 0, 0] S1x2048x2048
  slices_S16x2048_S1x2048_7_0 : S16x2048.Slices ![7, 0] S1x2048
  slices_S512x16_S512x1_0_7 : S512x16.Slices ![0, 7] S512x1
  slices_S16x2048x2048_S1x2048x2048_8_0_0 : S16x2048x2048.Slices ![8, 0, 0] S1x2048x2048
  slices_S16x2048_S1x2048_8_0 : S16x2048.Slices ![8, 0] S1x2048
  slices_S512x16_S512x1_0_8 : S512x16.Slices ![0, 8] S512x1
  slices_S16x2048x2048_S1x2048x2048_9_0_0 : S16x2048x2048.Slices ![9, 0, 0] S1x2048x2048
  slices_S16x2048_S1x2048_9_0 : S16x2048.Slices ![9, 0] S1x2048
  slices_S512x16_S512x1_0_9 : S512x16.Slices ![0, 9] S512x1
  slices_S16x2048x2048_S1x2048x2048_10_0_0 : S16x2048x2048.Slices ![10, 0, 0] S1x2048x2048
  slices_S16x2048_S1x2048_10_0 : S16x2048.Slices ![10, 0] S1x2048
  slices_S512x16_S512x1_0_10 : S512x16.Slices ![0, 10] S512x1
  slices_S16x2048x2048_S1x2048x2048_11_0_0 : S16x2048x2048.Slices ![11, 0, 0] S1x2048x2048
  slices_S16x2048_S1x2048_11_0 : S16x2048.Slices ![11, 0] S1x2048
  slices_S512x16_S512x1_0_11 : S512x16.Slices ![0, 11] S512x1
  slices_S16x2048x2048_S1x2048x2048_12_0_0 : S16x2048x2048.Slices ![12, 0, 0] S1x2048x2048
  slices_S16x2048_S1x2048_12_0 : S16x2048.Slices ![12, 0] S1x2048
  slices_S512x16_S512x1_0_12 : S512x16.Slices ![0, 12] S512x1
  slices_S16x2048x2048_S1x2048x2048_13_0_0 : S16x2048x2048.Slices ![13, 0, 0] S1x2048x2048
  slices_S16x2048_S1x2048_13_0 : S16x2048.Slices ![13, 0] S1x2048
  slices_S512x16_S512x1_0_13 : S512x16.Slices ![0, 13] S512x1
  slices_S16x2048x2048_S1x2048x2048_14_0_0 : S16x2048x2048.Slices ![14, 0, 0] S1x2048x2048
  slices_S16x2048_S1x2048_14_0 : S16x2048.Slices ![14, 0] S1x2048
  slices_S512x16_S512x1_0_14 : S512x16.Slices ![0, 14] S512x1
  slices_S16x2048x2048_S1x2048x2048_15_0_0 : S16x2048x2048.Slices ![15, 0, 0] S1x2048x2048
  slices_S16x2048_S1x2048_15_0 : S16x2048.Slices ![15, 0] S1x2048
  slices_S512x16_S512x1_0_15 : S512x16.Slices ![0, 15] S512x1
  dot_S512x2048_S2048x16_S512x16_1_0_0_1_n_n_wf : DotDims.WF S512x2048 S2048x16 S512x16 [1] [0] [0] [1] [] []
  dot_S512x2048_S2048x2048_S512x2048_1_0_0_1_n_n_wf : DotDims.WF S512x2048 S2048x2048 S512x2048 [1] [0] [0] [1] [] []

variable [Facts₀]

def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

class Facts : Prop extends Facts₀ where

variable [Facts]
-- ==== Proof.Kernel.Setup.lean ====
/-
  What the runs of the kernel's body share, for the program in namespace Cert.Kernel read at any float instance:
  the contents of the TensorCore's buffers when the region is entered (the three reshapes of the bias vector, the
  expert biases and the expert weights have run; the five argument arrays are untouched), each window's block at a
  grid point read off those contents, the three conditions of the body decided over the sixteen grid points (the
  first two hold exactly at expert 0, the third exactly at the others), the output window live at every point, and
  the one scoped buffer the pipeline does not stage (the [512,16] scratch that carries the gate probabilities) as
  an owned memref.
-/
import proofs.«118571_g10582799417755_week1_w2_590_23_alg».proof.Proof.Gen.Kernel.Launch
import proofs.«118571_g10582799417755_week1_w2_590_23_alg».proof.Proof.Gen.Kernel.Skeleton
import proofs.«118571_g10582799417755_week1_w2_590_23_alg».proof.Proof.Gen.Kernel.Points
import Idealize.ShloMosaic.Lib.Pipeline.FrameBody
import Idealize.ShloMosaic.Lib.Tactic
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s TensorCore buffer contents when the region is entered: after the three reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the three reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument array: the region finds each as launched. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    rcases hb with rfl | rfl | rfl | rfl | rfl <;> (repeat' apply And.intro) <;> exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions over the grid -/

/-- "This is expert 0", as the gate's branch computes it. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The same, as the first store's branch computes it. -/
abbrev cond2 (i : grid0.Coords) : Prop := k0_cond2 i = 1#1
theorem hcond2 : ∀ t : Fin cfg0.N, cond2 (grid0.coords t) ↔ t.val = 0 :=
  (by decide +kernel : ∀ t : Fin grid0.N, cond2 (grid0.coords t) ↔ t.val = 0)
/-- "This is a later expert". -/
abbrev cond3 (i : grid0.Coords) : Prop := k0_cond3 i = 1#1
theorem hcond3 : ∀ t : Fin cfg0.N, cond3 (grid0.coords t) ↔ t.val ≠ 0 :=
  (by decide +kernel : ∀ t : Fin grid0.N, cond3 (grid0.coords t) ↔ t.val ≠ 0)

/-- The grid coordinate of point `t` is `t`. -/
theorem coord_val : ∀ t : Fin cfg0.N, (grid0.coords t 0).val = t.val :=
  (by decide +kernel : ∀ t : Fin grid0.N, (grid0.coords t 0).val = t.val)

/-- The output window is stored into at every point. -/
theorem live8 : ∀ i : grid0.Coords, cfg0.idle 8 i = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x512x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x512x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x2048 .f32 := win0_8.stage (cfg0.slots t 8)
abbrev hs8 (t : Fin cfg0.N) : (ms8 t).IsWhole := hstage0_8 ((cfg0.slots t 8).cast nbuf0_8)
/-- The scratch that carries the gate probabilities from expert 0 to the later experts. -/
abbrev scM : Memref sig .tc .vmem S512x16 .f32 := Memref.whole cc0_scratch0
/-- One staging buffer of the output window and the scratch, as views through which contents are stated. -/
abbrev VO : View sig .tc .vmem S512x2048 .f32 := (Memref.whole cc0_stg8_0 : Memref sig .tc .vmem S512x2048 .f32).view
abbrev VS : View sig .tc .vmem S512x16 .f32 := scM.view

/-- The scoped buffers the pipeline does not stage are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.Kernel.RunFirst.lean ====
/-
  The kernel's body run at expert 0, on any whole staging memrefs: the eight input buffers at their contents, the
  output buffer and the scratch at anything. The body computes the gate from the token block, the gate weights and
  the gate bias and stores it whole into the scratch, then computes expert 0's share of the output and stores it
  whole into the output buffer; the inputs are left as found. What the two stores leave is recorded as the pieces
  the symbolic run finds.
-/
import proofs.«118571_g10582799417755_week1_w2_590_23_alg».proof.Proof.Kernel.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the first two conditions hold and the third fails (expert 0): the pieces its stores
    leave in the output buffer (`.1`) and in the scratch (`.2.1`), with the triple that says so. -/
noncomputable def runFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole)
    (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) :
    Σ' (L8 : List (View.Piece (Elt F) S512x2048 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS)) -∗ K ⟨⟩))
          ⊢ wp frame (wpE (defs₀ (F := F)) Variants.none c none) E (cc0__moe_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__moe_body_eq_skeleton]; unfold cc0__moe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact HS

end Cert.Kernel.Hand

end
-- ==== Proof.Kernel.RunLater.lean ====
/-
  The kernel's body run at a later expert, on any whole staging memrefs: the eight input buffers at their contents,
  the output buffer at what the expert before left, the scratch at the gate probabilities. The body reads the
  scratch and the output buffer, and stores the previous output plus this expert's share whole into the output
  buffer; the inputs and the scratch are left as found. What the store leaves is recorded as the pieces the
  symbolic run finds.
-/
import proofs.«118571_g10582799417755_week1_w2_590_23_alg».proof.Proof.Kernel.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the first two conditions fail and the third holds (a later expert): the pieces its
    store leaves in the output buffer, with the triple that says so. -/
noncomputable def runLater (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole)
    (hc1 : ¬cond1 i) (hc2 : ¬cond2 i) (hc3 : cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (xo : Vec F S512x2048 .f32) (xs : Vec F S512x16 .f32) :
    { L8 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare xo ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8) ∗ owns (c : Thread nD τ) arg10 fullShare xs) -∗ K ⟨⟩))
          ⊢ wp frame (wpE (defs₀ (F := F)) Variants.none c none) E (cc0__moe_body i arg1 harg1 arg2 harg2 arg3 harg3 arg4 harg4 arg5 harg5 arg6 harg6 arg7 harg7 arg8 harg8 arg9 harg9 arg10 harg10) K } := by
  refine ⟨?_, fun E K => ?run⟩
  case run =>
    simp only [cc0__moe_body_eq_skeleton]; unfold cc0__moe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; isplitr; · ipureintro; exact harg10.read_unread _
    iexact HS

end Cert.Kernel.Hand

end
-- ==== Proof.LibSharedLaunch.lean ====
/-
  The frame run of a pipeline region whose input windows may SHARE an array.

  A region's launch hands the pipeline the distinct buffers behind its windows' arrays, each whole at the full share.
  When every window has an array of its own these are the windows' arrays one by one; when several input windows
  read one array (one operand passed to the kernel through several block specifications, each with its own index
  map) the array's full share has to be dealt among them, and how is the certificate's to say. This module states
  the frame run for that case: for any configuration, any proof data and any invariant over the scoped buffers the
  pipeline does not stage, given the deal (`hsplit`), every weakly fair execution of the program terminates with
  each array at what the proof data compute for it and every unscoped buffer that is no array at its contents at the
  region's entry. The region's invariant is entered from the scoped rest alone (the body is assumed not to draw
  random numbers) and returns it after the last point.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracking invariant for windows that may share arrays: the layout facts one by one (the
    arrays need not be distinct), the body obligation at every point, nothing owed, the program's shape up to the
    region with the buffers' contents there (`V`), the deal of the arrays' buffers among the windows (`hsplit`),
    and an invariant the scoped rest yields before the first point and gives back after the last. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) (BI.Entails.refl _) V hmain hsplit
    (fun _ => iprop(emp)) (fun _ => iprop(emp)) (fun c => unscopedRest (cfgs p).spec c (V c))
    (fun c => by
      iintro H
      isplitr
      · iempintro
      · iexact H)
    (fun c => (show iprop(iprop(emp) ∗ scopedRest (cfgs p).spec c) ⊢ (scopedRest (cfgs p).spec c : sProp 𝕄) from by
      iintro ⟨-, H⟩; iexact H).trans (hin c))
    (fun c => (hout c).trans (by
      iintro H
      isplitr
      · iempintro
      · iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Idealize.ShloMosaic.Pipeline

end
-- ==== Proof.Kernel.Frame.lean ====
/-
  The frame of the program in namespace Cert.Kernel, at any float instance, with every output array named.

  The region runs the body at sixteen grid points, one per expert. Expert 0's run stores the gate probabilities
  into the scratch and its own share of the output into the output window's buffer; each later run reads both
  back and adds its share. So after point n the output buffer and the scratch hold `outsAt n`, defined by
  recursion on n from the two runs. The region invariant carries the scratch: anything before point 0, the gate
  probabilities afterwards. The four weight windows read one array (the expert weights regrouped in four row
  blocks), whose full share is dealt among them as left, right-left, right-right-left, right-right-right.
  The run concludes that the result array ends at what the last point left and every other array as found.
-/
import proofs.«118571_g10582799417755_week1_w2_590_23_alg».proof.Proof.Kernel.RunLater
import proofs.«118571_g10582799417755_week1_w2_590_23_alg».proof.Proof.LibSharedLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- What expert 0's run leaves in the output buffer: its pieces read back. -/
def outFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) : Vec F S512x2048 .f32 :=
  VO.read (Elt F) (VO.writes (Elt F) VO.junk (runFirst c i arg1 harg1 arg2 harg2 arg3 harg3 arg4 harg4 arg5 harg5 arg6 harg6 arg7 harg7 arg8 harg8 arg9 harg9 arg10 harg10 hc1 hc2 hc3 x0 x1 x2 x3 x4 x5 x6 x7).1)

/-- Those pieces cover the buffer (one store of the whole block). -/
theorem coverFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (y : S512x2048.Idx) :
    ∃ pc ∈ (runFirst c i arg1 harg1 arg2 harg2 arg3 harg3 arg4 harg4 arg5 harg5 arg6 harg6 arg7 harg7 arg8 harg8 arg9 harg9 arg10 harg10 hc1 hc2 hc3 x0 x1 x2 x3 x4 x5 x6 x7).1, y ∈ pc.1.set :=
  View.cover_of_tiledL (runFirst c i arg1 harg1 arg2 harg2 arg3 harg3 arg4 harg4 arg5 harg5 arg6 harg6 arg7 harg7 arg8 harg8 arg9 harg9 arg10 harg10 hc1 hc2 hc3 x0 x1 x2 x3 x4 x5 x6 x7).1 S512x2048.size (by sl_kernel_rfl) y

/-- What expert 0's run leaves in the scratch: the gate probabilities, as its pieces read back. -/
def scrFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) : Vec F S512x16 .f32 :=
  VS.read (Elt F) (VS.writes (Elt F) VS.junk (runFirst c i arg1 harg1 arg2 harg2 arg3 harg3 arg4 harg4 arg5 harg5 arg6 harg6 arg7 harg7 arg8 harg8 arg9 harg9 arg10 harg10 hc1 hc2 hc3 x0 x1 x2 x3 x4 x5 x6 x7).2.1)

theorem scoverFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (y : S512x16.Idx) :
    ∃ pc ∈ (runFirst c i arg1 harg1 arg2 harg2 arg3 harg3 arg4 harg4 arg5 harg5 arg6 harg6 arg7 harg7 arg8 harg8 arg9 harg9 arg10 harg10 hc1 hc2 hc3 x0 x1 x2 x3 x4 x5 x6 x7).2.1, y ∈ pc.1.set :=
  View.cover_of_tiledL (runFirst c i arg1 harg1 arg2 harg2 arg3 harg3 arg4 harg4 arg5 harg5 arg6 harg6 arg7 harg7 arg8 harg8 arg9 harg9 arg10 harg10 hc1 hc2 hc3 x0 x1 x2 x3 x4 x5 x6 x7).2.1 S512x16.size (by sl_kernel_rfl) y

/-- What a later expert's run leaves in the output buffer. -/
def outLater (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : ¬cond1 i) (hc2 : ¬cond2 i) (hc3 : cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (xo : Vec F S512x2048 .f32) (xs : Vec F S512x16 .f32) : Vec F S512x2048 .f32 :=
  VO.read (Elt F) (VO.writes (Elt F) VO.junk (runLater c i arg1 harg1 arg2 harg2 arg3 harg3 arg4 harg4 arg5 harg5 arg6 harg6 arg7 harg7 arg8 harg8 arg9 harg9 arg10 harg10 hc1 hc2 hc3 x0 x1 x2 x3 x4 x5 x6 x7 xo xs).1)

theorem coverLater (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : ¬cond1 i) (hc2 : ¬cond2 i) (hc3 : cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (xo : Vec F S512x2048 .f32) (xs : Vec F S512x16 .f32) (y : S512x2048.Idx) :
    ∃ pc ∈ (runLater c i arg1 harg1 arg2 harg2 arg3 harg3 arg4 harg4 arg5 harg5 arg6 harg6 arg7 harg7 arg8 harg8 arg9 harg9 arg10 harg10 hc1 hc2 hc3 x0 x1 x2 x3 x4 x5 x6 x7 xo xs).1, y ∈ pc.1.set :=
  View.cover_of_tiledL (runLater c i arg1 harg1 arg2 harg2 arg3 harg3 arg4 harg4 arg5 harg5 arg6 harg6 arg7 harg7 arg8 harg8 arg9 harg9 arg10 harg10 hc1 hc2 hc3 x0 x1 x2 x3 x4 x5 x6 x7 xo xs).1 S512x2048.size (by sl_kernel_rfl) y

/-! ## The output buffer and the scratch after each point -/

/-- After the body at position `n`: the output window's buffer and the scratch. -/
def outsAt (c : Dev nD) : (n : ℕ) → n < cfg0.N → Vec F S512x2048 .f32 × Vec F S512x16 .f32
  | 0, hn =>
    (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond1 ⟨0, hn⟩).mpr rfl) ((hcond2 ⟨0, hn⟩).mpr rfl) (fun h => (hcond3 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
     scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond1 ⟨0, hn⟩).mpr rfl) ((hcond2 ⟨0, hn⟩).mpr rfl) (fun h => (hcond3 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => Nat.succ_ne_zero n ((hcond1 ⟨n + 1, hn⟩).mp h)) (fun h => Nat.succ_ne_zero n ((hcond2 ⟨n + 1, hn⟩).mp h)) ((hcond3 ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).1 (outsAt c n (Nat.lt_of_succ_lt hn)).2,
     (outsAt c n (Nat.lt_of_succ_lt hn)).2)

theorem outsAt_first (c : Dev nD) (t : Fin cfg0.N) (h0 : t.val = 0) :
    outsAt m c t.val t.isLt =
      (outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond1 t).mpr h0) ((hcond2 t).mpr h0) (fun h => (hcond3 t).mp h h0) (iblk m c 0 t) (iblk m c 1 t) (iblk m c 2 t) (iblk m c 3 t) (iblk m c 4 t) (iblk m c 5 t) (iblk m c 6 t) (iblk m c 7 t),
       scrFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond1 t).mpr h0) ((hcond2 t).mpr h0) (fun h => (hcond3 t).mp h h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => rfl
  | succ n => exact absurd h0 (Nat.succ_ne_zero n)

theorem outsAt_later (c : Dev nD) (t : Fin cfg0.N) (h0 : t.val ≠ 0) :
    outsAt m c t.val t.isLt =
      (outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond1 t).mp h)) (fun h => h0 ((hcond2 t).mp h)) ((hcond3 t).mpr h0) (iblk m c 0 t) (iblk m c 1 t) (iblk m c 2 t) (iblk m c 3 t) (iblk m c 4 t) (iblk m c 5 t) (iblk m c 6 t) (iblk m c 7 t)
          (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h0
  | succ n => rfl

/-- The region invariant before position `n`: the scratch at anything before the first point, at the gate
    probabilities afterwards. -/
def PhiS (c : Dev nD) : (n : ℕ) → n ≤ cfg0.N → sProp 𝕄
  | 0, _ => iprop(∃ d, owns (c : Thread nD τ) scM fullShare d)
  | n + 1, hn => owns (c : Thread nD τ) scM fullShare (outsAt m c n hn).2

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (outsAt m c n hn).2 := rfl

theorem PhiS_pos (c : Dev nD) (n : ℕ) (h : n ≤ cfg0.N) (hz : n ≠ 0) :
    PhiS m c n h = owns (c : Thread nD τ) scM fullShare (outsAt m c (n - 1) (by omega)).2 := by
  cases n with
  | zero => exact absurd rfl hz
  | succ n => rfl

/-! ## The pipeline's proof data -/

/-- The arrays as the region finds them; after the body each input's buffer at its block and the output's at
    `outsAt`; the invariant `PhiS`; nothing owed; the shared array's share dealt among its four windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨3, _⟩ => fullShare.left
    | ⟨4, _⟩ => fullShare.right.left
    | ⟨5, _⟩ => fullShare.right.right.left
    | ⟨6, _⟩ => fullShare.right.right.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

/-! ## What the body finds in each buffer -/

/-- Input window 0's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's current buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's current buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- Input window 6's current buffer holds its block at every point, fetched there or not. -/
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- Input window 7's current buffer holds its block at every point, fetched there or not. -/
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-- At a later point the output buffer holds what the point before left: it is written back only after the last. -/
theorem before8 (c : Dev nD) (t : Fin cfg0.N) (h0 : t.val ≠ 0) (d) :
    (dats m 0 c).before 8 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 8 rfl t h0 (Bool.eq_false_iff.mpr fun h => by have := (flush0_8 _).mp h; dsimp only at this; omega)
    live8 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) :
    (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) :
    (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) :
    (dats m 0 c).leavesExact 7 t = owns (c : Thread nD τ) (ms7 t) fullShare (iblk m c 7 t) := by
  unfold Dat.leavesExact; rw [show cfg0.idle 7 (cfg0.grid.coords t) = false from rfl, after7]
theorem leaves8 (c : Dev nD) (t : Fin cfg0.N) :
    (dats m 0 c).leavesExact 8 t = owns (c : Thread nD τ) (ms8 t) fullShare (outsAt m c t.val t.isLt).1 := by
  unfold Dat.leavesExact; rw [live8, after8]

set_option maxHeartbeats 4800000 in
/-- The body at any point: the inputs' buffers hold their blocks; at point 0 the output buffer and the scratch hold
    anything and expert 0's run applies; at a later point they hold what the point before left and the later run
    applies; the scratch goes back into the invariant at the gate probabilities. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8]
  by_cases hz : t.val = 0
  · rw [outsAt_first m c t hz]
    unfold outFirst scrFirst; (try dsimp only)
    rw [PhiS_castSucc m c t, PhiS_zero m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ _ _ ((hcond1 t).mpr hz) ((hcond2 t).mpr hz) (fun h => (hcond3 t).mp h hz) (iblk m c 0 t) (iblk m c 1 t) (iblk m c 2 t) (iblk m c 3 t) (iblk m c 4 t) (iblk m c 5 t) (iblk m c 6 t) (iblk m c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverFirst c _ _ _ _ _ _ _ _ _ _ _ _ _ _ _ _ _ _ _ _ _ _ _ _ _ _ _ _ _ _ _ _)
  · rw [outsAt_later m c t hz]
    unfold outLater; (try dsimp only)
    rw [PhiS_castSucc m c t, PhiS_pos m c _ _ hz]
    simp only [before8 m c t hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ _ _ (fun h => hz ((hcond1 t).mp h)) (fun h => hz ((hcond2 t).mp h)) ((hcond3 t).mpr hz) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverLater c _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_scratch]
  try exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest_scratch]
  iintro H
  iexists _; iexact H

/-- The distinct buffers behind the windows' arrays, listed. -/
theorem arrBufs_list (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_v2) ↦{fullShare} Vc main_v2)
          ∗ (((c : Thread nD τ).loc main_v1) ↦{fullShare} Vc main_v1) ∗ (((c : Thread nD τ).loc main_v3) ↦{fullShare} Vc main_v3)) := by
  unfold Pipeline.arrBufs
  exact BI.bigSep_eq_bigSepL_of_eq [main_arg0, main_arg1, main_v0, main_v2, main_v1, main_v3] (by decide) (by decide) _

/-- The windows' arrays at their shares, as points-tos of the buffers behind them. -/
theorem arrays_shares (c : Dev nD) (G : (w : Fin cfg0.W) → Buf (Elt F) ((cfg0.win w).arr.view.loc (c : Thread nD τ))) :
    (dats m 0 c).arrays G = bigSep Finset.univ fun w => iprop((((c : Thread nD τ).loc (Pipeline.arrRef spec0 w)) ↦{(dats m 0 c).share w} G w : sProp 𝕄)) := by
  unfold Dat.arrays
  exact bigSep_congr fun w _ => by rw [(arr_whole0 w).set_eq_univ]

/-- The deal: each array's buffer whole at the full share gives its window's share; the regrouped expert weights'
    buffer is split in four, one share per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_shares, bigSep_W0]
  iintro ⟨H0, H1, H2, H3, H4, H5⟩
  ihave H3' := (pointsTo_share (PosShare.mem_left_op_right fullShare)).1 $$ H3
  icases H3' with ⟨Ha, Hr⟩
  ihave Hr' := (pointsTo_share (PosShare.mem_left_op_right fullShare.right)).1 $$ Hr
  icases Hr' with ⟨Hb, Hr⟩
  ihave Hr'' := (pointsTo_share (PosShare.mem_left_op_right fullShare.right.right)).1 $$ Hr
  icases Hr'' with ⟨Hc, Hd⟩
  isplitl [H0]; · iexact H0
  isplitl [H1]; · iexact H1
  isplitl [H2]; · iexact H2
  isplitl [Ha]; · iexact Ha
  isplitl [Hb]; · iexact Hb
  isplitl [Hc]; · iexact Hc
  isplitl [Hd]; · iexact Hd
  isplitl [H4]; · iexact H4
  iexact H5

/-! ## The run and the frame -/

set_option backward.isDefEq.respectTransparency.types false in
/-- Every weakly fair execution of the program terminates, each array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-! ## The frame claim, and the run with the result named -/

/-- The result array after the run: what the library computes for the output window from the proof data. -/
def result (c : Dev nD) : Buf (Elt F) ((c : Thread nD τ).loc main_v3) := (dats m 0 c).arrAt 8 cfg0.N

/-- Every weakly fair execution terminates with the result array at `result` and the five argument arrays
    unchanged: the token block and the gate weights are input windows' arrays (never written), the other three
    are no window's array and no reshape writes them. -/
theorem run_named : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 8,
     ((h c).1 0).trans (((dats m 0 c).arrAt_in 0 rfl _).trans ((A_eq m c 0).trans (V_arg m c main_arg0 (.inl rfl)))),
     ((h c).1 1).trans (((dats m 0 c).arrAt_in 1 rfl _).trans ((A_eq m c 1).trans (V_arg m c main_arg1 (.inr (.inl rfl))))),
     ((h c).2 main_arg2 (Pipeline.mem_restRefs_of _ rfl (by decide))).trans (V_arg m c main_arg2 (.inr (.inr (.inl rfl)))),
     ((h c).2 main_arg3 (Pipeline.mem_restRefs_of _ rfl (by decide))).trans (V_arg m c main_arg3 (.inr (.inr (.inr (.inl rfl))))),
     ((h c).2 main_arg4 (Pipeline.mem_restRefs_of _ rfl (by decide))).trans (V_arg m c main_arg4 (.inr (.inr (.inr (.inr rfl)))))⟩)
    (run_main m ρ)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.Kernel.Hand

end
-- ==== Proof.KernelIdeal.Setup.lean ====
/-
  What the runs of the kernel's body share, for the program in namespace Cert.KernelIdeal read at any float instance:
  the contents of the TensorCore's buffers when the region is entered (the three reshapes of the bias vector, the
  expert biases and the expert weights have run; the five argument arrays are untouched), each window's block at a
  grid point read off those contents, the three conditions of the body decided over the sixteen grid points (the
  first two hold exactly at expert 0, the third exactly at the others), the output window live at every point, and
  the one scoped buffer the pipeline does not stage (the [512,16] scratch that carries the gate probabilities) as
  an owned memref.
-/
import proofs.«118571_g10582799417755_week1_w2_590_23_alg».proof.Proof.Gen.KernelIdeal.Launch
import proofs.«118571_g10582799417755_week1_w2_590_23_alg».proof.Proof.Gen.KernelIdeal.Skeleton
import proofs.«118571_g10582799417755_week1_w2_590_23_alg».proof.Proof.Gen.KernelIdeal.Points
import Idealize.ShloMosaic.Lib.Pipeline.FrameBody
import Idealize.ShloMosaic.Lib.Tactic
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s TensorCore buffer contents when the region is entered: after the three reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the three reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No reshape writes an argument array: the region finds each as launched. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    rcases hb with rfl | rfl | rfl | rfl | rfl <;> (repeat' apply And.intro) <;> exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions over the grid -/

/-- "This is expert 0", as the gate's branch computes it. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The same, as the first store's branch computes it. -/
abbrev cond2 (i : grid0.Coords) : Prop := k0_cond2 i = 1#1
theorem hcond2 : ∀ t : Fin cfg0.N, cond2 (grid0.coords t) ↔ t.val = 0 :=
  (by decide +kernel : ∀ t : Fin grid0.N, cond2 (grid0.coords t) ↔ t.val = 0)
/-- "This is a later expert". -/
abbrev cond3 (i : grid0.Coords) : Prop := k0_cond3 i = 1#1
theorem hcond3 : ∀ t : Fin cfg0.N, cond3 (grid0.coords t) ↔ t.val ≠ 0 :=
  (by decide +kernel : ∀ t : Fin grid0.N, cond3 (grid0.coords t) ↔ t.val ≠ 0)

/-- The grid coordinate of point `t` is `t`. -/
theorem coord_val : ∀ t : Fin cfg0.N, (grid0.coords t 0).val = t.val :=
  (by decide +kernel : ∀ t : Fin grid0.N, (grid0.coords t 0).val = t.val)

/-- The output window is stored into at every point. -/
theorem live8 : ∀ i : grid0.Coords, cfg0.idle 8 i = false := by decide +kernel

/-! ## The memrefs the body is called with -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x512x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x512x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x2048 .f32 := win0_8.stage (cfg0.slots t 8)
abbrev hs8 (t : Fin cfg0.N) : (ms8 t).IsWhole := hstage0_8 ((cfg0.slots t 8).cast nbuf0_8)
/-- The scratch that carries the gate probabilities from expert 0 to the later experts. -/
abbrev scM : Memref sig .tc .vmem S512x16 .f32 := Memref.whole cc0_scratch0
/-- One staging buffer of the output window and the scratch, as views through which contents are stated. -/
abbrev VO : View sig .tc .vmem S512x2048 .f32 := (Memref.whole cc0_stg8_0 : Memref sig .tc .vmem S512x2048 .f32).view
abbrev VS : View sig .tc .vmem S512x16 .f32 := scM.view

/-- The scoped buffers the pipeline does not stage are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KernelIdeal.RunFirst.lean ====
/-
  The kernel's body run at expert 0, on any whole staging memrefs: the eight input buffers at their contents, the
  output buffer and the scratch at anything. The body computes the gate from the token block, the gate weights and
  the gate bias and stores it whole into the scratch, then computes expert 0's share of the output and stores it
  whole into the output buffer; the inputs are left as found. What the two stores leave is recorded as the pieces
  the symbolic run finds.
-/
import proofs.«118571_g10582799417755_week1_w2_590_23_alg».proof.Proof.KernelIdeal.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the first two conditions hold and the third fails (expert 0): the pieces its stores
    leave in the output buffer (`.1`) and in the scratch (`.2.1`), with the triple that says so. -/
noncomputable def runFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole)
    (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) :
    Σ' (L8 : List (View.Piece (Elt F) S512x2048 .f32)), { LS : List (View.Piece (Elt F) S512x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS)) -∗ K ⟨⟩))
          ⊢ wp frame (wpE (defs₀ (F := F)) Variants.none c none) E (cc0__moe_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__moe_body_eq_skeleton]; unfold cc0__moe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact HS

end Cert.KernelIdeal.Hand

end
-- ==== Proof.KernelIdeal.RunLater.lean ====
/-
  The kernel's body run at a later expert, on any whole staging memrefs: the eight input buffers at their contents,
  the output buffer at what the expert before left, the scratch at the gate probabilities. The body reads the
  scratch and the output buffer, and stores the previous output plus this expert's share whole into the output
  buffer; the inputs and the scratch are left as found. What the store leaves is recorded as the pieces the
  symbolic run finds.
-/
import proofs.«118571_g10582799417755_week1_w2_590_23_alg».proof.Proof.KernelIdeal.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the first two conditions fail and the third holds (a later expert): the pieces its
    store leaves in the output buffer, with the triple that says so. -/
noncomputable def runLater (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole)
    (hc1 : ¬cond1 i) (hc2 : ¬cond2 i) (hc3 : cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (xo : Vec F S512x2048 .f32) (xs : Vec F S512x16 .f32) :
    { L8 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare xo ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8) ∗ owns (c : Thread nD τ) arg10 fullShare xs) -∗ K ⟨⟩))
          ⊢ wp frame (wpE (defs₀ (F := F)) Variants.none c none) E (cc0__moe_body i arg1 harg1 arg2 harg2 arg3 harg3 arg4 harg4 arg5 harg5 arg6 harg6 arg7 harg7 arg8 harg8 arg9 harg9 arg10 harg10) K } := by
  refine ⟨?_, fun E K => ?run⟩
  case run =>
    simp only [cc0__moe_body_eq_skeleton]; unfold cc0__moe_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; isplitr; · ipureintro; exact harg10.read_unread _
    iexact HS

end Cert.KernelIdeal.Hand

end
-- ==== Proof.KernelIdeal.Frame.lean ====
/-
  The frame of the program in namespace Cert.KernelIdeal, at any float instance, with every output array named.

  The region runs the body at sixteen grid points, one per expert. Expert 0's run stores the gate probabilities
  into the scratch and its own share of the output into the output window's buffer; each later run reads both
  back and adds its share. So after point n the output buffer and the scratch hold `outsAt n`, defined by
  recursion on n from the two runs. The region invariant carries the scratch: anything before point 0, the gate
  probabilities afterwards. The four weight windows read one array (the expert weights regrouped in four row
  blocks), whose full share is dealt among them as left, right-left, right-right-left, right-right-right.
  The run concludes that the result array ends at what the last point left and every other array as found.
-/
import proofs.«118571_g10582799417755_week1_w2_590_23_alg».proof.Proof.KernelIdeal.RunLater
import proofs.«118571_g10582799417755_week1_w2_590_23_alg».proof.Proof.LibSharedLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- What expert 0's run leaves in the output buffer: its pieces read back. -/
def outFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) : Vec F S512x2048 .f32 :=
  VO.read (Elt F) (VO.writes (Elt F) VO.junk (runFirst c i arg1 harg1 arg2 harg2 arg3 harg3 arg4 harg4 arg5 harg5 arg6 harg6 arg7 harg7 arg8 harg8 arg9 harg9 arg10 harg10 hc1 hc2 hc3 x0 x1 x2 x3 x4 x5 x6 x7).1)

/-- Those pieces cover the buffer (one store of the whole block). -/
theorem coverFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (y : S512x2048.Idx) :
    ∃ pc ∈ (runFirst c i arg1 harg1 arg2 harg2 arg3 harg3 arg4 harg4 arg5 harg5 arg6 harg6 arg7 harg7 arg8 harg8 arg9 harg9 arg10 harg10 hc1 hc2 hc3 x0 x1 x2 x3 x4 x5 x6 x7).1, y ∈ pc.1.set :=
  View.cover_of_tiledL (runFirst c i arg1 harg1 arg2 harg2 arg3 harg3 arg4 harg4 arg5 harg5 arg6 harg6 arg7 harg7 arg8 harg8 arg9 harg9 arg10 harg10 hc1 hc2 hc3 x0 x1 x2 x3 x4 x5 x6 x7).1 S512x2048.size (by sl_kernel_rfl) y

/-- What expert 0's run leaves in the scratch: the gate probabilities, as its pieces read back. -/
def scrFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) : Vec F S512x16 .f32 :=
  VS.read (Elt F) (VS.writes (Elt F) VS.junk (runFirst c i arg1 harg1 arg2 harg2 arg3 harg3 arg4 harg4 arg5 harg5 arg6 harg6 arg7 harg7 arg8 harg8 arg9 harg9 arg10 harg10 hc1 hc2 hc3 x0 x1 x2 x3 x4 x5 x6 x7).2.1)

theorem scoverFirst (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (y : S512x16.Idx) :
    ∃ pc ∈ (runFirst c i arg1 harg1 arg2 harg2 arg3 harg3 arg4 harg4 arg5 harg5 arg6 harg6 arg7 harg7 arg8 harg8 arg9 harg9 arg10 harg10 hc1 hc2 hc3 x0 x1 x2 x3 x4 x5 x6 x7).2.1, y ∈ pc.1.set :=
  View.cover_of_tiledL (runFirst c i arg1 harg1 arg2 harg2 arg3 harg3 arg4 harg4 arg5 harg5 arg6 harg6 arg7 harg7 arg8 harg8 arg9 harg9 arg10 harg10 hc1 hc2 hc3 x0 x1 x2 x3 x4 x5 x6 x7).2.1 S512x16.size (by sl_kernel_rfl) y

/-- What a later expert's run leaves in the output buffer. -/
def outLater (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : ¬cond1 i) (hc2 : ¬cond2 i) (hc3 : cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (xo : Vec F S512x2048 .f32) (xs : Vec F S512x16 .f32) : Vec F S512x2048 .f32 :=
  VO.read (Elt F) (VO.writes (Elt F) VO.junk (runLater c i arg1 harg1 arg2 harg2 arg3 harg3 arg4 harg4 arg5 harg5 arg6 harg6 arg7 harg7 arg8 harg8 arg9 harg9 arg10 harg10 hc1 hc2 hc3 x0 x1 x2 x3 x4 x5 x6 x7 xo xs).1)

theorem coverLater (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : ¬cond1 i) (hc2 : ¬cond2 i) (hc3 : cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (xo : Vec F S512x2048 .f32) (xs : Vec F S512x16 .f32) (y : S512x2048.Idx) :
    ∃ pc ∈ (runLater c i arg1 harg1 arg2 harg2 arg3 harg3 arg4 harg4 arg5 harg5 arg6 harg6 arg7 harg7 arg8 harg8 arg9 harg9 arg10 harg10 hc1 hc2 hc3 x0 x1 x2 x3 x4 x5 x6 x7 xo xs).1, y ∈ pc.1.set :=
  View.cover_of_tiledL (runLater c i arg1 harg1 arg2 harg2 arg3 harg3 arg4 harg4 arg5 harg5 arg6 harg6 arg7 harg7 arg8 harg8 arg9 harg9 arg10 harg10 hc1 hc2 hc3 x0 x1 x2 x3 x4 x5 x6 x7 xo xs).1 S512x2048.size (by sl_kernel_rfl) y

/-! ## The output buffer and the scratch after each point -/

/-- After the body at position `n`: the output window's buffer and the scratch. -/
def outsAt (c : Dev nD) : (n : ℕ) → n < cfg0.N → Vec F S512x2048 .f32 × Vec F S512x16 .f32
  | 0, hn =>
    (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond1 ⟨0, hn⟩).mpr rfl) ((hcond2 ⟨0, hn⟩).mpr rfl) (fun h => (hcond3 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
     scrFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM (Memref.isWhole_whole _) ((hcond1 ⟨0, hn⟩).mpr rfl) ((hcond2 ⟨0, hn⟩).mpr rfl) (fun h => (hcond3 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM (Memref.isWhole_whole _) (fun h => Nat.succ_ne_zero n ((hcond1 ⟨n + 1, hn⟩).mp h)) (fun h => Nat.succ_ne_zero n ((hcond2 ⟨n + 1, hn⟩).mp h)) ((hcond3 ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt c n (Nat.lt_of_succ_lt hn)).1 (outsAt c n (Nat.lt_of_succ_lt hn)).2,
     (outsAt c n (Nat.lt_of_succ_lt hn)).2)

theorem outsAt_first (c : Dev nD) (t : Fin cfg0.N) (h0 : t.val = 0) :
    outsAt m c t.val t.isLt =
      (outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond1 t).mpr h0) ((hcond2 t).mpr h0) (fun h => (hcond3 t).mp h h0) (iblk m c 0 t) (iblk m c 1 t) (iblk m c 2 t) (iblk m c 3 t) (iblk m c 4 t) (iblk m c 5 t) (iblk m c 6 t) (iblk m c 7 t),
       scrFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((hcond1 t).mpr h0) ((hcond2 t).mpr h0) (fun h => (hcond3 t).mp h h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => rfl
  | succ n => exact absurd h0 (Nat.succ_ne_zero n)

theorem outsAt_later (c : Dev nD) (t : Fin cfg0.N) (h0 : t.val ≠ 0) :
    outsAt m c t.val t.isLt =
      (outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h => h0 ((hcond1 t).mp h)) (fun h => h0 ((hcond2 t).mp h)) ((hcond3 t).mpr h0) (iblk m c 0 t) (iblk m c 1 t) (iblk m c 2 t) (iblk m c 3 t) (iblk m c 4 t) (iblk m c 5 t) (iblk m c 6 t) (iblk m c 7 t)
          (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h0
  | succ n => rfl

/-- The region invariant before position `n`: the scratch at anything before the first point, at the gate
    probabilities afterwards. -/
def PhiS (c : Dev nD) : (n : ℕ) → n ≤ cfg0.N → sProp 𝕄
  | 0, _ => iprop(∃ d, owns (c : Thread nD τ) scM fullShare d)
  | n + 1, hn => owns (c : Thread nD τ) scM fullShare (outsAt m c n hn).2

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (outsAt m c n hn).2 := rfl

theorem PhiS_pos (c : Dev nD) (n : ℕ) (h : n ≤ cfg0.N) (hz : n ≠ 0) :
    PhiS m c n h = owns (c : Thread nD τ) scM fullShare (outsAt m c (n - 1) (by omega)).2 := by
  cases n with
  | zero => exact absurd rfl hz
  | succ n => rfl

/-! ## The pipeline's proof data -/

/-- The arrays as the region finds them; after the body each input's buffer at its block and the output's at
    `outsAt`; the invariant `PhiS`; nothing owed; the shared array's share dealt among its four windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q w := match w with
    | ⟨3, _⟩ => fullShare.left
    | ⟨4, _⟩ => fullShare.right.left
    | ⟨5, _⟩ => fullShare.right.right.left
    | ⟨6, _⟩ => fullShare.right.right.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).1 := by dsimp only [dats]

/-! ## What the body finds in each buffer -/

/-- Input window 0's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's current buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's current buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- Input window 6's current buffer holds its block at every point, fetched there or not. -/
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- Input window 7's current buffer holds its block at every point, fetched there or not. -/
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-- At a later point the output buffer holds what the point before left: it is written back only after the last. -/
theorem before8 (c : Dev nD) (t : Fin cfg0.N) (h0 : t.val ≠ 0) (d) :
    (dats m 0 c).before 8 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 8 rfl t h0 (Bool.eq_false_iff.mpr fun h => by have := (flush0_8 _).mp h; dsimp only at this; omega)
    live8 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) :
    (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) :
    (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) :
    (dats m 0 c).leavesExact 7 t = owns (c : Thread nD τ) (ms7 t) fullShare (iblk m c 7 t) := by
  unfold Dat.leavesExact; rw [show cfg0.idle 7 (cfg0.grid.coords t) = false from rfl, after7]
theorem leaves8 (c : Dev nD) (t : Fin cfg0.N) :
    (dats m 0 c).leavesExact 8 t = owns (c : Thread nD τ) (ms8 t) fullShare (outsAt m c t.val t.isLt).1 := by
  unfold Dat.leavesExact; rw [live8, after8]

set_option maxHeartbeats 4800000 in
/-- The body at any point: the inputs' buffers hold their blocks; at point 0 the output buffer and the scratch hold
    anything and expert 0's run applies; at a later point they hold what the point before left and the later run
    applies; the scratch goes back into the invariant at the gate probabilities. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8]
  by_cases hz : t.val = 0
  · rw [outsAt_first m c t hz]
    unfold outFirst scrFirst; (try dsimp only)
    rw [PhiS_castSucc m c t, PhiS_zero m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) _ _ _ _ _ _ _ _ _ _ _ _ _ _ _ _ _ _ _ _ ((hcond1 t).mpr hz) ((hcond2 t).mpr hz) (fun h => (hcond3 t).mp h hz) (iblk m c 0 t) (iblk m c 1 t) (iblk m c 2 t) (iblk m c 3 t) (iblk m c 4 t) (iblk m c 5 t) (iblk m c 6 t) (iblk m c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverFirst c _ _ _ _ _ _ _ _ _ _ _ _ _ _ _ _ _ _ _ _ _ _ _ _ _ _ _ _ _ _ _ _)
  · rw [outsAt_later m c t hz]
    unfold outLater; (try dsimp only)
    rw [PhiS_castSucc m c t, PhiS_pos m c _ _ hz]
    simp only [before8 m c t hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) _ _ _ _ _ _ _ _ _ _ _ _ _ _ _ _ _ _ _ _ (fun h => hz ((hcond1 t).mp h)) (fun h => hz ((hcond2 t).mp h)) ((hcond3 t).mpr hz) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverLater c _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_scratch]
  try exact Idealize.SL.BI.Entails.refl _

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest_scratch]
  iintro H
  iexists _; iexact H

/-- The distinct buffers behind the windows' arrays, listed. -/
theorem arrBufs_list (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_arg1) ↦{fullShare} Vc main_arg1)
          ∗ (((c : Thread nD τ).loc main_v0) ↦{fullShare} Vc main_v0) ∗ (((c : Thread nD τ).loc main_v2) ↦{fullShare} Vc main_v2)
          ∗ (((c : Thread nD τ).loc main_v1) ↦{fullShare} Vc main_v1) ∗ (((c : Thread nD τ).loc main_v3) ↦{fullShare} Vc main_v3)) := by
  unfold Pipeline.arrBufs
  exact BI.bigSep_eq_bigSepL_of_eq [main_arg0, main_arg1, main_v0, main_v2, main_v1, main_v3] (by decide) (by decide) _

/-- The windows' arrays at their shares, as points-tos of the buffers behind them. -/
theorem arrays_shares (c : Dev nD) (G : (w : Fin cfg0.W) → Buf (Elt F) ((cfg0.win w).arr.view.loc (c : Thread nD τ))) :
    (dats m 0 c).arrays G = bigSep Finset.univ fun w => iprop((((c : Thread nD τ).loc (Pipeline.arrRef spec0 w)) ↦{(dats m 0 c).share w} G w : sProp 𝕄)) := by
  unfold Dat.arrays
  exact bigSep_congr fun w _ => by rw [(arr_whole0 w).set_eq_univ]

/-- The deal: each array's buffer whole at the full share gives its window's share; the regrouped expert weights'
    buffer is split in four, one share per window that reads it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_shares, bigSep_W0]
  iintro ⟨H0, H1, H2, H3, H4, H5⟩
  ihave H3' := (pointsTo_share (PosShare.mem_left_op_right fullShare)).1 $$ H3
  icases H3' with ⟨Ha, Hr⟩
  ihave Hr' := (pointsTo_share (PosShare.mem_left_op_right fullShare.right)).1 $$ Hr
  icases Hr' with ⟨Hb, Hr⟩
  ihave Hr'' := (pointsTo_share (PosShare.mem_left_op_right fullShare.right.right)).1 $$ Hr
  icases Hr'' with ⟨Hc, Hd⟩
  isplitl [H0]; · iexact H0
  isplitl [H1]; · iexact H1
  isplitl [H2]; · iexact H2
  isplitl [Ha]; · iexact Ha
  isplitl [Hb]; · iexact Hb
  isplitl [Hc]; · iexact Hc
  isplitl [Hd]; · iexact Hd
  isplitl [H4]; · iexact H4
  iexact H5

/-! ## The run and the frame -/

set_option backward.isDefEq.respectTransparency.types false in
/-- Every weakly fair execution of the program terminates, each array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-! ## The frame claim, and the run with the result named -/

/-- The result array after the run: what the library computes for the output window from the proof data. -/
def result (c : Dev nD) : Buf (Elt F) ((c : Thread nD τ).loc main_v3) := (dats m 0 c).arrAt 8 cfg0.N

/-- Every weakly fair execution terminates with the result array at `result` and the five argument arrays
    unchanged: the token block and the gate weights are input windows' arrays (never written), the other three
    are no window's array and no reshape writes them. -/
theorem run_named : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 8,
     ((h c).1 0).trans (((dats m 0 c).arrAt_in 0 rfl _).trans ((A_eq m c 0).trans (V_arg m c main_arg0 (.inl rfl)))),
     ((h c).1 1).trans (((dats m 0 c).arrAt_in 1 rfl _).trans ((A_eq m c 1).trans (V_arg m c main_arg1 (.inr (.inl rfl))))),
     ((h c).2 main_arg2 (Pipeline.mem_restRefs_of _ rfl (by decide))).trans (V_arg m c main_arg2 (.inr (.inr (.inl rfl)))),
     ((h c).2 main_arg3 (Pipeline.mem_restRefs_of _ rfl (by decide))).trans (V_arg m c main_arg3 (.inr (.inr (.inr (.inl rfl))))),
     ((h c).2 main_arg4 (Pipeline.mem_restRefs_of _ rfl (by decide))).trans (V_arg m c main_arg4 (.inr (.inr (.inr (.inr rfl)))))⟩)
    (run_main m ρ)

/-- The frame claim: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Hand

end
-- ==== Proof.KernelIdeal.Pieces.lean ====
/-
  What the two runs of the body leave, as the body's named arithmetic applied to the buffers' contents, at any
  float instance: expert 0's run leaves the gate (the payload of its store into the scratch) in the scratch and
  the share of expert 0 computed with that gate in the output buffer; a later run leaves the previous output plus
  the expert's share computed with the probabilities it found in the scratch. The token block enters the expert's
  product through four column slabs of 512 columns each.
-/
import proofs.«118571_g10582799417755_week1_w2_590_23_alg».proof.Proof.KernelIdeal.Frame
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The four column slabs of the token block the body loads. -/
abbrev slab0 (x0 : Vec F S512x2048 .f32) : Vec F S512x512 .f32 :=
  View.ld x0 (Rect.unit (s := S512x2048) ![0, 0] S512x512.size inb_S512x2048_S512x512_0_0)
abbrev slab1 (x0 : Vec F S512x2048 .f32) : Vec F S512x512 .f32 :=
  View.ld x0 (Rect.unit (s := S512x2048) ![0, 512] S512x512.size inb_S512x2048_S512x512_0_512)
abbrev slab2 (x0 : Vec F S512x2048 .f32) : Vec F S512x512 .f32 :=
  View.ld x0 (Rect.unit (s := S512x2048) ![0, 1024] S512x512.size inb_S512x2048_S512x512_0_1024)
abbrev slab3 (x0 : Vec F S512x2048 .f32) : Vec F S512x512 .f32 :=
  View.ld x0 (Rect.unit (s := S512x2048) ![0, 1536] S512x512.size inb_S512x2048_S512x512_0_1536)

/-- The expert's product: the four slab products added left to right. -/
abbrev hid (x0 : Vec F S512x2048 .f32) (x3 x4 x5 x6 : Vec F S1x1x512x2048 .f32) : FVec F S512x2048 .f32 :=
  k0_pay4 (slab0 x0) x3 (slab1 x0) x4 (slab2 x0) x5 (slab3 x0) x6

/-- Expert 0's run leaves the gate in the scratch. -/
theorem scrFirst_eq (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) :
    scrFirst c i arg1 harg1 arg2 harg2 arg3 harg3 arg4 harg4 arg5 harg5 arg6 harg6 arg7 harg7 arg8 harg8 arg9 harg9 arg10 harg10 hc1 hc2 hc3 x0 x1 x2 x3 x4 x5 x6 x7 = k0_pay3 x0 x1 x2 := by
  unfold scrFirst
  rw [View.read_writes_eq_canon _ _ _ (scoverFirst c i arg1 harg1 arg2 harg2 arg3 harg3 arg4 harg4 arg5 harg5 arg6 harg6 arg7 harg7 arg8 harg8 arg9 harg9 arg10 harg10 hc1 hc2 hc3 x0 x1 x2 x3 x4 x5 x6 x7)]
  unfold runFirst
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S512x2048) hz2, View.ld_unit_zero (S := S2048x16) hz2,
    View.ld_unit_zero (S := S1x16) hz2]

/-- … and its share of the output in the output buffer. -/
theorem outFirst_eq (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : cond1 i) (hc2 : cond2 i) (hc3 : ¬cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) :
    outFirst c i arg1 harg1 arg2 harg2 arg3 harg3 arg4 harg4 arg5 harg5 arg6 harg6 arg7 harg7 arg8 harg8 arg9 harg9 arg10 harg10 hc1 hc2 hc3 x0 x1 x2 x3 x4 x5 x6 x7
      = k0_pay1 (BitVec.ofNat 32 (i 0).val) (hid x0 x3 x4 x5 x6) (k0_pay5 x7) (k0_pay3 x0 x1 x2) := by
  unfold outFirst
  rw [View.read_writes_eq_canon _ _ _ (coverFirst c i arg1 harg1 arg2 harg2 arg3 harg3 arg4 harg4 arg5 harg5 arg6 harg6 arg7 harg7 arg8 harg8 arg9 harg9 arg10 harg10 hc1 hc2 hc3 x0 x1 x2 x3 x4 x5 x6 x7)]
  unfold runFirst
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S512x2048) hz2, View.ld_unit_zero (S := S2048x16) hz2,
    View.ld_unit_zero (S := S1x16) hz2, View.ld_unit_zero (S := S1x1x512x2048) hz4, View.ld_unit_zero (S := S1x1x2048) hz3,
    View.readCov_unit_zero (S := S512x16) _ hz2]

/-- A later run leaves the previous output plus its share. -/
theorem outLater_eq (c : Dev nD) (i : grid0.Coords) (arg1 : Memref sig .tc .vmem S512x2048 .f32) (harg1 : arg1.IsWhole) (arg2 : Memref sig .tc .vmem S2048x16 .f32) (harg2 : arg2.IsWhole) (arg3 : Memref sig .tc .vmem S1x16 .f32) (harg3 : arg3.IsWhole) (arg4 : Memref sig .tc .vmem S1x1x512x2048 .f32) (harg4 : arg4.IsWhole) (arg5 : Memref sig .tc .vmem S1x1x512x2048 .f32) (harg5 : arg5.IsWhole) (arg6 : Memref sig .tc .vmem S1x1x512x2048 .f32) (harg6 : arg6.IsWhole) (arg7 : Memref sig .tc .vmem S1x1x512x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S512x16 .f32) (harg10 : arg10.IsWhole) (hc1 : ¬cond1 i) (hc2 : ¬cond2 i) (hc3 : cond3 i)
    (x0 : Vec F S512x2048 .f32) (x1 : Vec F S2048x16 .f32) (x2 : Vec F S1x16 .f32) (x3 : Vec F S1x1x512x2048 .f32) (x4 : Vec F S1x1x512x2048 .f32) (x5 : Vec F S1x1x512x2048 .f32) (x6 : Vec F S1x1x512x2048 .f32) (x7 : Vec F S1x1x2048 .f32) (xo : Vec F S512x2048 .f32) (xs : Vec F S512x16 .f32) :
    outLater c i arg1 harg1 arg2 harg2 arg3 harg3 arg4 harg4 arg5 harg5 arg6 harg6 arg7 harg7 arg8 harg8 arg9 harg9 arg10 harg10 hc1 hc2 hc3 x0 x1 x2 x3 x4 x5 x6 x7 xo xs
      = k0_pay2 (BitVec.ofNat 32 (i 0).val) (hid x0 x3 x4 x5 x6) (k0_pay5 x7) xs xo := by
  unfold outLater
  rw [View.read_writes_eq_canon _ _ _ (coverLater c i arg1 harg1 arg2 harg2 arg3 harg3 arg4 harg4 arg5 harg5 arg6 harg6 arg7 harg7 arg8 harg8 arg9 harg9 arg10 harg10 hc1 hc2 hc3 x0 x1 x2 x3 x4 x5 x6 x7 xo xs)]
  unfold runLater
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x2048) hz2,
    View.ld_unit_zero (S := S512x16) hz2, View.ld_unit_zero (S := S1x1x512x2048) hz4, View.ld_unit_zero (S := S1x1x2048) hz3]

end Pieces

end Cert.KernelIdeal.HandValue

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.PayExpert.lean ====
/-
  One expert's affine map as the kernel computes it, read at coordinates.

  The contraction over the 2048 input features is taken in four blocks of 512: block `j` multiplies the columns
  `512 j … 512 j + 511` of the token rows by the rows `512 j … 512 j + 511` of the expert's weight matrix, each
  product accumulated from zero, and the four partial products are added left to right. Entry `(r, c)` of the
  result is therefore a sum of four sums of 512 products; since addition on the extended reals is commutative and
  associative, that is the one sum of the 2048 products of row `r` of the tokens with column `c` of the weights.
  No entry needs to be finite for this. The expert's bias block `[1, 1, 2048]`, viewed as a row `[1, 2048]`,
  keeps its entries.
-/
import proofs.«118571_g10582799417755_week1_w2_590_23_alg».proof.Proof.Gen.KernelIdeal.Skeleton
import proofs.«118571_g10582799417755_week1_w2_590_23_alg».proof.Proof.LibPlainDot
import proofs.«118571_g10582799417755_week1_w2_590_23_alg».proof.Proof.LibSumBlocks
import Idealize.ShloMosaic.Lib.ValueLayout
import Idealize.ShloMosaic.Lib.Pipeline.Value
import Idealize.ShloMosaic.Lib.ValueIdx
import Idealize.ShloMosaic.PureOps.Ideal.Laws

noncomputable section

namespace Cert.Moe.Pay

open Idealize.ShloMosaic Idealize.ShloMosaic.ValueIdx Cert.KernelIdeal Cert.KernelIdeal.Gen

/-- A `[1, 1, a, b]` block viewed as the matrix `[a, b]`: entry `(k, c)` of the view is entry `(0, 0, k, c)` of
    the block (both lie at row-major position `k b + c`). -/
theorem view_11ab_apply {α : Type} {a b : ℕ} (w : (⟨4, ![1, 1, a, b]⟩ : Shape).Idx → α)
    (h : (⟨4, ![1, 1, a, b]⟩ : Shape).ShapeCasts ⟨2, ![a, b]⟩) (k : Fin a) (c : Fin b) :
    shapeCast ⟨2, ![a, b]⟩ w h (ix2 k c) = w (ix4 (0 : Fin 1) (0 : Fin 1) k c) :=
  shapeCast_apply w h _ _ (by
    rw [Shape.rowMajor_val_four, Shape.rowMajor_val_two]
    show ((0 * 1 + 0) * a + k.val) * b + c.val = k.val * b + c.val
    simp only [Nat.zero_mul, Nat.zero_add])

/-- A `[1, 1, a]` block viewed as the vector `[a]`: entry `i` of the view is entry `(0, 0, i)` of the block. -/
theorem view_11a_apply {α : Type} {a : ℕ} (w : (⟨3, ![1, 1, a]⟩ : Shape).Idx → α)
    (h : (⟨3, ![1, 1, a]⟩ : Shape).ShapeCasts ⟨1, ![a]⟩) (i : Fin a) :
    shapeCast ⟨1, ![a]⟩ w h (ix1 i) = w (ix3 (0 : Fin 1) (0 : Fin 1) i) :=
  shapeCast_apply w h _ _ (by
    rw [Shape.rowMajor_val_three, Shape.rowMajor_val_one]
    show (0 * 1 + 0) * a + i.val = i.val
    simp only [Nat.zero_mul, Nat.zero_add])

/-- One block of the contraction: 512 columns of the token rows against a `[1, 1, 512, 2048]` block of weights
    viewed as a matrix, accumulated from zero, at row `r` and column `c`. -/
theorem block_apply (x : FVec Ideal S512x512 .f32) (w : FVec Ideal S1x1x512x2048 .f32) (r : Fin 512) (c : Fin 2048) :
    matmul dot_S512x512_S512x2048_S512x2048_1_0_0_1_n_n none x
        (shapeCast S512x2048 w shapeCasts_S1x1x512x2048_S512x2048)
        (constant (F := Ideal) S512x2048 .f32 0x00000000#32) (ix2 r c)
      = ∑ k : Fin 512, x (ix2 r k) * w (ix4 (0 : Fin 1) (0 : Fin 1) k c) :=
  (Cert.Sage.matmul_plain_zero_apply (M := 512) (K := 512) (N := 2048) none x
      (shapeCast S512x2048 w shapeCasts_S1x1x512x2048_S512x2048) r c).trans
    (Finset.sum_congr rfl fun k _ =>
      congrArg (x (ix2 r k) * ·) (view_11ab_apply w shapeCasts_S1x1x512x2048_S512x2048 k c))

/-- The four partial products added left to right, at row `r` and column `c`. -/
theorem pay4_apply (x0 : Vec Ideal S512x512 .f32) (w0 : Vec Ideal S1x1x512x2048 .f32)
    (x1 : Vec Ideal S512x512 .f32) (w1 : Vec Ideal S1x1x512x2048 .f32)
    (x2 : Vec Ideal S512x512 .f32) (w2 : Vec Ideal S1x1x512x2048 .f32)
    (x3 : Vec Ideal S512x512 .f32) (w3 : Vec Ideal S1x1x512x2048 .f32) (r : Fin 512) (c : Fin 2048) :
    k0_pay4 (F := Ideal) x0 w0 x1 w1 x2 w2 x3 w3 (ix2 r c)
      = (((∑ k : Fin 512, x0 (ix2 r k) * w0 (ix4 (0 : Fin 1) (0 : Fin 1) k c))
            + ∑ k : Fin 512, x1 (ix2 r k) * w1 (ix4 (0 : Fin 1) (0 : Fin 1) k c))
          + ∑ k : Fin 512, x2 (ix2 r k) * w2 (ix4 (0 : Fin 1) (0 : Fin 1) k c))
        + ∑ k : Fin 512, x3 (ix2 r k) * w3 (ix4 (0 : Fin 1) (0 : Fin 1) k c) := by
  unfold k0_pay4
  exact congrArg₂ (· + ·) (congrArg₂ (· + ·) (congrArg₂ (· + ·) (block_apply x0 w0 r c) (block_apply x1 w1 r c))
    (block_apply x2 w2 r c)) (block_apply x3 w3 r c)

/-- A sum of 2048 terms taken as four consecutive blocks of 512: `p j` places position `k` of block `j` at
    `512 j + k`. Only commutativity and associativity of the addition are used. -/
theorem sum_four_blocks {M : Type*} [AddCommMonoid M] (f : Fin 2048 → M) (p0 p1 p2 p3 : Fin 512 → Fin 2048)
    (h0 : ∀ k, (p0 k).val = 512 * 0 + k.val) (h1 : ∀ k, (p1 k).val = 512 * 1 + k.val)
    (h2 : ∀ k, (p2 k).val = 512 * 2 + k.val) (h3 : ∀ k, (p3 k).val = 512 * 3 + k.val) :
    (((∑ k, f (p0 k)) + ∑ k, f (p1 k)) + ∑ k, f (p2 k)) + ∑ k, f (p3 k) = ∑ k, f k := by
  have e (a : Fin 4) (p : Fin 512 → Fin 2048) (hp : ∀ k, (p k).val = 512 * a.val + k.val) :
      ∑ k, f (p k) = ∑ b : Fin 512, f (finProdFinEquiv (a, b)) :=
    Finset.sum_congr rfl fun k _ => congrArg f (Fin.ext (by
      rw [hp k]; exact (Nat.add_comm _ _).trans (Cert.SumBlocks.block_pos 4 512 a k).symm))
  rw [e 0 p0 h0, e 1 p1 h1, e 2 p2 h2, e 3 p3 h3]
  exact ((Cert.SumBlocks.sum_blocks 4 512 f).trans (Fin.sum_univ_four _)).symm

/-- The expert's product at row `r` and column `c` is the whole contraction: given the token row `xr` and the
    weight column `wc` over the 2048 features, and that block `j`'s operands hold their entries
    `512 j … 512 j + 511` (placed by `p j`), the four partial products add up to the sum of the 2048 products. -/
theorem pay4_full (x0 : Vec Ideal S512x512 .f32) (w0 : Vec Ideal S1x1x512x2048 .f32)
    (x1 : Vec Ideal S512x512 .f32) (w1 : Vec Ideal S1x1x512x2048 .f32)
    (x2 : Vec Ideal S512x512 .f32) (w2 : Vec Ideal S1x1x512x2048 .f32)
    (x3 : Vec Ideal S512x512 .f32) (w3 : Vec Ideal S1x1x512x2048 .f32) (r : Fin 512) (c : Fin 2048)
    (xr wc : Fin 2048 → EReal) (p0 p1 p2 p3 : Fin 512 → Fin 2048)
    (h0 : ∀ k, (p0 k).val = 512 * 0 + k.val) (h1 : ∀ k, (p1 k).val = 512 * 1 + k.val)
    (h2 : ∀ k, (p2 k).val = 512 * 2 + k.val) (h3 : ∀ k, (p3 k).val = 512 * 3 + k.val)
    (hx0 : ∀ k, x0 (ix2 r k) = xr (p0 k)) (hw0 : ∀ k, w0 (ix4 (0 : Fin 1) (0 : Fin 1) k c) = wc (p0 k))
    (hx1 : ∀ k, x1 (ix2 r k) = xr (p1 k)) (hw1 : ∀ k, w1 (ix4 (0 : Fin 1) (0 : Fin 1) k c) = wc (p1 k))
    (hx2 : ∀ k, x2 (ix2 r k) = xr (p2 k)) (hw2 : ∀ k, w2 (ix4 (0 : Fin 1) (0 : Fin 1) k c) = wc (p2 k))
    (hx3 : ∀ k, x3 (ix2 r k) = xr (p3 k)) (hw3 : ∀ k, w3 (ix4 (0 : Fin 1) (0 : Fin 1) k c) = wc (p3 k)) :
    k0_pay4 (F := Ideal) x0 w0 x1 w1 x2 w2 x3 w3 (ix2 r c) = ∑ k : Fin 2048, xr k * wc k := by
  refine (pay4_apply x0 w0 x1 w1 x2 w2 x3 w3 r c).trans ?_
  refine Eq.trans ?_ (sum_four_blocks (fun k => xr k * wc k) p0 p1 p2 p3 h0 h1 h2 h3)
  exact congrArg₂ (· + ·) (congrArg₂ (· + ·) (congrArg₂ (· + ·)
    (Finset.sum_congr rfl fun k _ => congrArg₂ (· * ·) (hx0 k) (hw0 k))
    (Finset.sum_congr rfl fun k _ => congrArg₂ (· * ·) (hx1 k) (hw1 k)))
    (Finset.sum_congr rfl fun k _ => congrArg₂ (· * ·) (hx2 k) (hw2 k)))
    (Finset.sum_congr rfl fun k _ => congrArg₂ (· * ·) (hx3 k) (hw3 k))

/-- Position `k` of block `j` among the 2048 features. -/
def place (j : Fin 4) (k : Fin 512) : Fin 2048 := ⟨512 * j.val + k.val, by have := j.isLt; have := k.isLt; omega⟩

/-- The same with the placements written out: block `j`'s operands hold the entries `512 j + k`. -/
theorem pay4_full_at (x0 : Vec Ideal S512x512 .f32) (w0 : Vec Ideal S1x1x512x2048 .f32)
    (x1 : Vec Ideal S512x512 .f32) (w1 : Vec Ideal S1x1x512x2048 .f32)
    (x2 : Vec Ideal S512x512 .f32) (w2 : Vec Ideal S1x1x512x2048 .f32)
    (x3 : Vec Ideal S512x512 .f32) (w3 : Vec Ideal S1x1x512x2048 .f32) (r : Fin 512) (c : Fin 2048)
    (xr wc : Fin 2048 → EReal)
    (hx0 : ∀ k, x0 (ix2 r k) = xr (place 0 k)) (hw0 : ∀ k, w0 (ix4 (0 : Fin 1) (0 : Fin 1) k c) = wc (place 0 k))
    (hx1 : ∀ k, x1 (ix2 r k) = xr (place 1 k)) (hw1 : ∀ k, w1 (ix4 (0 : Fin 1) (0 : Fin 1) k c) = wc (place 1 k))
    (hx2 : ∀ k, x2 (ix2 r k) = xr (place 2 k)) (hw2 : ∀ k, w2 (ix4 (0 : Fin 1) (0 : Fin 1) k c) = wc (place 2 k))
    (hx3 : ∀ k, x3 (ix2 r k) = xr (place 3 k)) (hw3 : ∀ k, w3 (ix4 (0 : Fin 1) (0 : Fin 1) k c) = wc (place 3 k)) :
    k0_pay4 (F := Ideal) x0 w0 x1 w1 x2 w2 x3 w3 (ix2 r c) = ∑ k : Fin 2048, xr k * wc k :=
  pay4_full x0 w0 x1 w1 x2 w2 x3 w3 r c xr wc (place 0) (place 1) (place 2) (place 3)
    (fun _ => rfl) (fun _ => rfl) (fun _ => rfl) (fun _ => rfl) hx0 hw0 hx1 hw1 hx2 hw2 hx3 hw3

/-- The expert's bias block viewed as a row keeps its entries: entry `(0, c)` of the row is entry `(0, 0, c)` of
    the block. -/
theorem pay5_apply (b : Vec Ideal S1x1x2048 .f32) (c : Fin 2048) :
    k0_pay5 (F := Ideal) b (ix2 (0 : Fin 1) c) = b (ix3 (0 : Fin 1) (0 : Fin 1) c) := by
  unfold k0_pay5
  exact (shapeCast_a_1a_apply _ shapeCasts_S2048_S1x2048 (0 : Fin 1) c).trans
    (view_11a_apply b shapeCasts_S1x1x2048_S2048 c)

end Cert.Moe.Pay

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.Blocks.lean ====
/-
  The kernel's input blocks as entries of the argument arrays.

  Grid point `t` is expert `t`. The tokens `[512, 2048]`, the gate's weights `[2048, 16]` and the gate's bias row
  `[1, 16]` reach every point whole; the bias row is the bias vector `[16]` reshaped. The expert weights
  `[16, 2048, 2048]` are reshaped to `[16, 4, 512, 2048]`, entry `(e, j, k, c)` being entry `(e, 512 j + k, c)`
  (both at row-major position `((4 e + j) 512 + k) 2048 + c`), and point `t` receives the four blocks
  `(t, j, ·, ·)`, `j = 0 … 3`: the four 512-row slabs of expert `t`'s weight matrix. The expert biases
  `[16, 2048]`, reshaped to `[16, 1, 2048]`, give point `t` the row `t`. A block's entry sits in its array at block
  index times block extent plus the coordinate inside the block, axis by axis. Last, the body cuts the token block
  into four column slabs: a load of 512 columns from column `o` reads, at `(r, k)`, the token entry `(r, o + k)`.
-/
import proofs.«118571_g10582799417755_week1_w2_590_23_alg».proof.Proof.KernelIdeal.Setup
import proofs.«118571_g10582799417755_week1_w2_590_23_alg».proof.Proof.PayExpert
import proofs.«118571_g10582799417755_week1_w2_590_23_alg».proof.Proof.LibLayout
import Idealize.ShloMosaic.Lib.StableHlo.Run
import Idealize.ShloMosaic.Lib.Pipeline.Value
import Idealize.ShloMosaic.Lib.Pipeline.FrameBody
import Idealize.ShloMosaic.Lib.ValueLayout
import Idealize.ShloMosaic.Lib.ValueIdx

set_option maxRecDepth 16384

noncomputable section

namespace Cert.Moe.Blocks

open Cert.KernelIdeal Cert.KernelIdeal.Gen Cert.KernelIdeal.Hand Cert.Moe.Pay
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The expert a grid point works on: the grid has sixteen points. -/
def expert (t : Fin cfg0.N) : Fin 16 := ⟨t.val, Nat.lt_of_lt_of_eq t.isLt N_0⟩

/-! ## The reshapes before the region, read at coordinates -/

/-- The gate's bias row is the bias vector reshaped. -/
theorem V_v0 (c : Dev nD) :
    (V m c main_v0 : S1x16.Idx → Elt F .f32)
      = shapeCast S1x16 (m ((c : Thread nD τ).loc main_arg2) : S16.Idx → Elt F .f32) shapeCasts_S16_S1x16 := by
  dsimp only [V, hostOps0]; after_results; rfl

/-- The expert biases with a unit middle axis are the expert biases reshaped. -/
theorem V_v1 (c : Dev nD) :
    (V m c main_v1 : S16x1x2048.Idx → Elt F .f32)
      = shapeCast S16x1x2048 (m ((c : Thread nD τ).loc main_arg4) : S16x2048.Idx → Elt F .f32)
          shapeCasts_S16x2048_S16x1x2048 := by
  dsimp only [V, hostOps0]; after_results; rfl

/-- The expert weights in four slabs of 512 rows are the expert weights reshaped. -/
theorem V_v2 (c : Dev nD) :
    (V m c main_v2 : S16x4x512x2048.Idx → Elt F .f32)
      = shapeCast S16x4x512x2048 (m ((c : Thread nD τ).loc main_arg3) : S16x2048x2048.Idx → Elt F .f32)
          shapeCasts_S16x2048x2048_S16x4x512x2048 := by
  dsimp only [V, hostOps0]; after_results; rfl

/-- An `[a, 4 · 512, n]` array reshaped to `[a, 4, 512, n]`: entry `(e, j, k, c)` is entry `(e, 512 j + k, c)`. -/
theorem slabs_apply {α : Type} (X : S16x2048x2048.Idx → α) (h : S16x2048x2048.ShapeCasts S16x4x512x2048)
    (e : Fin 16) (j : Fin 4) (k : Fin 512) (cc : Fin 2048) :
    shapeCast S16x4x512x2048 X h (ix4 e j k cc) = X (ix3 e (place j k) cc) :=
  shapeCast_apply X h _ _ (by
    rw [Shape.rowMajor_val_three, Shape.rowMajor_val_four]
    show (e.val * 2048 + (512 * j.val + k.val)) * 2048 + cc.val = ((e.val * 4 + j.val) * 512 + k.val) * 2048 + cc.val
    have h1 : e.val * 2048 + (512 * j.val + k.val) = (e.val * 4 + j.val) * 512 + k.val := by omega
    rw [h1])

/-! ## The index maps over the grid -/

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)
theorem index4 : ∀ t : Fin cfg0.N, win0_4.index t (0 : Fin 4) = t.val ∧ win0_4.index t (1 : Fin 4) = 1
    ∧ win0_4.index t (2 : Fin 4) = 0 ∧ win0_4.index t (3 : Fin 4) = 0 :=
  (by decide +kernel : ∀ t : Fin grid0.N, _)
theorem index5 : ∀ t : Fin cfg0.N, win0_5.index t (0 : Fin 4) = t.val ∧ win0_5.index t (1 : Fin 4) = 2
    ∧ win0_5.index t (2 : Fin 4) = 0 ∧ win0_5.index t (3 : Fin 4) = 0 :=
  (by decide +kernel : ∀ t : Fin grid0.N, _)
theorem index6 : ∀ t : Fin cfg0.N, win0_6.index t (0 : Fin 4) = t.val ∧ win0_6.index t (1 : Fin 4) = 3
    ∧ win0_6.index t (2 : Fin 4) = 0 ∧ win0_6.index t (3 : Fin 4) = 0 :=
  (by decide +kernel : ∀ t : Fin grid0.N, _)
theorem index7 : ∀ t : Fin cfg0.N, win0_7.index t (0 : Fin 3) = t.val ∧ win0_7.index t (1 : Fin 3) = 0
    ∧ win0_7.index t (2 : Fin 3) = 0 :=
  (by decide +kernel : ∀ t : Fin grid0.N, _)

/-! ## Each window's block at a grid point -/

/-- The token block is the token array. -/
theorem blk0_apply (c : Dev nD) (t : Fin cfg0.N) (r : Fin 512) (k : Fin 2048) :
    (iblk m c 0 t : Vec F S512x2048 .f32) (ix2 r k)
      = (m ((c : Thread nD τ).loc main_arg0) : S512x2048.Idx → Elt F .f32) (ix2 r k) := by
  obtain ⟨e0, e1⟩ := index0 t
  unfold iblk
  rw [View.read_apply]
  show V m c main_arg0 _ = _
  refine (congrFun (V_arg m c main_arg0 (.inl rfl)) _).trans ?_
  congr 1
  funext a
  apply Fin.ext
  match a with
  | ⟨0, _⟩ => show win0_0.index t 0 * 512 + 1 * r.val = r.val; rw [e0]; omega
  | ⟨1, _⟩ => show win0_0.index t 1 * 2048 + 1 * k.val = k.val; rw [e1]; omega

/-- The gate-weight block is the gate-weight array. -/
theorem blk1_apply (c : Dev nD) (t : Fin cfg0.N) (k : Fin 2048) (e : Fin 16) :
    (iblk m c 1 t : Vec F S2048x16 .f32) (ix2 k e)
      = (m ((c : Thread nD τ).loc main_arg1) : S2048x16.Idx → Elt F .f32) (ix2 k e) := by
  obtain ⟨e0, e1⟩ := index1 t
  unfold iblk
  rw [View.read_apply]
  show V m c main_arg1 _ = _
  refine (congrFun (V_arg m c main_arg1 (.inr (.inl rfl))) _).trans ?_
  congr 1
  funext a
  apply Fin.ext
  match a with
  | ⟨0, _⟩ => show win0_1.index t 0 * 2048 + 1 * k.val = k.val; rw [e0]; omega
  | ⟨1, _⟩ => show win0_1.index t 1 * 16 + 1 * e.val = e.val; rw [e1]; omega

/-- The gate's bias row holds the bias vector. -/
theorem blk2_apply (c : Dev nD) (t : Fin cfg0.N) (e : Fin 16) :
    (iblk m c 2 t : Vec F S1x16 .f32) (ix2 (0 : Fin 1) e)
      = (m ((c : Thread nD τ).loc main_arg2) : S16.Idx → Elt F .f32) (ix1 e) := by
  obtain ⟨e0, e1⟩ := index2 t
  unfold iblk
  rw [View.read_apply]
  show (V m c main_v0 : S1x16.Idx → Elt F .f32) _ = _
  rw [V_v0]
  refine Eq.trans (congrArg (shapeCast S1x16 (m ((c : Thread nD τ).loc main_arg2) : S16.Idx → Elt F .f32) shapeCasts_S16_S1x16) ?_)
    (shapeCast_a_1a_apply _ shapeCasts_S16_S1x16 (0 : Fin 1) e)
  funext a
  apply Fin.ext
  match a with
  | ⟨0, _⟩ => show win0_2.index t 0 * 1 + 1 * 0 = 0; rw [e0]
  | ⟨1, _⟩ => show win0_2.index t 1 * 16 + 1 * e.val = e.val; rw [e1]; omega

/-- Slab 0 of expert `t`'s weights. -/
theorem blk3_apply (c : Dev nD) (t : Fin cfg0.N) (k : Fin 512) (cc : Fin 2048) :
    (iblk m c 3 t : Vec F S1x1x512x2048 .f32) (ix4 (0 : Fin 1) (0 : Fin 1) k cc)
      = (m ((c : Thread nD τ).loc main_arg3) : S16x2048x2048.Idx → Elt F .f32) (ix3 (expert t) (place 0 k) cc) := by
  obtain ⟨e0, e1, e2, e3⟩ := index3 t
  unfold iblk
  rw [View.read_apply]
  show (V m c main_v2 : S16x4x512x2048.Idx → Elt F .f32) _ = _
  rw [V_v2]
  refine Eq.trans (congrArg (shapeCast S16x4x512x2048 (m ((c : Thread nD τ).loc main_arg3) : S16x2048x2048.Idx → Elt F .f32)
      shapeCasts_S16x2048x2048_S16x4x512x2048) ?_)
    (slabs_apply _ shapeCasts_S16x2048x2048_S16x4x512x2048 (expert t) 0 k cc)
  funext a
  apply Fin.ext
  match a with
  | ⟨0, _⟩ => show win0_3.index t 0 * 1 + 1 * 0 = t.val; rw [e0]; omega
  | ⟨1, _⟩ => show win0_3.index t 1 * 1 + 1 * 0 = 0; rw [e1]
  | ⟨2, _⟩ => show win0_3.index t 2 * 512 + 1 * k.val = k.val; rw [e2]; omega
  | ⟨3, _⟩ => show win0_3.index t 3 * 2048 + 1 * cc.val = cc.val; rw [e3]; omega

/-- Slab 1 of expert `t`'s weights. -/
theorem blk4_apply (c : Dev nD) (t : Fin cfg0.N) (k : Fin 512) (cc : Fin 2048) :
    (iblk m c 4 t : Vec F S1x1x512x2048 .f32) (ix4 (0 : Fin 1) (0 : Fin 1) k cc)
      = (m ((c : Thread nD τ).loc main_arg3) : S16x2048x2048.Idx → Elt F .f32) (ix3 (expert t) (place 1 k) cc) := by
  obtain ⟨e0, e1, e2, e3⟩ := index4 t
  unfold iblk
  rw [View.read_apply]
  show (V m c main_v2 : S16x4x512x2048.Idx → Elt F .f32) _ = _
  rw [V_v2]
  refine Eq.trans (congrArg (shapeCast S16x4x512x2048 (m ((c : Thread nD τ).loc main_arg3) : S16x2048x2048.Idx → Elt F .f32)
      shapeCasts_S16x2048x2048_S16x4x512x2048) ?_)
    (slabs_apply _ shapeCasts_S16x2048x2048_S16x4x512x2048 (expert t) 1 k cc)
  funext a
  apply Fin.ext
  match a with
  | ⟨0, _⟩ => show win0_4.index t 0 * 1 + 1 * 0 = t.val; rw [e0]; omega
  | ⟨1, _⟩ => show win0_4.index t 1 * 1 + 1 * 0 = 1; rw [e1]
  | ⟨2, _⟩ => show win0_4.index t 2 * 512 + 1 * k.val = k.val; rw [e2]; omega
  | ⟨3, _⟩ => show win0_4.index t 3 * 2048 + 1 * cc.val = cc.val; rw [e3]; omega

/-- Slab 2 of expert `t`'s weights. -/
theorem blk5_apply (c : Dev nD) (t : Fin cfg0.N) (k : Fin 512) (cc : Fin 2048) :
    (iblk m c 5 t : Vec F S1x1x512x2048 .f32) (ix4 (0 : Fin 1) (0 : Fin 1) k cc)
      = (m ((c : Thread nD τ).loc main_arg3) : S16x2048x2048.Idx → Elt F .f32) (ix3 (expert t) (place 2 k) cc) := by
  obtain ⟨e0, e1, e2, e3⟩ := index5 t
  unfold iblk
  rw [View.read_apply]
  show (V m c main_v2 : S16x4x512x2048.Idx → Elt F .f32) _ = _
  rw [V_v2]
  refine Eq.trans (congrArg (shapeCast S16x4x512x2048 (m ((c : Thread nD τ).loc main_arg3) : S16x2048x2048.Idx → Elt F .f32)
      shapeCasts_S16x2048x2048_S16x4x512x2048) ?_)
    (slabs_apply _ shapeCasts_S16x2048x2048_S16x4x512x2048 (expert t) 2 k cc)
  funext a
  apply Fin.ext
  match a with
  | ⟨0, _⟩ => show win0_5.index t 0 * 1 + 1 * 0 = t.val; rw [e0]; omega
  | ⟨1, _⟩ => show win0_5.index t 1 * 1 + 1 * 0 = 2; rw [e1]
  | ⟨2, _⟩ => show win0_5.index t 2 * 512 + 1 * k.val = k.val; rw [e2]; omega
  | ⟨3, _⟩ => show win0_5.index t 3 * 2048 + 1 * cc.val = cc.val; rw [e3]; omega

/-- Slab 3 of expert `t`'s weights. -/
theorem blk6_apply (c : Dev nD) (t : Fin cfg0.N) (k : Fin 512) (cc : Fin 2048) :
    (iblk m c 6 t : Vec F S1x1x512x2048 .f32) (ix4 (0 : Fin 1) (0 : Fin 1) k cc)
      = (m ((c : Thread nD τ).loc main_arg3) : S16x2048x2048.Idx → Elt F .f32) (ix3 (expert t) (place 3 k) cc) := by
  obtain ⟨e0, e1, e2, e3⟩ := index6 t
  unfold iblk
  rw [View.read_apply]
  show (V m c main_v2 : S16x4x512x2048.Idx → Elt F .f32) _ = _
  rw [V_v2]
  refine Eq.trans (congrArg (shapeCast S16x4x512x2048 (m ((c : Thread nD τ).loc main_arg3) : S16x2048x2048.Idx → Elt F .f32)
      shapeCasts_S16x2048x2048_S16x4x512x2048) ?_)
    (slabs_apply _ shapeCasts_S16x2048x2048_S16x4x512x2048 (expert t) 3 k cc)
  funext a
  apply Fin.ext
  match a with
  | ⟨0, _⟩ => show win0_6.index t 0 * 1 + 1 * 0 = t.val; rw [e0]; omega
  | ⟨1, _⟩ => show win0_6.index t 1 * 1 + 1 * 0 = 3; rw [e1]
  | ⟨2, _⟩ => show win0_6.index t 2 * 512 + 1 * k.val = k.val; rw [e2]; omega
  | ⟨3, _⟩ => show win0_6.index t 3 * 2048 + 1 * cc.val = cc.val; rw [e3]; omega

/-- Expert `t`'s bias row. -/
theorem blk7_apply (c : Dev nD) (t : Fin cfg0.N) (cc : Fin 2048) :
    (iblk m c 7 t : Vec F S1x1x2048 .f32) (ix3 (0 : Fin 1) (0 : Fin 1) cc)
      = (m ((c : Thread nD τ).loc main_arg4) : S16x2048.Idx → Elt F .f32) (ix2 (expert t) cc) := by
  obtain ⟨e0, e1, e2⟩ := index7 t
  unfold iblk
  rw [View.read_apply]
  show (V m c main_v1 : S16x1x2048.Idx → Elt F .f32) _ = _
  rw [V_v1]
  refine Eq.trans (congrArg (shapeCast S16x1x2048 (m ((c : Thread nD τ).loc main_arg4) : S16x2048.Idx → Elt F .f32)
      shapeCasts_S16x2048_S16x1x2048) ?_)
    (Cert.LibLayout.shapeCast_ac_a1c_apply _ shapeCasts_S16x2048_S16x1x2048 (expert t) (0 : Fin 1) cc)
  funext a
  apply Fin.ext
  match a with
  | ⟨0, _⟩ => show win0_7.index t 0 * 1 + 1 * 0 = t.val; rw [e0]; omega
  | ⟨1, _⟩ => show win0_7.index t 1 * 1 + 1 * 0 = 0; rw [e1]
  | ⟨2, _⟩ => show win0_7.index t 2 * 2048 + 1 * cc.val = cc.val; rw [e2]; omega

/-! ## The body's column slabs of the token block -/

/-- The place, among the 2048 columns, of column `k` of the slab that starts at column `o`. -/
theorem slab_idx (o : ℕ) (inb : ∀ a, (![0, o] : Fin 2 → ℕ) a + S512x512.size a ≤ S512x2048.size a)
    (r : Fin 512) (k : Fin 512) (q : Fin 2048) (hq : q.val = o + k.val) :
    (Rect.unit (s := S512x2048) ![0, o] S512x512.size inb).toLoadRect.idx (ix2 r k) = ix2 r q := by
  funext a
  apply Fin.ext
  match a with
  | ⟨0, _⟩ => show 0 + 1 * r.val = r.val; omega
  | ⟨1, _⟩ => show o + 1 * k.val = q.val; omega

/-- A load of 512 columns from column `o` of contents `X` reads, at `(r, k)`, `X` at `(r, o + k)`. -/
theorem ld_slab {α : Type} (X : S512x2048.Idx → α) (o : ℕ)
    (inb : ∀ a, (![0, o] : Fin 2 → ℕ) a + S512x512.size a ≤ S512x2048.size a)
    (r : Fin 512) (k : Fin 512) (q : Fin 2048) (hq : q.val = o + k.val) :
    X ((Rect.unit (s := S512x2048) ![0, o] S512x512.size inb).toLoadRect.idx (ix2 r k)) = X (ix2 r q) :=
  congrArg X (slab_idx o inb r k q hq)

/-- The four slabs the body loads, at the placements of the expert's product. -/
theorem ld_slab0 {α : Type} (X : S512x2048.Idx → α) (r : Fin 512) (k : Fin 512) :
    X ((Rect.unit (s := S512x2048) ![0, 0] S512x512.size inb_S512x2048_S512x512_0_0).toLoadRect.idx (ix2 r k))
      = X (ix2 r (place 0 k)) :=
  ld_slab X 0 _ r k _ (by show 512 * 0 + k.val = 0 + k.val; omega)
theorem ld_slab1 {α : Type} (X : S512x2048.Idx → α) (r : Fin 512) (k : Fin 512) :
    X ((Rect.unit (s := S512x2048) ![0, 512] S512x512.size inb_S512x2048_S512x512_0_512).toLoadRect.idx (ix2 r k))
      = X (ix2 r (place 1 k)) :=
  ld_slab X 512 _ r k _ (by show 512 * 1 + k.val = 512 + k.val; omega)
theorem ld_slab2 {α : Type} (X : S512x2048.Idx → α) (r : Fin 512) (k : Fin 512) :
    X ((Rect.unit (s := S512x2048) ![0, 1024] S512x512.size inb_S512x2048_S512x512_0_1024).toLoadRect.idx (ix2 r k))
      = X (ix2 r (place 2 k)) :=
  ld_slab X 1024 _ r k _ (by show 512 * 2 + k.val = 1024 + k.val; omega)
theorem ld_slab3 {α : Type} (X : S512x2048.Idx → α) (r : Fin 512) (k : Fin 512) :
    X ((Rect.unit (s := S512x2048) ![0, 1536] S512x512.size inb_S512x2048_S512x512_0_1536).toLoadRect.idx (ix2 r k))
      = X (ix2 r (place 3 k)) :=
  ld_slab X 1536 _ r k _ (by show 512 * 3 + k.val = 1536 + k.val; omega)

end Cert.Moe.Blocks

end
-- ==== Proof.Lanes.lean ====
/-
  Row statistics of a matrix, read at coordinates.

  A sum or a maximum along the second axis of an `[a, b]` array is an `[a]` vector whose entry `r` is the sum, or
  the maximum folded from the initial word's value, of the `b` entries of row `r`. Cast to a column `[a, 1]` and
  spread along `n` columns, the vector stands beside every entry of its row again: entry `(r, c)` of the spread
  array is entry `r` of the vector.
-/
import proofs.«118571_g10582799417755_week1_w2_590_23_alg».proof.Proof.LibLayout
import Idealize.ShloMosaic.Lib.ValueLayout
import Idealize.ShloMosaic.Lib.Pipeline.Value
import Idealize.ShloMosaic.Lib.ValueIdx
import Idealize.ShloMosaic.PureOps.Ideal.Laws

noncomputable section

namespace Cert.Moe.Lanes

open Idealize.ShloMosaic Idealize.ShloMosaic.ValueIdx

/-- An `[a]` vector cast to a column and spread along `n` columns reads, at `(r, c)`, the vector's entry `r`. -/
theorem column_apply {α : Type} {a n : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, n]⟩)
    (r : Fin a) (c : Fin n) :
    broadcastTo ⟨2, ![a, n]⟩ (shapeCast ⟨2, ![a, 1]⟩ v hc) hb (ix2 r c) = v (ix1 r) :=
  (Cert.LibLayout.broadcastTo_a1_ab_apply _ hb r c).trans (Cert.LibLayout.shapeCast_a_a1_apply v hc r 0)

/-- The row index `r` with the lane `l` put back on the reduced axis is the entry `(r, l)`. -/
theorem lift_row {a b : ℕ} (h : (⟨2, ![a, b]⟩ : Shape).Reduces [1] ⟨1, ![a]⟩) (r : Fin a) (l : Fin b) :
    h.lift (ix1 r) l = ix2 r l :=
  funext fun ax => Fin.ext (by match ax with | ⟨0, _⟩ => rfl | ⟨1, _⟩ => rfl)

/-- The sum along the rows of an `[a, b]` array, at row `r`: the sum of the row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ l : Fin b, src (ix2 r l) :=
  (Ideal.multiReduction_add_single src _ h hφ hacc (ix1 r)).trans
    (Finset.sum_congr rfl fun l _ => congrArg src (lift_row h r l))

/-- The maximum along the rows of an `[a, b]` array, at row `r`: the fold of `max`, from the value of the initial
    word, over the row's `b` entries. -/
theorem rowMax_apply {a b : ℕ} (src : FVec Ideal ⟨2, ![a, b]⟩ .f32) (acc : BitVec 32)
    (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun l => src (ix2 r l)) :=
  (Ideal.multiReduction_maximumf_single src acc h hφ hacc (ix1 r)).trans
    (congrArg ((Finset.univ : Finset (Fin b)).fold max (Ideal.ofBits .f32 acc))
      (funext fun l => congrArg src (lift_row h r l)))

end Cert.Moe.Lanes

end
-- ==== Proof.PayMix.lean ====
/-
  One expert's share of the output as the kernel computes it, read at coordinates.

  At expert `t` the kernel takes the positive part of the expert's affine map, `max (h + bias) 0`, and multiplies
  it by the token's probability of expert `t`. The probability is picked out of the token's sixteen probabilities
  without indexing: each lane `l` of the row keeps its entry where `l = t` and is replaced by zero elsewhere, and
  the sixteen lanes are summed; a sum with one possibly non-zero term is that term. The picked column is then
  spread along the 2048 output columns. From the second expert on, the share is added to the output so far.
-/
import proofs.«118571_g10582799417755_week1_w2_590_23_alg».proof.Proof.Gen.KernelIdeal.Skeleton
import proofs.«118571_g10582799417755_week1_w2_590_23_alg».proof.Proof.Lanes
import Idealize.ShloMosaic.Lib.ValueLayout
import Idealize.ShloMosaic.Lib.Pipeline.Value
import Idealize.ShloMosaic.Lib.ValueIdx
import Idealize.ShloMosaic.PureOps.Ideal.Laws

noncomputable section

namespace Cert.Moe.Pay

open Idealize.ShloMosaic Idealize.ShloMosaic.ValueIdx Cert.KernelIdeal Cert.KernelIdeal.Gen

/-- Two words below sixteen compare equal exactly when the numbers are equal, so a choice on that comparison is
    the choice on `l = t`. -/
theorem select_lane {α : Type} (l t : ℕ) (hl : l < 16) (ht : t < 16) (a b : α) :
    Scalar.select (IntOp.cmpi .eq (BitVec.ofNat 32 l) (BitVec.ofNat 32 t)) a b = if l = t then a else b := by
  have hc : IntOp.cmpi .eq (BitVec.ofNat 32 l) (BitVec.ofNat 32 t) = BitVec.ofBool (decide (l = t)) := by
    show BitVec.ofBool (BitVec.ofNat 32 l == BitVec.ofNat 32 t) = _
    congr 1
    by_cases h : l = t
    · subst h; simp
    · have hne : BitVec.ofNat 32 l ≠ BitVec.ofNat 32 t := by
        intro e
        apply h
        have e' := congrArg BitVec.toNat e
        simp only [BitVec.toNat_ofNat] at e'
        omega
      simp [hne, h]
  rw [hc]
  unfold Scalar.select
  by_cases h : l = t
  · simp [h]
  · simp [h]

/-- Row `r` of the probabilities with every lane but `t` replaced by zero, summed over the lanes, is the
    probability of expert `t`. -/
theorem pick_apply (t : ℕ) (ht : t < 16) (p : Vec Ideal S512x16 .f32) (r : Fin 512) :
    multiReduction .add [1] S512
        (select (cmpi .eq (iota .tc S512x16 32 [1] iota_S512x16_d1_w32) (broadcast S512x16 (BitVec.ofNat 32 t))) p
          (broadcast S512x16 (Scalar.ofBits (F := Ideal) .f32 0x00000000#32)))
        0x00000000#32 reduces_S512x16_S512 (.inl rfl) rfl (ix1 r)
      = p (ix2 r ⟨t, ht⟩) := by
  refine (Cert.Moe.Lanes.rowSum_apply (a := 512) (b := 16) _ reduces_S512x16_S512 (.inl rfl) rfl r).trans ?_
  have hterm (l : Fin 16) :
      select (cmpi .eq (iota .tc S512x16 32 [1] iota_S512x16_d1_w32) (broadcast S512x16 (BitVec.ofNat 32 t))) p
          (broadcast S512x16 (Scalar.ofBits (F := Ideal) .f32 0x00000000#32)) (ix2 r l)
        = if l = ⟨t, ht⟩ then p (ix2 r l) else 0 := by
    show Scalar.select (IntOp.cmpi .eq (iota .tc S512x16 32 [1] iota_S512x16_d1_w32 (ix2 r l)) (BitVec.ofNat 32 t))
        (p (ix2 r l)) (Ideal.ofBits .f32 0x00000000#32) = _
    rw [iota_single_apply, Ideal.ofBits_zero_f32]
    refine (select_lane l.val t l.isLt ht _ _).trans ?_
    by_cases h : l = ⟨t, ht⟩
    · rw [if_pos h, if_pos (congrArg Fin.val h)]
    · rw [if_neg h, if_neg (fun hv => h (Fin.ext hv))]
  rw [Finset.sum_congr rfl fun l _ => hterm l]
  exact Fintype.sum_ite_eq' (⟨t, ht⟩ : Fin 16) fun l => p (ix2 r l)

/-- Expert `t`'s share at row `r` and column `c`: the positive part of the affine map times the token's
    probability of expert `t`. -/
theorem pay1_apply (t : ℕ) (ht : t < 16) (h : FVec Ideal S512x2048 .f32) (bias : FVec Ideal S1x2048 .f32)
    (p : Vec Ideal S512x16 .f32) (r : Fin 512) (c : Fin 2048) :
    k0_pay1 (F := Ideal) (BitVec.ofNat 32 t) h bias p (ix2 r c)
      = max (h (ix2 r c) + bias (ix2 (0 : Fin 1) c)) 0 * p (ix2 r ⟨t, ht⟩) := by
  unfold k0_pay1
  refine congrArg₂ (· * ·) ?_ ?_
  · show max (h (ix2 r c) + broadcastTo S512x2048 bias broadcasts_S1x2048_S512x2048 (ix2 r c))
        (Ideal.ofBits .f32 0x00000000#32) = _
    rw [Ideal.ofBits_zero_f32]
    exact congrArg (fun z => max (h (ix2 r c) + z) 0)
      (broadcastTo_1b_ab_apply bias broadcasts_S1x2048_S512x2048 r c)
  · exact (Cert.Moe.Lanes.column_apply (a := 512) (n := 2048) _ shapeCasts_S512_S512x1 broadcasts_S512x1_S512x2048 r c).trans
      (pick_apply t ht p r)

/-- From the second expert on, the share is added to the output so far. -/
theorem pay2_apply (a0 : BitVec 32) (h : FVec Ideal S512x2048 .f32) (bias : FVec Ideal S1x2048 .f32)
    (p : Vec Ideal S512x16 .f32) (prev : Vec Ideal S512x2048 .f32) (i : S512x2048.Idx) :
    k0_pay2 (F := Ideal) a0 h bias p prev i = prev i + k0_pay1 (F := Ideal) a0 h bias p i := by
  unfold k0_pay2
  exact congrArg (· + k0_pay1 (F := Ideal) a0 h bias p i)
    (congrFun (shapeCast_self prev shapeCasts_S512x2048_S512x2048) i)

end Cert.Moe.Pay

end
-- ==== Proof.Spec.lean ====
/-
  The dense mixture-of-experts layer as one function of its five argument arrays, over the extended reals,
  written over coordinates (row r < 512, expert e < 16, contraction index k < 2048, column c < 2048):

    logit r e   = (∑ k, x r k * wg k e) + bg e
    rowMax r    = the maximum of the sixteen logits of row r, folded from -∞
    expo r e    = exp (logit r e - rowMax r)
    prob r e    = expo r e / ∑ j, expo r j                      (the softmax of row r)
    hidden e r c = max ((∑ k, x r k * we e k c) + be e c) 0      (expert e's affine map, then relu)
    contrib e r c = hidden e r c * prob r e
    moe r c     = ∑ e < 16, contrib e r c

  The sum over the experts is stated over `Finset.range` so that a running sum built one expert at a time
  (`upTo n = upTo (n - 1) + contribN n`) and a sum started from zero both unfold to it by
  `Finset.sum_range_succ`. Nothing here needs a finite input: only the commutative-monoid laws of `+` are used
  by the two programs' different groupings.
-/
import Idealize.ShloMosaic.PureOps.Ideal

noncomputable section

namespace Cert.Moe

open Idealize.ShloMosaic

section
variable (x : Fin 512 → Fin 2048 → EReal) (wg : Fin 2048 → Fin 16 → EReal) (bg : Fin 16 → EReal)
  (we : Fin 16 → Fin 2048 → Fin 2048 → EReal) (be : Fin 16 → Fin 2048 → EReal)

/-- The gate's score of expert `e` for token `r`. -/
def logit (r : Fin 512) (e : Fin 16) : EReal := (∑ k : Fin 2048, x r k * wg k e) + bg e

/-- The largest of a token's sixteen scores, folded from the word of -∞. -/
def rowMax (r : Fin 512) : EReal :=
  (Finset.univ : Finset (Fin 16)).fold max (Ideal.ofBits .f32 0xFF800000#32) (logit x wg bg r)

/-- The exponential of a score less the row's largest. -/
def expo (r : Fin 512) (e : Fin 16) : EReal := Ideal.exp (logit x wg bg r e - rowMax x wg bg r)

/-- The softmax of a token's scores. -/
def prob (r : Fin 512) (e : Fin 16) : EReal := Ideal.div (expo x wg bg r e) (∑ j : Fin 16, expo x wg bg r j)

/-- Expert `e` applied to token `r`, column `c`: the affine map followed by the positive part. -/
def hidden (e : Fin 16) (r : Fin 512) (c : Fin 2048) : EReal := max ((∑ k : Fin 2048, x r k * we e k c) + be e c) 0

/-- Expert `e`'s share of the output. -/
def contrib (e : Fin 16) (r : Fin 512) (c : Fin 2048) : EReal := hidden x we be e r c * prob x wg bg r e

/-- The same with the expert a natural number (zero beyond the sixteenth). -/
def contribN (n : ℕ) (r : Fin 512) (c : Fin 2048) : EReal :=
  if h : n < 16 then contrib x wg bg we be ⟨n, h⟩ r c else 0

/-- The experts `0 … n` summed. -/
def upTo (n : ℕ) (r : Fin 512) (c : Fin 2048) : EReal := ∑ e ∈ Finset.range (n + 1), contribN x wg bg we be e r c

/-- The layer's output. -/
def moe (r : Fin 512) (c : Fin 2048) : EReal := upTo x wg bg we be 15 r c

theorem upTo_zero (r : Fin 512) (c : Fin 2048) : upTo x wg bg we be 0 r c = contribN x wg bg we be 0 r c := by
  unfold upTo; rw [Finset.sum_range_one]

theorem upTo_succ (n : ℕ) (r : Fin 512) (c : Fin 2048) :
    upTo x wg bg we be (n + 1) r c = upTo x wg bg we be n r c + contribN x wg bg we be (n + 1) r c := by
  unfold upTo; rw [Finset.sum_range_succ]

theorem contribN_of_lt {n : ℕ} (h : n < 16) (r : Fin 512) (c : Fin 2048) :
    contribN x wg bg we be n r c = contrib x wg bg we be ⟨n, h⟩ r c := by
  unfold contribN; rw [dif_pos h]

/-- The output as the sum begun at zero, one expert after the other (the grouping of a loop that starts from a zero array). -/
theorem moe_eq_chain (r : Fin 512) (c : Fin 2048) :
    moe x wg bg we be r c
      = 0 + contrib x wg bg we be 0 r c + contrib x wg bg we be 1 r c + contrib x wg bg we be 2 r c
          + contrib x wg bg we be 3 r c + contrib x wg bg we be 4 r c + contrib x wg bg we be 5 r c
          + contrib x wg bg we be 6 r c + contrib x wg bg we be 7 r c + contrib x wg bg we be 8 r c
          + contrib x wg bg we be 9 r c + contrib x wg bg we be 10 r c + contrib x wg bg we be 11 r c
          + contrib x wg bg we be 12 r c + contrib x wg bg we be 13 r c + contrib x wg bg we be 14 r c
          + contrib x wg bg we be 15 r c := by
  unfold moe upTo
  simp only [Finset.sum_range_succ, Finset.sum_range_zero]
  have h (n : ℕ) (hn : n < 16) : contribN x wg bg we be n r c = contrib x wg bg we be ⟨n, hn⟩ r c :=
    contribN_of_lt x wg bg we be hn r c
  rw [h 0 (by decide), h 1 (by decide), h 2 (by decide), h 3 (by decide), h 4 (by decide), h 5 (by decide),
    h 6 (by decide), h 7 (by decide), h 8 (by decide), h 9 (by decide), h 10 (by decide), h 11 (by decide),
    h 12 (by decide), h 13 (by decide), h 14 (by decide), h 15 (by decide)]
  rfl

end

end Cert.Moe

end
-- ==== Proof.PayGate.lean ====
/-
  The gate as the kernel computes it, read at coordinates.

  For token `r` the kernel forms the sixteen scores `(∑ k, x r k * wg k e) + bg e` (the product accumulated from
  zero, the bias row spread over the tokens), takes the row's maximum folded from the word of -∞, subtracts it
  from every score, exponentiates, sums the sixteen exponentials of the row and divides each exponential by that
  sum. The row maximum and the row sum come back as vectors over the tokens; each is cast to a column and spread
  along the sixteen lanes before it meets the scores again. Entry `(r, e)` of the result is the softmax
  probability `Cert.Moe.prob` of expert `e` for token `r`, term for term.
-/
import proofs.«118571_g10582799417755_week1_w2_590_23_alg».proof.Proof.Gen.KernelIdeal.Skeleton
import proofs.«118571_g10582799417755_week1_w2_590_23_alg».proof.Proof.Spec
import proofs.«118571_g10582799417755_week1_w2_590_23_alg».proof.Proof.LibPlainDot
import proofs.«118571_g10582799417755_week1_w2_590_23_alg».proof.Proof.Lanes
import Idealize.ShloMosaic.Lib.ValueLayout
import Idealize.ShloMosaic.Lib.Pipeline.Value
import Idealize.ShloMosaic.Lib.ValueIdx
import Idealize.ShloMosaic.PureOps.Ideal.Laws

noncomputable section

namespace Cert.Moe.Pay

open Idealize.ShloMosaic Idealize.ShloMosaic.ValueIdx Cert.KernelIdeal Cert.KernelIdeal.Gen

section
variable (X : FVec Ideal S512x2048 .f32) (W : FVec Ideal S2048x16 .f32) (B : FVec Ideal S1x16 .f32)

/-- The sixteen scores of every token, as the kernel forms them. -/
def scores : FVec Ideal S512x16 .f32 :=
  addf (matmul dot_S512x2048_S2048x16_S512x16_1_0_0_1_n_n none X W (constant (F := Ideal) S512x16 .f32 0x00000000#32))
    (broadcastTo S512x16 (shapeCast S1x16 B shapeCasts_S1x16_S1x16) broadcasts_S1x16_S512x16)

/-- The scores less their row's maximum, exponentiated. -/
def expos : FVec Ideal S512x16 .f32 :=
  exp (subf (scores X W B)
    (broadcastTo S512x16
      (shapeCast S512x1
        (multiReduction .maximumf [1] S512 (scores X W B) 0xFF800000#32 reduces_S512x16_S512 (.inl rfl) rfl)
        shapeCasts_S512_S512x1)
      broadcasts_S512x1_S512x16))

/-- The kernel's gate is the exponentials divided by their row sums. -/
theorem pay3_eq :
    k0_pay3 (F := Ideal) X W B
      = shapeCast S512x16
          (divf (expos X W B)
            (broadcastTo S512x16
              (shapeCast S512x1
                (multiReduction .add [1] S512 (expos X W B) 0x00000000#32 reduces_S512x16_S512 (.inl rfl) rfl)
                shapeCasts_S512_S512x1)
              broadcasts_S512x1_S512x16))
          shapeCasts_S512x16_S512x16 := rfl

/-- A score at `(r, e)`. -/
theorem scores_apply (r : Fin 512) (e : Fin 16) :
    scores X W B (ix2 r e)
      = Cert.Moe.logit (fun r k => X (ix2 r k)) (fun k e => W (ix2 k e)) (fun e => B (ix2 (0 : Fin 1) e)) r e := by
  unfold scores Cert.Moe.logit
  refine congrArg₂ (· + ·) ?_ ?_
  · exact Cert.Sage.matmul_plain_zero_apply (M := 512) (K := 2048) (N := 16) none X W r e
  · refine (broadcastTo_1b_ab_apply _ broadcasts_S1x16_S512x16 r e).trans ?_
    exact congrFun (shapeCast_self B shapeCasts_S1x16_S1x16) _

/-- The row maximum of the scores at token `r`. -/
theorem scores_max_apply (r : Fin 512) :
    multiReduction .maximumf [1] S512 (scores X W B) 0xFF800000#32 reduces_S512x16_S512 (.inl rfl) rfl (ix1 r)
      = Cert.Moe.rowMax (fun r k => X (ix2 r k)) (fun k e => W (ix2 k e)) (fun e => B (ix2 (0 : Fin 1) e)) r := by
  refine (Cert.Moe.Lanes.rowMax_apply (a := 512) (b := 16) (scores X W B) 0xFF800000#32 reduces_S512x16_S512
    (.inl rfl) rfl r).trans ?_
  unfold Cert.Moe.rowMax
  exact congrArg ((Finset.univ : Finset (Fin 16)).fold max (Ideal.ofBits .f32 0xFF800000#32))
    (funext fun e => scores_apply X W B r e)

/-- An exponential at `(r, e)`. -/
theorem expos_apply (r : Fin 512) (e : Fin 16) :
    expos X W B (ix2 r e)
      = Cert.Moe.expo (fun r k => X (ix2 r k)) (fun k e => W (ix2 k e)) (fun e => B (ix2 (0 : Fin 1) e)) r e := by
  unfold expos Cert.Moe.expo
  refine congrArg Ideal.exp (congrArg₂ (· - ·) (scores_apply X W B r e) ?_)
  exact (Cert.Moe.Lanes.column_apply (a := 512) (n := 16) _ shapeCasts_S512_S512x1 broadcasts_S512x1_S512x16 r e).trans
    (scores_max_apply X W B r)

/-- The gate at `(r, e)` is the softmax probability of expert `e` for token `r`. -/
theorem pay3_apply (r : Fin 512) (e : Fin 16) :
    k0_pay3 (F := Ideal) X W B (ix2 r e)
      = Cert.Moe.prob (fun r k => X (ix2 r k)) (fun k e => W (ix2 k e)) (fun e => B (ix2 (0 : Fin 1) e)) r e := by
  rw [pay3_eq]
  refine (congrFun (shapeCast_self _ shapeCasts_S512x16_S512x16) (ix2 r e)).trans ?_
  unfold Cert.Moe.prob
  refine congrArg₂ Ideal.div (expos_apply X W B r e) ?_
  refine (Cert.Moe.Lanes.column_apply (a := 512) (n := 16) _ shapeCasts_S512_S512x1 broadcasts_S512x1_S512x16 r e).trans ?_
  refine (Cert.Moe.Lanes.rowSum_apply (a := 512) (b := 16) (expos X W B) reduces_S512x16_S512 (.inl rfl) rfl r).trans ?_
  exact Finset.sum_congr rfl fun j _ => expos_apply X W B r j

end

end Cert.Moe.Pay

end
-- ==== Proof.KernelIdeal.Value.lean ====
/-
  What the idealized kernel's result array holds, over the extended reals.

  The two runs of the body leave, in the output buffer and the scratch, the body's named arithmetic applied to the
  buffers' contents: expert 0's run leaves the gate in the scratch and (its hidden layer) × (its probability
  column) in the output buffer; a later run leaves the previous output plus that product. Reading the named
  arithmetic at an index (the gate is the softmax of the scores; four products over 512 contraction indices make
  the product over 2048; the lane mask picks the expert's probability) and the windows' blocks at coordinates of
  the argument arrays, induction on the grid point shows that after point n the scratch holds the softmax and the
  output buffer the sum of the experts 0 … n. The one write-back, after the last point, covers the result array.
-/
import proofs.«118571_g10582799417755_week1_w2_590_23_alg».proof.Proof.KernelIdeal.Pieces
import proofs.«118571_g10582799417755_week1_w2_590_23_alg».proof.Proof.Blocks
import proofs.«118571_g10582799417755_week1_w2_590_23_alg».proof.Proof.PayExpert
import proofs.«118571_g10582799417755_week1_w2_590_23_alg».proof.Proof.PayMix
import proofs.«118571_g10582799417755_week1_w2_590_23_alg».proof.Proof.PayGate
import proofs.«118571_g10582799417755_week1_w2_590_23_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand Cert.Moe.Pay Cert.Moe.Blocks
open Idealize.ShloMosaic Idealize.ShloMosaic.TcCoe Idealize.ShloMosaic.Tactic Idealize.ShloMosaic.ValueIdx Idealize.SL.Sem
open Idealize.ShloMosaic.Pipeline (Dat)

/-! ## The values, at the extended reals -/

variable (m : (ℓ : Loc nD τ sig) → Buf (Elt Ideal) ℓ) (ρ : Dev nD → PrngReg)

/-- The argument arrays over coordinates. -/
abbrev cx (c : Dev nD) : Fin 512 → Fin 2048 → EReal := fun r k => (m ((c.tc : Thread nD τ).loc main_arg0) : S512x2048.Idx → EReal) (ix2 r k)
abbrev cwg (c : Dev nD) : Fin 2048 → Fin 16 → EReal := fun k e => (m ((c.tc : Thread nD τ).loc main_arg1) : S2048x16.Idx → EReal) (ix2 k e)
abbrev cbg (c : Dev nD) : Fin 16 → EReal := fun e => (m ((c.tc : Thread nD τ).loc main_arg2) : S16.Idx → EReal) (ix1 e)
abbrev cwe (c : Dev nD) : Fin 16 → Fin 2048 → Fin 2048 → EReal := fun e k cc => (m ((c.tc : Thread nD τ).loc main_arg3) : S16x2048x2048.Idx → EReal) (ix3 e k cc)
abbrev cbe (c : Dev nD) : Fin 16 → Fin 2048 → EReal := fun e cc => (m ((c.tc : Thread nD τ).loc main_arg4) : S16x2048.Idx → EReal) (ix2 e cc)

/-- The gate computed from the blocks at any point is the softmax of the argument arrays. -/
theorem gate_apply (c : Dev nD) (t : Fin cfg0.N) (r : Fin 512) (e : Fin 16) :
    k0_pay3 (F := Ideal) (iblk m c 0 t) (iblk m c 1 t) (iblk m c 2 t) (ix2 r e)
      = Cert.Moe.prob (cx m c) (cwg m c) (cbg m c) r e := by
  have e0 : (fun r k => (iblk m c 0 t : Vec Ideal S512x2048 .f32) (ix2 r k)) = cx m c := funext fun r => funext fun k => blk0_apply m c t r k
  have e1 : (fun k e => (iblk m c 1 t : Vec Ideal S2048x16 .f32) (ix2 k e)) = cwg m c := funext fun k => funext fun e => blk1_apply m c t k e
  have e2 : (fun e => (iblk m c 2 t : Vec Ideal S1x16 .f32) (ix2 (0 : Fin 1) e)) = cbg m c := funext fun e => blk2_apply m c t e
  refine (pay3_apply (iblk m c 0 t) (iblk m c 1 t) (iblk m c 2 t) r e).trans ?_
  rw [e0, e1, e2]

/-- The expert's product and bias at point `t`, read at (r, cc). -/
theorem hid_apply (c : Dev nD) (t : Fin cfg0.N) (r : Fin 512) (cc : Fin 2048) :
    hid (F := Ideal) (iblk m c 0 t) (iblk m c 3 t) (iblk m c 4 t) (iblk m c 5 t) (iblk m c 6 t) (ix2 r cc)
      = ∑ k : Fin 2048, cx m c r k * cwe m c (expert t) k cc :=
  pay4_full_at (slab0 (iblk m c 0 t)) (iblk m c 3 t) (slab1 (iblk m c 0 t)) (iblk m c 4 t)
    (slab2 (iblk m c 0 t)) (iblk m c 5 t) (slab3 (iblk m c 0 t)) (iblk m c 6 t) r cc
    (cx m c r) (fun k => cwe m c (expert t) k cc)
    (fun k => (ld_slab0 (iblk m c 0 t : Vec Ideal S512x2048 .f32) r k).trans (blk0_apply m c t r (place 0 k))) (fun k => blk3_apply m c t k cc)
    (fun k => (ld_slab1 (iblk m c 0 t : Vec Ideal S512x2048 .f32) r k).trans (blk0_apply m c t r (place 1 k))) (fun k => blk4_apply m c t k cc)
    (fun k => (ld_slab2 (iblk m c 0 t : Vec Ideal S512x2048 .f32) r k).trans (blk0_apply m c t r (place 2 k))) (fun k => blk5_apply m c t k cc)
    (fun k => (ld_slab3 (iblk m c 0 t : Vec Ideal S512x2048 .f32) r k).trans (blk0_apply m c t r (place 3 k))) (fun k => blk6_apply m c t k cc)

/-- Expert `t`'s share, given the probabilities `P`. -/
theorem share_apply (c : Dev nD) (t : Fin cfg0.N) (P : Vec Ideal S512x16 .f32) (r : Fin 512) (cc : Fin 2048) :
    k0_pay1 (F := Ideal) (BitVec.ofNat 32 (grid0.coords t 0).val)
        (hid (iblk m c 0 t) (iblk m c 3 t) (iblk m c 4 t) (iblk m c 5 t) (iblk m c 6 t)) (k0_pay5 (iblk m c 7 t)) P (ix2 r cc)
      = Cert.Moe.hidden (cx m c) (cwe m c) (cbe m c) (expert t) r cc * P (ix2 r (expert t)) := by
  rw [coord_val t]
  refine (pay1_apply t.val (expert t).isLt
    (hid (iblk m c 0 t) (iblk m c 3 t) (iblk m c 4 t) (iblk m c 5 t) (iblk m c 6 t)) (k0_pay5 (iblk m c 7 t)) P r cc).trans ?_
  rw [hid_apply m c t r cc, pay5_apply (iblk m c 7 t) cc, blk7_apply m c t cc]
  rfl

/-- After point `n` the scratch holds the softmax and the output buffer the experts `0 … n` summed. -/
theorem outs_eq (c : Dev nD) : ∀ (n : ℕ) (hn : n < cfg0.N),
    (∀ (r : Fin 512) (e : Fin 16), (outsAt m c n hn).2 (ix2 r e) = Cert.Moe.prob (cx m c) (cwg m c) (cbg m c) r e)
    ∧ (∀ (r : Fin 512) (cc : Fin 2048), (outsAt m c n hn).1 (ix2 r cc) = Cert.Moe.upTo (cx m c) (cwg m c) (cbg m c) (cwe m c) (cbe m c) n r cc)
  | 0, hn => by
    have h16 : (0 : ℕ) < 16 := by decide
    rw [outsAt_first m c ⟨0, hn⟩ rfl]
    refine ⟨fun r e => ?_, fun r cc => ?_⟩
    · dsimp only
      rw [scrFirst_eq]
      exact gate_apply m c ⟨0, hn⟩ r e
    · dsimp only
      rw [outFirst_eq, share_apply m c ⟨0, hn⟩ _ r cc, gate_apply m c ⟨0, hn⟩ r _, Cert.Moe.upTo_zero,
        Cert.Moe.contribN_of_lt _ _ _ _ _ h16]
      rfl
  | n + 1, hn => by
    have hN : cfg0.N = 16 := N_0
    have h16 : n + 1 < 16 := by omega
    obtain ⟨ihp, iho⟩ := outs_eq c n (Nat.lt_of_succ_lt hn)
    rw [outsAt_later m c ⟨n + 1, hn⟩ (Nat.succ_ne_zero n)]
    refine ⟨fun r e => ihp r e, fun r cc => ?_⟩
    dsimp only
    rw [outLater_eq, pay2_apply, share_apply m c ⟨n + 1, hn⟩ _ r cc, Cert.Moe.upTo_succ,
      Cert.Moe.contribN_of_lt _ _ _ _ _ h16]
    exact congrArg₂ (· + ·) (iho r cc)
      (congrArg (fun z => Cert.Moe.hidden (cx m c) (cwe m c) (cbe m c) ⟨n + 1, h16⟩ r cc * z) (ihp r ⟨n + 1, h16⟩))

/-- The layer's output over the argument arrays, as contents of the result array. -/
abbrev spec (c : Dev nD) : Buf (Elt Ideal) ((c : Thread nD τ).loc main_v3) :=
  fun i => Cert.Moe.moe (cx m c) (cwg m c) (cbg m c) (cwe m c) (cbe m c) (i 0) (i 1)

/-- After the last point the output buffer holds the layer's output. -/
theorem last_eq (c : Dev nD) (h : 15 < cfg0.N) : (outsAt m c 15 h).1 = spec m c := by
  funext i
  obtain ⟨r, cc, rfl⟩ : ∃ (r : Fin 512) (cc : Fin 2048), i = ix2 r cc := ⟨i 0, i 1, eq_ix2 i⟩
  exact ((outs_eq m c 15 h).2 r cc)

theorem flushed_eq (c : Dev nD) (t : Fin cfg0.N) (hf : (cfg0.win 8).flush t = true) :
    (dats m 0 c).flushed 8 t = ((cfg0.win 8).blk t).view.read (Elt Ideal) (spec m c) := by
  have hN : cfg0.N = 16 := N_0
  have h15 : t.val = 15 := by have := (flush0_8 t).mp hf; have := t.isLt; omega
  obtain rfl : t = t0_15 := Fin.ext h15
  show (cfg0.win 8).cut (grid0.coords t0_15) ((dats m 0 c).after 8 t0_15) = _
  rw [after8, show (outsAt m c t0_15.val t0_15.isLt).1 = spec m c from last_eq m c t0_15.isLt]
  have hz' : (fun a => win0_8.index t0_15 a * main_v3.ty.shape.size a) = fun _ => 0 := funext fun a => by fin_cases a <;> decide
  exact (Memref.read_access_unit_zero (Elt Ideal) main_v3 hz' (fun a => by rw [congrFun hz' a]; simp) (spec m c)).symm

/-- The result array ends holding the layer's output: the one write-back covers it. -/
theorem result_eq (c : Dev nD) : result m c = spec m c :=
  (dats m 0 c).arrAt_eq_of_cover 8 (spec m c) (flushed_eq m c) fun i =>
    ⟨t0_15, (flush0_8 t0_15).mpr rfl, by
      show i ∈ ((View.whole main_v3).slice (win0_8.rect t0_15)).set
      rw [View.set_slice_whole, Rect.mem_set_unit]
      intro a
      have h0 : (i 0 : Nat) < 512 := (i 0).isLt
      have h1 : (i 1 : Nat) < 2048 := (i 1).isLt
      match a with
      | ⟨0, _⟩ => show win0_8.index t0_15 0 * win0_8.size 0 ≤ (i 0 : Nat) ∧ (i 0 : Nat) < win0_8.index t0_15 0 * win0_8.size 0 + win0_8.xsize (grid0.coords t0_15) 0
                  rw [show win0_8.index t0_15 0 * win0_8.size 0 = 0 from by decide +kernel, show win0_8.xsize (grid0.coords t0_15) 0 = 512 from by decide +kernel]; omega
      | ⟨1, _⟩ => show win0_8.index t0_15 1 * win0_8.size 1 ≤ (i 1 : Nat) ∧ (i 1 : Nat) < win0_8.index t0_15 1 * win0_8.size 1 + win0_8.xsize (grid0.coords t0_15) 1
                  rw [show win0_8.index t0_15 1 * win0_8.size 1 = 0 from by decide +kernel, show win0_8.xsize (grid0.coords t0_15) 1 = 2048 from by decide +kernel]; omega⟩

end Cert.KernelIdeal.HandValue

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«118571_g10582799417755_week1_w2_590_23_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.LibSliceLeading.lean ====
/-
  A rank-3 array cut along its leading axis, read at coordinates.

  For any extents: a unit-stride slice of an `[n0, n1, n2]` array that starts at `o` on the leading axis and at zero on
  the other two reads, at `(j, a, e)`, the source at `(o + j, a, e)`. This is how one matrix is taken out of a stack
  (the slice `[l : l + 1, :, :]`), before the unit axis that is left is dropped.
-/
import Idealize.ShloMosaic.Lib.Pipeline.Value
import Idealize.ShloMosaic.Lib.ValueIdx

namespace Cert.LibSliceLeading

open Idealize.ShloMosaic Idealize.ShloMosaic.ValueIdx

/-- A rank-3 array cut along axis 0 from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

end Cert.LibSliceLeading
-- ==== Proof.LibColumns.lean ====
/-
  Columns, single entries and small stacks read at an index, for any extents and any element type.

  Reading a kernel's re-laid values at an index. The kernel cuts single columns out of a block of rows, views a
  column as a vector and back, reads single entries of the small rotation and translation arrays, and stacks
  per-Gaussian scalars into rows of three and into 2×2 matrices. Each lemma says which entry of the operand an
  entry of the result is; all are about positions only, for any extents and any element type.
-/
import Idealize.ShloMosaic.Lib.Pipeline.Value
import Idealize.ShloMosaic.Lib.ValueIdx
import Idealize.ShloMosaic.Lib.ValueLayout

namespace Cert.Splat.Lay

open Idealize.ShloMosaic Idealize.ShloMosaic.ValueIdx

variable {α : Type}

/-- Column `o` of an `[N, C]` array, cut out as `[N, 1]` and viewed as a vector of length `N`: entry `p` is the
    array's entry `(p, o)`. -/
theorem col_at {N C : ℕ} (o : ℕ) (X : (⟨2, ![N, C]⟩ : Shape).Idx → α)
    (h1 : (⟨2, ![N, C]⟩ : Shape).Slices ![0, o] ⟨2, ![N, 1]⟩)
    (h2 : (⟨2, ![N, 1]⟩ : Shape).ShapeCasts ⟨1, ![N]⟩) (p : Fin N) (k : Fin C) (hk : k.val = o) :
    shapeCast ⟨1, ![N]⟩ (extractStridedSlice ⟨2, ![N, 1]⟩ ![0, o] X h1) h2 (ix1 p) = X (ix2 p k) := by
  refine (shapeCast_apply _ h2 (ix1 p) (ix2 p (0 : Fin 1)) ?_).trans
    (slice2_axis1_apply o X h1 p 0 k (by simpa using hk))
  rw [Shape.rowMajor_val_two, Shape.rowMajor_val_one]
  show p.val * 1 + 0 = p.val
  omega

/-- A vector of length `N` viewed as one column `[N, 1]`: entry `(p, 0)` is the vector's entry `p`. -/
theorem ucol_at {N : ℕ} (v : (⟨1, ![N]⟩ : Shape).Idx → α) (h : (⟨1, ![N]⟩ : Shape).ShapeCasts ⟨2, ![N, 1]⟩)
    (p : Fin N) (z : Fin 1) : shapeCast ⟨2, ![N, 1]⟩ v h (ix2 p z) = v (ix1 p) := by
  refine shapeCast_apply _ h (ix2 p z) (ix1 p) ?_
  rw [Shape.rowMajor_val_two, Shape.rowMajor_val_one]
  show p.val = p.val * 1 + z.val
  have := z.isLt
  omega

/-- An `[N, 2]` array viewed as `[N, 1, 2]`: entry `(p, 0, b)` is entry `(p, b)`. -/
theorem umid_at {N : ℕ} (v : (⟨2, ![N, 2]⟩ : Shape).Idx → α) (h : (⟨2, ![N, 2]⟩ : Shape).ShapeCasts ⟨3, ![N, 1, 2]⟩)
    (p : Fin N) (z : Fin 1) (b : Fin 2) : shapeCast ⟨3, ![N, 1, 2]⟩ v h (ix3 p z b) = v (ix2 p b) := by
  refine shapeCast_apply _ h (ix3 p z b) (ix2 p b) ?_
  rw [Shape.rowMajor_val_three, Shape.rowMajor_val_two]
  show p.val * 2 + b.val = (p.val * 1 + z.val) * 2 + b.val
  have := z.isLt
  omega

/-- One entry of a matrix, taken as a 1×1 cut and then its only element. -/
theorem ent2_at {n0 n1 : ℕ} (o0 o1 : ℕ) (X : (⟨2, ![n0, n1]⟩ : Shape).Idx → α)
    (h : (⟨2, ![n0, n1]⟩ : Shape).Slices ![o0, o1] ⟨2, ![1, 1]⟩)
    (h' : ∀ a, (![0, 0] : Fin 2 → ℕ) a < (⟨2, ![1, 1]⟩ : Shape).size a)
    (a : Fin n0) (b : Fin n1) (ha : a.val = o0) (hb : b.val = o1) :
    extractAt ![0, 0] (extractStridedSlice ⟨2, ![1, 1]⟩ ![o0, o1] X h) h' = X (ix2 a b) := by
  unfold extractAt
  refine extractStridedSlice_apply _ X h _ (ix2 a b) (fun ax => ?_)
  match ax with
  | ⟨0, _⟩ => show a.val = o0 + 0; omega
  | ⟨1, _⟩ => show b.val = o1 + 0; omega

/-- One entry of a vector, taken as a cut of length one and then its only element. -/
theorem ent1_at {n0 : ℕ} (o0 : ℕ) (X : (⟨1, ![n0]⟩ : Shape).Idx → α)
    (h : (⟨1, ![n0]⟩ : Shape).Slices ![o0] ⟨1, ![1]⟩)
    (h' : ∀ a, (![0] : Fin 1 → ℕ) a < (⟨1, ![1]⟩ : Shape).size a)
    (a : Fin n0) (ha : a.val = o0) :
    extractAt ![0] (extractStridedSlice ⟨1, ![1]⟩ ![o0] X h) h' = X (ix1 a) := by
  unfold extractAt
  refine extractStridedSlice_apply _ X h _ (ix1 a) (fun ax => ?_)
  match ax with
  | ⟨0, _⟩ => show a.val = o0 + 0; omega

/-- Three columns side by side: entry `(p, c)` of the row of three is entry `(p, 0)` of column `c`. -/
theorem cat3_at {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) (c : Fin 3) :
    concatenate (⟨2, ![N, 3]⟩ : Shape) 1 [⟨⟨2, ![N, 1]⟩, u0⟩, ⟨⟨2, ![N, 1]⟩, u1⟩, ⟨⟨2, ![N, 1]⟩, u2⟩] h (ix2 p c)
      = (![u0, u1, u2] c) (ix2 p (0 : Fin 1)) := by
  have hi : ∀ b : Fin (⟨2, ![N, 1]⟩ : Shape).rank, b.cast (rfl : (⟨2, ![N, 1]⟩ : Shape).rank = (⟨2, ![N, 3]⟩ : Shape).rank) ≠ (1 : Fin 2) →
      ((ix2 p (0 : Fin 1) : (⟨2, ![N, 1]⟩ : Shape).Idx) b).val = ((ix2 p c : (⟨2, ![N, 3]⟩ : Shape).Idx) (b.cast rfl)).val := by
    intro b hb
    match b with
    | ⟨0, _⟩ => rfl
    | ⟨1, _⟩ => exact absurd rfl hb
  match c with
  | ⟨0, _⟩ => exact concatenate_apply_piece 1 [⟨⟨2, ![N, 1]⟩, u0⟩, ⟨⟨2, ![N, 1]⟩, u1⟩, ⟨⟨2, ![N, 1]⟩, u2⟩] h _ 0 (by simp) _ u0 rfl rfl 0 (by simp) (ix2 p 0) hi (by rfl)
  | ⟨1, _⟩ => exact concatenate_apply_piece 1 [⟨⟨2, ![N, 1]⟩, u0⟩, ⟨⟨2, ![N, 1]⟩, u1⟩, ⟨⟨2, ![N, 1]⟩, u2⟩] h _ 1 (by simp) _ u1 rfl rfl 1 (by simp) (ix2 p 0) hi (by rfl)
  | ⟨2, _⟩ => exact concatenate_apply_piece 1 [⟨⟨2, ![N, 1]⟩, u0⟩, ⟨⟨2, ![N, 1]⟩, u1⟩, ⟨⟨2, ![N, 1]⟩, u2⟩] h _ 2 (by simp) _ u2 rfl rfl 2 (by simp) (ix2 p 0) hi (by rfl)

/-- Two columns side by side. -/
theorem cat2_at {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) (c : Fin 2) :
    concatenate (⟨2, ![N, 2]⟩ : Shape) 1 [⟨⟨2, ![N, 1]⟩, u0⟩, ⟨⟨2, ![N, 1]⟩, u1⟩] h (ix2 p c)
      = (![u0, u1] c) (ix2 p (0 : Fin 1)) := by
  have hi : ∀ b : Fin (⟨2, ![N, 1]⟩ : Shape).rank, b.cast (rfl : (⟨2, ![N, 1]⟩ : Shape).rank = (⟨2, ![N, 2]⟩ : Shape).rank) ≠ (1 : Fin 2) →
      ((ix2 p (0 : Fin 1) : (⟨2, ![N, 1]⟩ : Shape).Idx) b).val = ((ix2 p c : (⟨2, ![N, 2]⟩ : Shape).Idx) (b.cast rfl)).val := by
    intro b hb
    match b with
    | ⟨0, _⟩ => rfl
    | ⟨1, _⟩ => exact absurd rfl hb
  match c with
  | ⟨0, _⟩ => exact concatenate_apply_piece 1 [⟨⟨2, ![N, 1]⟩, u0⟩, ⟨⟨2, ![N, 1]⟩, u1⟩] h _ 0 (by simp) _ u0 rfl rfl 0 (by simp) (ix2 p 0) hi (by rfl)
  | ⟨1, _⟩ => exact concatenate_apply_piece 1 [⟨⟨2, ![N, 1]⟩, u0⟩, ⟨⟨2, ![N, 1]⟩, u1⟩] h _ 1 (by simp) _ u1 rfl rfl 1 (by simp) (ix2 p 0) hi (by rfl)

/-- Two rows of two stacked into a 2×2 matrix per Gaussian: entry `(p, a, b)` is entry `(p, 0, b)` of row `a`. -/
theorem stack2_at {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (a b : Fin 2) :
    concatenate (⟨3, ![N, 2, 2]⟩ : Shape) 1 [⟨⟨3, ![N, 1, 2]⟩, u0⟩, ⟨⟨3, ![N, 1, 2]⟩, u1⟩] h (ix3 p a b)
      = (![u0, u1] a) (ix3 p (0 : Fin 1) b) := by
  have hi : ∀ x : Fin (⟨3, ![N, 1, 2]⟩ : Shape).rank, x.cast (rfl : (⟨3, ![N, 1, 2]⟩ : Shape).rank = (⟨3, ![N, 2, 2]⟩ : Shape).rank) ≠ (1 : Fin 3) →
      ((ix3 p (0 : Fin 1) b : (⟨3, ![N, 1, 2]⟩ : Shape).Idx) x).val = ((ix3 p a b : (⟨3, ![N, 2, 2]⟩ : Shape).Idx) (x.cast rfl)).val := by
    intro x hx
    match x with
    | ⟨0, _⟩ => rfl
    | ⟨1, _⟩ => exact absurd rfl hx
    | ⟨2, _⟩ => rfl
  match a with
  | ⟨0, _⟩ => exact concatenate_apply_piece 1 [⟨⟨3, ![N, 1, 2]⟩, u0⟩, ⟨⟨3, ![N, 1, 2]⟩, u1⟩] h _ 0 (by simp) _ u0 rfl rfl 0 (by simp) (ix3 p 0 b) hi (by rfl)
  | ⟨1, _⟩ => exact concatenate_apply_piece 1 [⟨⟨3, ![N, 1, 2]⟩, u0⟩, ⟨⟨3, ![N, 1, 2]⟩, u1⟩] h _ 1 (by simp) _ u1 rfl rfl 1 (by simp) (ix3 p 0 b) hi (by rfl)

/-! The same, at each literal position. -/

theorem cat3_at0 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (0 : Fin 3))
      = u0 (ix2 p (0 : Fin 1)) := cat3_at u0 u1 u2 h p 0
theorem cat3_at1 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (1 : Fin 3))
      = u1 (ix2 p (0 : Fin 1)) := cat3_at u0 u1 u2 h p 1
theorem cat3_at2 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (2 : Fin 3))
      = u2 (ix2 p (0 : Fin 1)) := cat3_at u0 u1 u2 h p 2

theorem cat2_at0 {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) :
    concatenate (⟨2, ![N, 2]⟩ : Shape) 1 [⟨⟨2, ![N, 1]⟩, u0⟩, ⟨⟨2, ![N, 1]⟩, u1⟩] h (ix2 p (0 : Fin 2))
      = u0 (ix2 p (0 : Fin 1)) := cat2_at u0 u1 h p 0
theorem cat2_at1 {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) :
    concatenate (⟨2, ![N, 2]⟩ : Shape) 1 [⟨⟨2, ![N, 1]⟩, u0⟩, ⟨⟨2, ![N, 1]⟩, u1⟩] h (ix2 p (1 : Fin 2))
      = u1 (ix2 p (0 : Fin 1)) := cat2_at u0 u1 h p 1

theorem stack2_at0 {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (b : Fin 2) :
    concatenate (⟨3, ![N, 2, 2]⟩ : Shape) 1 [⟨⟨3, ![N, 1, 2]⟩, u0⟩, ⟨⟨3, ![N, 1, 2]⟩, u1⟩] h (ix3 p (0 : Fin 2) b)
      = u0 (ix3 p (0 : Fin 1) b) := stack2_at u0 u1 h p 0 b
theorem stack2_at1 {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (b : Fin 2) :
    concatenate (⟨3, ![N, 2, 2]⟩ : Shape) 1 [⟨⟨3, ![N, 1, 2]⟩, u0⟩, ⟨⟨3, ![N, 1, 2]⟩, u1⟩] h (ix3 p (1 : Fin 2) b)
      = u1 (ix3 p (0 : Fin 1) b) := stack2_at u0 u1 h p 1 b

end Cert.Splat.Lay
-- ==== Proof.RefTerms.lean ====
/-
  The reference program's two kinds of stretch as functions of arrays, read entry by entry.

  The reference is a straight line of array operations: a gate (the softmax of `x @ Wg + bg` along the sixteen experts), a
  zero array, and then for each expert the same stretch: cut We[e] out of the stacked weights and view it as a matrix,
  multiply x by it, cut be[e] out, spread it over the rows and add it, take the maximum with a zero array, cut column e out
  of the softmax weights, spread it over the columns, multiply, and add the product to the running sum. Here the gate
  (`gate`) and one expert's stretch (`eTerm`, for any offset `o` of the three cuts) are written once as functions of the
  arrays they read, and read at an entry: the gate's entry (r, e) is the specification's `prob r e`, and the stretch's
  entry (r, c) is the running sum's plus `max (∑ k, x r k * We o k c + be o c) 0 * P r o`. Each step is the reading of one
  operation at an index; the only laws used are `max a (fold max a f) = fold max a f` and `0 + s = s`.
-/
import proofs.«118571_g10582799417755_week1_w2_590_23_alg».proof.Proof.Gen.ReferenceIdeal
import proofs.«118571_g10582799417755_week1_w2_590_23_alg».proof.Proof.Spec
import proofs.«118571_g10582799417755_week1_w2_590_23_alg».proof.Proof.LibHostRowMax
import proofs.«118571_g10582799417755_week1_w2_590_23_alg».proof.Proof.LibHostColumn
import proofs.«118571_g10582799417755_week1_w2_590_23_alg».proof.Proof.LibHostRow
import proofs.«118571_g10582799417755_week1_w2_590_23_alg».proof.Proof.LibHostRowSum
import proofs.«118571_g10582799417755_week1_w2_590_23_alg».proof.Proof.LibSliceLeading
import proofs.«118571_g10582799417755_week1_w2_590_23_alg».proof.Proof.LibColumns
import proofs.«118571_g10582799417755_week1_w2_590_23_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Moe.Ref

open Cert.ReferenceIdeal Cert.ReferenceIdeal.Gen Idealize.ShloMosaic Idealize.ShloMosaic.ValueIdx

/-- The tokens `x` by coordinates: row `r`, feature `k`. -/
abbrev cx (a0 : FVec Ideal S512x2048 .f32) : Fin 512 → Fin 2048 → EReal := fun r k => a0 (ix2 r k)
/-- The gate's weights by coordinates: feature `k`, expert `e`. -/
abbrev cwg (a1 : FVec Ideal S2048x16 .f32) : Fin 2048 → Fin 16 → EReal := fun k e => a1 (ix2 k e)
/-- The gate's bias by its coordinate. -/
abbrev cbg (a2 : FVec Ideal S16 .f32) : Fin 16 → EReal := fun e => a2 (ix1 e)
/-- The experts' weights by coordinates: expert `e`, feature `k`, column `c`. -/
abbrev cwe (a3 : FVec Ideal S16x2048x2048 .f32) : Fin 16 → Fin 2048 → Fin 2048 → EReal :=
  fun e k c => a3 (ix3 e k c)
/-- The experts' biases by coordinates: expert `e`, column `c`. -/
abbrev cbe (a4 : FVec Ideal S16x2048 .f32) : Fin 16 → Fin 2048 → EReal := fun e c => a4 (ix2 e c)

/-! ## The gate -/

/-- The scores: the product with the gate's weights plus the bias spread over the rows. -/
def gLogit (x0 : FVec Ideal S512x2048 .f32) (x1 : FVec Ideal S2048x16 .f32) (x2 : FVec Ideal S16 .f32) : FVec Ideal S512x16 .f32 :=
  addf (Host.dotGeneral (F := Ideal) dot_S512x2048_S2048x16_S512x16_1_0_0_1_n_n none x0 x1)
    (broadcastInDim S512x16 ![0, 1] bcast_S1x16_S512x16_0_1 (broadcastInDim S1x16 ![1] bcast_S16_S1x16_1 x2))

/-- The rows' maxima: the reduction by maximum from -∞, and one more maximum with -∞. -/
def gMax (L : FVec Ideal S512x16 .f32) : FVec Ideal S512 .f32 :=
  maximumf (broadcastInDim S512 ![] bcast_S_S512 (constant (F := Ideal) S_ .f32 0xFF800000#32))
    (Host.reduce FloatOps.maximumf L (constant (F := Ideal) S_ .f32 0xFF800000#32) reducesTo_S512x16_S512_d1 h_S_)

/-- The exponentials of the scores less their row's maximum. -/
def gExp (L : FVec Ideal S512x16 .f32) : FVec Ideal S512x16 .f32 :=
  Host.exp (F := Ideal) (subf L (broadcastInDim S512x16 ![0, 1] bcast_S512x1_S512x16_0_1
    (broadcastInDim S512x1 ![0] bcast_S512_S512x1_0 (gMax L))))

/-- The exponentials over their row's sum (begun at zero). -/
def gProb (L : FVec Ideal S512x16 .f32) : FVec Ideal S512x16 .f32 :=
  Host.divf (F := Ideal) (gExp L) (broadcastInDim S512x16 ![0, 1] bcast_S512x1_S512x16_0_1
    (broadcastInDim S512x1 ![0] bcast_S512_S512x1_0
      (Host.reduceAdd (F := Ideal) (gExp L) (constant (F := Ideal) S_ .f32 0x00000000#32) reducesTo_S512x16_S512_d1 h_S_)))

/-- The gate: the softmax weights as a function of x, Wg and bg. -/
def gate (x0 : FVec Ideal S512x2048 .f32) (x1 : FVec Ideal S2048x16 .f32) (x2 : FVec Ideal S16 .f32) : FVec Ideal S512x16 .f32 :=
  gProb (gLogit x0 x1 x2)

/-- The score at (r, e). -/
theorem gLogit_apply (x0 : FVec Ideal S512x2048 .f32) (x1 : FVec Ideal S2048x16 .f32) (x2 : FVec Ideal S16 .f32) (r : Fin 512) (e : Fin 16) :
    gLogit x0 x1 x2 (ix2 r e) = logit (cx x0) (cwg x1) (cbg x2) r e := by
  have hd : Host.dotGeneral (F := Ideal) dot_S512x2048_S2048x16_S512x16_1_0_0_1_n_n none x0 x1 (ix2 r e)
      = ∑ k : Fin 2048, x0 (ix2 r k) * x1 (ix2 k e) :=
    Cert.Sage.dotGeneral_plain_apply (M := 512) (K := 2048) (N := 16) none _ x0 x1 r e
  have hb : broadcastInDim S512x16 ![0, 1] bcast_S1x16_S512x16_0_1 (broadcastInDim S1x16 ![1] bcast_S16_S1x16_1 x2) (ix2 r e)
      = x2 (ix1 e) :=
    (Cert.LibHostRow.rows_apply _ bcast_S1x16_S512x16_0_1 r e).trans (Cert.LibHostRow.row_apply x2 bcast_S16_S1x16_1 0 e)
  show Host.dotGeneral (F := Ideal) dot_S512x2048_S2048x16_S512x16_1_0_0_1_n_n none x0 x1 (ix2 r e)
      + broadcastInDim S512x16 ![0, 1] bcast_S1x16_S512x16_0_1 (broadcastInDim S1x16 ![1] bcast_S16_S1x16_1 x2) (ix2 r e) = _
  rw [hd, hb]
  rfl

/-- The row maximum at r: the fold of the maximum from -∞ over the row's sixteen entries. -/
theorem gMax_apply (L : FVec Ideal S512x16 .f32) (r : Fin 512) :
    gMax L (ix1 r)
      = (Finset.univ : Finset (Fin 16)).fold max (Ideal.ofBits .f32 0xFF800000#32) (fun k => L (ix2 r k)) := by
  have h4 : Host.reduce FloatOps.maximumf L (constant (F := Ideal) S_ .f32 0xFF800000#32) reducesTo_S512x16_S512_d1 h_S_ (ix1 r)
      = (Finset.univ : Finset (Fin 16)).fold max (Ideal.ofBits .f32 0xFF800000#32) (fun k => L (ix2 r k)) :=
    Cert.LibHostRowMax.reduce_max_row L (constant (F := Ideal) S_ .f32 0xFF800000#32) reducesTo_S512x16_S512_d1 (by decide) h_S_ r
  have h5 : broadcastInDim S512 ![] bcast_S_S512 (constant (F := Ideal) S_ .f32 0xFF800000#32) (ix1 r)
      = Ideal.ofBits .f32 0xFF800000#32 :=
    Cert.LibHostRow.scalar_apply _ bcast_S_S512 (ix1 r)
  show max (broadcastInDim S512 ![] bcast_S_S512 (constant (F := Ideal) S_ .f32 0xFF800000#32) (ix1 r))
      (Host.reduce FloatOps.maximumf L (constant (F := Ideal) S_ .f32 0xFF800000#32) reducesTo_S512x16_S512_d1 h_S_ (ix1 r)) = _
  rw [h5, h4]
  exact Cert.LibHostColumn.max_start_fold _ _ _

/-- The exponential at (r, e). -/
theorem gExp_apply (L : FVec Ideal S512x16 .f32) (r : Fin 512) (e : Fin 16) :
    gExp L (ix2 r e)
      = Ideal.exp (L (ix2 r e) - (Finset.univ : Finset (Fin 16)).fold max (Ideal.ofBits .f32 0xFF800000#32) (fun k => L (ix2 r k))) := by
  have hm : broadcastInDim S512x16 ![0, 1] bcast_S512x1_S512x16_0_1 (broadcastInDim S512x1 ![0] bcast_S512_S512x1_0 (gMax L)) (ix2 r e)
      = gMax L (ix1 r) :=
    (Cert.LibHostColumn.spread_apply _ bcast_S512x1_S512x16_0_1 r e).trans
      (Cert.LibHostColumn.column_apply (gMax L) bcast_S512_S512x1_0 r 0)
  show Ideal.exp (L (ix2 r e)
      - broadcastInDim S512x16 ![0, 1] bcast_S512x1_S512x16_0_1 (broadcastInDim S512x1 ![0] bcast_S512_S512x1_0 (gMax L)) (ix2 r e)) = _
  rw [hm, gMax_apply]

/-- The softmax weight at (r, e). -/
theorem gProb_apply (L : FVec Ideal S512x16 .f32) (r : Fin 512) (e : Fin 16) :
    gProb L (ix2 r e) = Ideal.div (gExp L (ix2 r e)) (∑ j : Fin 16, gExp L (ix2 r j)) := by
  have hs : broadcastInDim S512x16 ![0, 1] bcast_S512x1_S512x16_0_1 (broadcastInDim S512x1 ![0] bcast_S512_S512x1_0
        (Host.reduceAdd (F := Ideal) (gExp L) (constant (F := Ideal) S_ .f32 0x00000000#32) reducesTo_S512x16_S512_d1 h_S_)) (ix2 r e)
      = Host.reduceAdd (F := Ideal) (gExp L) (constant (F := Ideal) S_ .f32 0x00000000#32) reducesTo_S512x16_S512_d1 h_S_ (ix1 r) :=
    (Cert.LibHostColumn.spread_apply _ bcast_S512x1_S512x16_0_1 r e).trans
      (Cert.LibHostColumn.column_apply _ bcast_S512_S512x1_0 r 0)
  have hr : Host.reduceAdd (F := Ideal) (gExp L) (constant (F := Ideal) S_ .f32 0x00000000#32) reducesTo_S512x16_S512_d1 h_S_ (ix1 r)
      = Ideal.ofBits .f32 0x00000000#32 + ∑ k : Fin 16, gExp L (ix2 r k) :=
    Cert.LibHostRowSum.reduceAdd_row (gExp L) (constant (F := Ideal) S_ .f32 0x00000000#32) reducesTo_S512x16_S512_d1 (by decide) h_S_ r
  show Ideal.div (gExp L (ix2 r e)) (broadcastInDim S512x16 ![0, 1] bcast_S512x1_S512x16_0_1 (broadcastInDim S512x1 ![0] bcast_S512_S512x1_0
        (Host.reduceAdd (F := Ideal) (gExp L) (constant (F := Ideal) S_ .f32 0x00000000#32) reducesTo_S512x16_S512_d1 h_S_)) (ix2 r e)) = _
  rw [hs, hr, Ideal.ofBits_zero_f32, zero_add]

/-- The gate at (r, e) is the specification's softmax weight. -/
theorem gate_apply (x0 : FVec Ideal S512x2048 .f32) (x1 : FVec Ideal S2048x16 .f32) (x2 : FVec Ideal S16 .f32) (r : Fin 512) (e : Fin 16) :
    gate x0 x1 x2 (ix2 r e) = prob (cx x0) (cwg x1) (cbg x2) r e := by
  unfold gate
  rw [gProb_apply]
  simp only [gExp_apply, gLogit_apply]
  rfl

/-! ## One expert's stretch, for any offset `o` of its three cuts -/

section
variable (o : ℕ) (h3 : S16x2048x2048.Slices ![o, 0, 0] S1x2048x2048) (h2 : S16x2048.Slices ![o, 0] S1x2048)
  (hp : S512x16.Slices ![0, o] S512x1)

/-- Matrix `o` of the stacked weights: the cut along the leading axis, its unit axis dropped. -/
def eW (x3 : FVec Ideal S16x2048x2048 .f32) : FVec Ideal S2048x2048 .f32 :=
  shapeCast _ (extractStridedSlice S1x2048x2048 ![o, 0, 0] x3 h3) shapeCasts_S1x2048x2048_S2048x2048

/-- x times matrix `o`. -/
def eDot (x0 : FVec Ideal S512x2048 .f32) (x3 : FVec Ideal S16x2048x2048 .f32) : FVec Ideal S512x2048 .f32 :=
  Host.dotGeneral (F := Ideal) dot_S512x2048_S2048x2048_S512x2048_1_0_0_1_n_n none x0 (eW o h3 x3)

/-- Row `o` of the biases spread over the rows. -/
def eBias (x4 : FVec Ideal S16x2048 .f32) : FVec Ideal S512x2048 .f32 :=
  broadcastInDim S512x2048 ![0, 1] bcast_S1x2048_S512x2048_0_1 (broadcastInDim S1x2048 ![1] bcast_S2048_S1x2048_1
    (shapeCast _ (extractStridedSlice S1x2048 ![o, 0] x4 h2) shapeCasts_S1x2048_S2048))

/-- The zero array the positive part is taken against. -/
def eZero : FVec Ideal S512x2048 .f32 :=
  broadcastInDim S512x2048 ![] bcast_S_S512x2048 (constant (F := Ideal) S_ .f32 0x00000000#32)

/-- Column `o` of the softmax weights spread over the columns. -/
def eCol (P : FVec Ideal S512x16 .f32) : FVec Ideal S512x2048 .f32 :=
  broadcastInDim S512x2048 ![0, 1] bcast_S512x1_S512x2048_0_1 (broadcastInDim S512x1 ![0] bcast_S512_S512x1_0
    (shapeCast _ (extractStridedSlice S512x1 ![0, o] P hp) shapeCasts_S512x1_S512))

/-- The stretch: the running sum plus the positive part of the affine map times the softmax weight. -/
def eTerm (x0 : FVec Ideal S512x2048 .f32) (x3 : FVec Ideal S16x2048x2048 .f32) (x4 : FVec Ideal S16x2048 .f32)
    (P : FVec Ideal S512x16 .f32) (acc : FVec Ideal S512x2048 .f32) : FVec Ideal S512x2048 .f32 :=
  addf acc (mulf (maximumf (addf (eDot o h3 x0 x3) (eBias o h2 x4)) eZero) (eCol o hp P))

variable (ho : o < 16)

theorem eW_apply (x3 : FVec Ideal S16x2048x2048 .f32) (k c : Fin 2048) :
    eW o h3 x3 (ix2 k c) = x3 (ix3 (⟨o, ho⟩ : Fin 16) k c) :=
  (shapeCast_1ab_ab_apply _ shapeCasts_S1x2048x2048_S2048x2048 k c).trans
    (Cert.LibSliceLeading.slice3_axis0_apply o x3 h3 0 k c ⟨o, ho⟩ rfl)

theorem eDot_apply (x0 : FVec Ideal S512x2048 .f32) (x3 : FVec Ideal S16x2048x2048 .f32) (r : Fin 512) (c : Fin 2048) :
    eDot o h3 x0 x3 (ix2 r c) = ∑ k : Fin 2048, x0 (ix2 r k) * x3 (ix3 (⟨o, ho⟩ : Fin 16) k c) :=
  (Cert.Sage.dotGeneral_plain_apply (M := 512) (K := 2048) (N := 2048) none _ x0 (eW o h3 x3) r c).trans
    (Finset.sum_congr rfl fun k _ => by rw [eW_apply o h3 ho])

theorem eBias_apply (x4 : FVec Ideal S16x2048 .f32) (r : Fin 512) (c : Fin 2048) :
    eBias o h2 x4 (ix2 r c) = x4 (ix2 (⟨o, ho⟩ : Fin 16) c) :=
  (Cert.LibHostRow.rows_apply _ bcast_S1x2048_S512x2048_0_1 r c).trans
    ((Cert.LibHostRow.row_apply _ bcast_S2048_S1x2048_1 0 c).trans
      ((shapeCast_1a_a_apply _ shapeCasts_S1x2048_S2048 c).trans (slice2_axis0_apply o x4 h2 0 c ⟨o, ho⟩ rfl)))

theorem eZero_apply (r : Fin 512) (c : Fin 2048) : eZero (ix2 r c) = 0 :=
  (Cert.LibHostRow.scalar_apply _ bcast_S_S512x2048 (ix2 r c)).trans Ideal.ofBits_zero_f32

theorem eCol_apply (P : FVec Ideal S512x16 .f32) (r : Fin 512) (c : Fin 2048) :
    eCol o hp P (ix2 r c) = P (ix2 r (⟨o, ho⟩ : Fin 16)) :=
  (Cert.LibHostColumn.spread_apply _ bcast_S512x1_S512x2048_0_1 r c).trans
    ((Cert.LibHostColumn.column_apply _ bcast_S512_S512x1_0 r 0).trans
      (Cert.Splat.Lay.col_at o P hp shapeCasts_S512x1_S512 r ⟨o, ho⟩ rfl))

/-- The stretch at (r, c): the running sum's entry plus the positive part of the affine map's times the softmax weight. -/
theorem eTerm_apply (x0 : FVec Ideal S512x2048 .f32) (x3 : FVec Ideal S16x2048x2048 .f32) (x4 : FVec Ideal S16x2048 .f32)
    (P : FVec Ideal S512x16 .f32) (acc : FVec Ideal S512x2048 .f32) (r : Fin 512) (c : Fin 2048) :
    eTerm o h3 h2 hp x0 x3 x4 P acc (ix2 r c)
      = acc (ix2 r c) + max ((∑ k : Fin 2048, x0 (ix2 r k) * x3 (ix3 (⟨o, ho⟩ : Fin 16) k c)) + x4 (ix2 (⟨o, ho⟩ : Fin 16) c)) 0
          * P (ix2 r (⟨o, ho⟩ : Fin 16)) := by
  show acc (ix2 r c) + max (eDot o h3 x0 x3 (ix2 r c) + eBias o h2 x4 (ix2 r c)) (eZero (ix2 r c)) * eCol o hp P (ix2 r c) = _
  rw [eDot_apply o h3 ho, eBias_apply o h2 ho, eZero_apply, eCol_apply o hp ho]

end

end Cert.Moe.Ref

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.RefStretch.lean ====
/-
  The reference program read stretch by stretch.

  The program is a straight line of 292 array operations: the gate with the zero array (20 operations), then one stretch of
  17 operations per expert. What a buffer holds after a stretch, from ANY contents `W` before it, is computed operation by
  operation: the gate leaves the softmax weights `gate x Wg bg` and the zero array; expert `e`'s stretch leaves
  `eTerm e` of the arrays it reads (x, We, be, the softmax weights, the running sum) in its last buffer, and does not
  write x, We, be or the softmax weights. Composing: if before the stretch those four hold what they held at the start
  and the running sum's entries are `S r c`, then after it they still do and the new running sum's entries are
  `S r c + contrib e r c`.
-/
import proofs.«118571_g10582799417755_week1_w2_590_23_alg».proof.Proof.RefTerms
import proofs.«118571_g10582799417755_week1_w2_590_23_alg».proof.Proof.LibAfter
import proofs.«118571_g10582799417755_week1_w2_590_23_alg».proof.Proof.LibTRef
import Idealize.ShloMosaic.Lib.StableHlo.Run

noncomputable section

namespace Cert.Moe.Ref

open Cert.ReferenceIdeal Cert.ReferenceIdeal.Gen Idealize.ShloMosaic Idealize.ShloMosaic.TcCoe Idealize.SL.Sem
  Idealize.ShloMosaic.StableHlo Idealize.ShloMosaic.ValueIdx

section Lists
variable {F : FTy → Type} [FloatOps F]

/-- The gate's operations and the zero array the running sum starts from, as the program lists them. -/
abbrev gateOps : List (HloOp τ sig (Elt F)) :=
  [ binary main_arg0 main_arg1 main_v0 ((fun l r => Host.dotGeneral dot_S512x2048_S2048x16_S512x16_1_0_0_1_n_n none l r) : (⟨S512x2048, .f32⟩ : BufTy).Contents (Elt F) → (⟨S2048x16, .f32⟩ : BufTy).Contents (Elt F) → (⟨S512x16, .f32⟩ : BufTy).Contents (Elt F)),
    unary main_arg2 main_v1 (broadcastInDim S1x16 ![1] bcast_S16_S1x16_1 : (⟨S16, .f32⟩ : BufTy).Contents (Elt F) → (⟨S1x16, .f32⟩ : BufTy).Contents (Elt F)),
    unary main_v1 main_v2 (broadcastInDim S512x16 ![0, 1] bcast_S1x16_S512x16_0_1 : (⟨S1x16, .f32⟩ : BufTy).Contents (Elt F) → (⟨S512x16, .f32⟩ : BufTy).Contents (Elt F)),
    binary main_v0 main_v2 main_v3 (addf : (⟨S512x16, .f32⟩ : BufTy).Contents (Elt F) → (⟨S512x16, .f32⟩ : BufTy).Contents (Elt F) → (⟨S512x16, .f32⟩ : BufTy).Contents (Elt F)),
    nullary main_cst (constant S_ .f32 0xFF800000#32),
    binary main_v3 main_cst main_v4 ((fun x v => Host.reduce FloatOps.maximumf x v reducesTo_S512x16_S512_d1 h_S_) : (⟨S512x16, .f32⟩ : BufTy).Contents (Elt F) → (⟨S_, .f32⟩ : BufTy).Contents (Elt F) → (⟨S512, .f32⟩ : BufTy).Contents (Elt F)),
    nullary main_cst_0 (constant S_ .f32 0xFF800000#32),
    unary main_cst_0 main_v5 (broadcastInDim S512 ![] bcast_S_S512 : (⟨S_, .f32⟩ : BufTy).Contents (Elt F) → (⟨S512, .f32⟩ : BufTy).Contents (Elt F)),
    binary main_v5 main_v4 main_v6 (maximumf : (⟨S512, .f32⟩ : BufTy).Contents (Elt F) → (⟨S512, .f32⟩ : BufTy).Contents (Elt F) → (⟨S512, .f32⟩ : BufTy).Contents (Elt F)),
    unary main_v6 main_v7 (broadcastInDim S512x1 ![0] bcast_S512_S512x1_0 : (⟨S512, .f32⟩ : BufTy).Contents (Elt F) → (⟨S512x1, .f32⟩ : BufTy).Contents (Elt F)),
    unary main_v7 main_v8 (broadcastInDim S512x16 ![0, 1] bcast_S512x1_S512x16_0_1 : (⟨S512x1, .f32⟩ : BufTy).Contents (Elt F) → (⟨S512x16, .f32⟩ : BufTy).Contents (Elt F)),
    binary main_v3 main_v8 main_v9 (subf : (⟨S512x16, .f32⟩ : BufTy).Contents (Elt F) → (⟨S512x16, .f32⟩ : BufTy).Contents (Elt F) → (⟨S512x16, .f32⟩ : BufTy).Contents (Elt F)),
    unary main_v9 main_v10 (Host.exp : (⟨S512x16, .f32⟩ : BufTy).Contents (Elt F) → (⟨S512x16, .f32⟩ : BufTy).Contents (Elt F)),
    nullary main_cst_1 (constant S_ .f32 0x00000000#32),
    binary main_v10 main_cst_1 main_v11 ((fun x v => Host.reduceAdd x v reducesTo_S512x16_S512_d1 h_S_) : (⟨S512x16, .f32⟩ : BufTy).Contents (Elt F) → (⟨S_, .f32⟩ : BufTy).Contents (Elt F) → (⟨S512, .f32⟩ : BufTy).Contents (Elt F)),
    unary main_v11 main_v12 (broadcastInDim S512x1 ![0] bcast_S512_S512x1_0 : (⟨S512, .f32⟩ : BufTy).Contents (Elt F) → (⟨S512x1, .f32⟩ : BufTy).Contents (Elt F)),
    unary main_v12 main_v13 (broadcastInDim S512x16 ![0, 1] bcast_S512x1_S512x16_0_1 : (⟨S512x1, .f32⟩ : BufTy).Contents (Elt F) → (⟨S512x16, .f32⟩ : BufTy).Contents (Elt F)),
    binary main_v10 main_v13 main_v14 (Host.divf : (⟨S512x16, .f32⟩ : BufTy).Contents (Elt F) → (⟨S512x16, .f32⟩ : BufTy).Contents (Elt F) → (⟨S512x16, .f32⟩ : BufTy).Contents (Elt F)),
    nullary main_cst_2 (constant S_ .f32 0x00000000#32),
    unary main_cst_2 main_v15 (broadcastInDim S512x2048 ![] bcast_S_S512x2048 : (⟨S_, .f32⟩ : BufTy).Contents (Elt F) → (⟨S512x2048, .f32⟩ : BufTy).Contents (Elt F)) ]

open Lean in
/-- The seventeen operations of expert `e`'s stretch, as the program lists them: its stages are 15 e + 16 … 15 e + 30, the
    inlined positive part's two buffers are those of call `e`, and the three cuts start at `e`. -/
macro "expert_ops% " e:num : term => do
  let n := e.getNat
  let b := 15 * n + 15
  let v (k : Nat) : Ident := mkIdent (Name.mkSimple s!"main_v{b + k}")
  let s3 : Ident := mkIdent (Name.mkSimple s!"slices_S16x2048x2048_S1x2048x2048_{n}_0_0")
  let s2 : Ident := mkIdent (Name.mkSimple s!"slices_S16x2048_S1x2048_{n}_0")
  let sp : Ident := mkIdent (Name.mkSimple s!"slices_S512x16_S512x1_0_{n}")
  let cc : Ident := mkIdent (Name.mkSimple s!"main_call{n}_cst")
  let cv : Ident := mkIdent (Name.mkSimple s!"main_call{n}_v0")
  let F : Ident := mkIdent `F
  `([ unary main_arg3 $(v 1) ((extractStridedSlice S1x2048x2048 ![$e, 0, 0] · $s3) : (⟨S16x2048x2048, .f32⟩ : BufTy).Contents (Elt $F) → (⟨S1x2048x2048, .f32⟩ : BufTy).Contents (Elt $F)),
      reshape $(v 1) $(v 2) rfl shapeCasts_S1x2048x2048_S2048x2048,
      binary main_arg0 $(v 2) $(v 3) ((fun l r => Host.dotGeneral dot_S512x2048_S2048x2048_S512x2048_1_0_0_1_n_n none l r) : (⟨S512x2048, .f32⟩ : BufTy).Contents (Elt $F) → (⟨S2048x2048, .f32⟩ : BufTy).Contents (Elt $F) → (⟨S512x2048, .f32⟩ : BufTy).Contents (Elt $F)),
      unary main_arg4 $(v 4) ((extractStridedSlice S1x2048 ![$e, 0] · $s2) : (⟨S16x2048, .f32⟩ : BufTy).Contents (Elt $F) → (⟨S1x2048, .f32⟩ : BufTy).Contents (Elt $F)),
      reshape $(v 4) $(v 5) rfl shapeCasts_S1x2048_S2048,
      unary $(v 5) $(v 6) (broadcastInDim S1x2048 ![1] bcast_S2048_S1x2048_1 : (⟨S2048, .f32⟩ : BufTy).Contents (Elt $F) → (⟨S1x2048, .f32⟩ : BufTy).Contents (Elt $F)),
      unary $(v 6) $(v 7) (broadcastInDim S512x2048 ![0, 1] bcast_S1x2048_S512x2048_0_1 : (⟨S1x2048, .f32⟩ : BufTy).Contents (Elt $F) → (⟨S512x2048, .f32⟩ : BufTy).Contents (Elt $F)),
      binary $(v 3) $(v 7) $(v 8) (addf : (⟨S512x2048, .f32⟩ : BufTy).Contents (Elt $F) → (⟨S512x2048, .f32⟩ : BufTy).Contents (Elt $F) → (⟨S512x2048, .f32⟩ : BufTy).Contents (Elt $F)),
      TRef.nullary (TRef.of (T := ⟨S_, .f32⟩) $cc) (constant S_ .f32 0x00000000#32),
      TRef.unary (TRef.of (T := ⟨S_, .f32⟩) $cc) (TRef.of (T := ⟨S512x2048, .f32⟩) $cv) (broadcastInDim S512x2048 ![] bcast_S_S512x2048),
      TRef.binary (TRef.of (T := ⟨S512x2048, .f32⟩) $(v 8)) (TRef.of (T := ⟨S512x2048, .f32⟩) $cv) (TRef.of (T := ⟨S512x2048, .f32⟩) $(v 9)) maximumf,
      unary main_v14 $(v 10) ((extractStridedSlice S512x1 ![0, $e] · $sp) : (⟨S512x16, .f32⟩ : BufTy).Contents (Elt $F) → (⟨S512x1, .f32⟩ : BufTy).Contents (Elt $F)),
      reshape $(v 10) $(v 11) rfl shapeCasts_S512x1_S512,
      unary $(v 11) $(v 12) (broadcastInDim S512x1 ![0] bcast_S512_S512x1_0 : (⟨S512, .f32⟩ : BufTy).Contents (Elt $F) → (⟨S512x1, .f32⟩ : BufTy).Contents (Elt $F)),
      unary $(v 12) $(v 13) (broadcastInDim S512x2048 ![0, 1] bcast_S512x1_S512x2048_0_1 : (⟨S512x1, .f32⟩ : BufTy).Contents (Elt $F) → (⟨S512x2048, .f32⟩ : BufTy).Contents (Elt $F)),
      binary $(v 9) $(v 13) $(v 14) (mulf : (⟨S512x2048, .f32⟩ : BufTy).Contents (Elt $F) → (⟨S512x2048, .f32⟩ : BufTy).Contents (Elt $F) → (⟨S512x2048, .f32⟩ : BufTy).Contents (Elt $F)),
      binary $(v 0) $(v 14) $(v 15) (addf : (⟨S512x2048, .f32⟩ : BufTy).Contents (Elt $F) → (⟨S512x2048, .f32⟩ : BufTy).Contents (Elt $F) → (⟨S512x2048, .f32⟩ : BufTy).Contents (Elt $F)) ])

end Lists

/-! ## The gate's stretch, from any contents -/

theorem gate_v14 (W : Valuation τ sig (Elt Ideal)) :
    after (gateOps (F := Ideal)) W (Proc.devRef .tc main_v14) = gate (W (Proc.devRef .tc main_arg0)) (W (Proc.devRef .tc main_arg1)) (W (Proc.devRef .tc main_arg2)) := by
  unfold gate gProb gExp gMax gLogit
  after_results <;> rfl

theorem gate_v15 (W : Valuation τ sig (Elt Ideal)) : after (gateOps (F := Ideal)) W (Proc.devRef .tc main_v15) = eZero := by
  unfold eZero
  after_results <;> rfl

theorem gate_arg0 (W : Valuation τ sig (Elt Ideal)) : after (gateOps (F := Ideal)) W (Proc.devRef .tc main_arg0) = W (Proc.devRef .tc main_arg0) := by
  after_results <;> rfl
theorem gate_arg3 (W : Valuation τ sig (Elt Ideal)) : after (gateOps (F := Ideal)) W (Proc.devRef .tc main_arg3) = W (Proc.devRef .tc main_arg3) := by
  after_results <;> rfl
theorem gate_arg4 (W : Valuation τ sig (Elt Ideal)) : after (gateOps (F := Ideal)) W (Proc.devRef .tc main_arg4) = W (Proc.devRef .tc main_arg4) := by
  after_results <;> rfl

/-- What every expert's stretch keeps, relative to the contents `V0` the program started from: x, We, be as at the start,
    and the softmax weights of the start's x, Wg, bg. -/
def Kept (V0 V : Valuation τ sig (Elt Ideal)) : Prop :=
  V (Proc.devRef .tc main_arg0) = V0 (Proc.devRef .tc main_arg0) ∧ V (Proc.devRef .tc main_arg3) = V0 (Proc.devRef .tc main_arg3)
    ∧ V (Proc.devRef .tc main_arg4) = V0 (Proc.devRef .tc main_arg4)
    ∧ V (Proc.devRef .tc main_v14) = gate (V0 (Proc.devRef .tc main_arg0)) (V0 (Proc.devRef .tc main_arg1)) (V0 (Proc.devRef .tc main_arg2))

/-- After the gate's stretch the four are as `Kept` says. -/
theorem kept_gate (V0 : Valuation τ sig (Elt Ideal)) : Kept V0 (after (gateOps (F := Ideal)) V0) :=
  ⟨gate_arg0 V0, gate_arg3 V0, gate_arg4 V0, gate_v14 V0⟩

/-- One stretch's arithmetic at (r, c): with the softmax weights the gate's, the stretch adds the specification's share
    of expert `o`. -/
theorem eTerm_contrib (o : ℕ) (h3 : S16x2048x2048.Slices ![o, 0, 0] S1x2048x2048) (h2 : S16x2048.Slices ![o, 0] S1x2048)
    (hp : S512x16.Slices ![0, o] S512x1) (ho : o < 16) (x0 : FVec Ideal S512x2048 .f32) (x1 : FVec Ideal S2048x16 .f32)
    (x2 : FVec Ideal S16 .f32) (x3 : FVec Ideal S16x2048x2048 .f32) (x4 : FVec Ideal S16x2048 .f32)
    (acc : FVec Ideal S512x2048 .f32) (r : Fin 512) (c : Fin 2048) :
    eTerm o h3 h2 hp x0 x3 x4 (gate x0 x1 x2) acc (ix2 r c)
      = acc (ix2 r c) + contrib (cx x0) (cwg x1) (cbg x2) (cwe x3) (cbe x4) (⟨o, ho⟩ : Fin 16) r c := by
  rw [eTerm_apply o h3 h2 hp ho, gate_apply]
  rfl

open Lean in
/-- `expert_stretch e`: expert `e`'s list of operations `exOps<e>`; what its last buffer holds after it, from any contents
    (`ex<e>_result`); that it writes none of x, We, be, the softmax weights (`ex<e>_arg0` …); and the step (`ex<e>_step`). -/
macro "expert_stretch " e:num : command => do
  let n := e.getNat
  let b := 15 * n + 15
  let id (s : String) : Ident := mkIdent (Name.mkSimple s)
  let ops := id s!"exOps{n}"
  let s3 := id s!"slices_S16x2048x2048_S1x2048x2048_{n}_0_0"
  let s2 := id s!"slices_S16x2048_S1x2048_{n}_0"
  let sp := id s!"slices_S512x16_S512x1_0_{n}"
  let vin := id s!"main_v{b}"
  let vout := id s!"main_v{b + 15}"
  let F := mkIdent `F
  `(section
    abbrev $ops {$F : FTy → Type} [FloatOps $F] : List (HloOp τ sig (Elt $F)) := expert_ops% $e
    set_option maxHeartbeats 8000000 in
    theorem $(id s!"ex{n}_result") (W : Valuation τ sig (Elt Ideal)) :
        after ($ops ($F := Ideal)) W (Proc.devRef .tc $vout)
          = eTerm $e $s3 $s2 $sp (W (Proc.devRef .tc main_arg0)) (W (Proc.devRef .tc main_arg3)) (W (Proc.devRef .tc main_arg4))
              (W (Proc.devRef .tc main_v14)) (W (Proc.devRef .tc $vin)) := by
      unfold eTerm eDot eW eBias eZero eCol
      after_results <;> rfl
    set_option maxHeartbeats 8000000 in
    theorem $(id s!"ex{n}_arg0") (W : Valuation τ sig (Elt Ideal)) :
        after ($ops ($F := Ideal)) W (Proc.devRef .tc main_arg0) = W (Proc.devRef .tc main_arg0) := by after_results <;> rfl
    set_option maxHeartbeats 8000000 in
    theorem $(id s!"ex{n}_arg3") (W : Valuation τ sig (Elt Ideal)) :
        after ($ops ($F := Ideal)) W (Proc.devRef .tc main_arg3) = W (Proc.devRef .tc main_arg3) := by after_results <;> rfl
    set_option maxHeartbeats 8000000 in
    theorem $(id s!"ex{n}_arg4") (W : Valuation τ sig (Elt Ideal)) :
        after ($ops ($F := Ideal)) W (Proc.devRef .tc main_arg4) = W (Proc.devRef .tc main_arg4) := by after_results <;> rfl
    set_option maxHeartbeats 8000000 in
    theorem $(id s!"ex{n}_v14") (W : Valuation τ sig (Elt Ideal)) :
        after ($ops ($F := Ideal)) W (Proc.devRef .tc main_v14) = W (Proc.devRef .tc main_v14) := by after_results <;> rfl
    set_option maxHeartbeats 8000000 in
    theorem $(id s!"ex{n}_step") (V0 V : Valuation τ sig (Elt Ideal)) (hK : Kept V0 V) (S : Fin 512 → Fin 2048 → EReal)
        (hS : ∀ r c, (V (Proc.devRef .tc $vin) : S512x2048.Idx → EReal) (ix2 r c) = S r c) :
        Kept V0 (after ($ops ($F := Ideal)) V)
          ∧ ∀ r c, (after ($ops ($F := Ideal)) V (Proc.devRef .tc $vout) : S512x2048.Idx → EReal) (ix2 r c)
              = S r c + contrib (cx (V0 (Proc.devRef .tc main_arg0))) (cwg (V0 (Proc.devRef .tc main_arg1))) (cbg (V0 (Proc.devRef .tc main_arg2)))
                  (cwe (V0 (Proc.devRef .tc main_arg3))) (cbe (V0 (Proc.devRef .tc main_arg4))) (⟨$e, by decide⟩ : Fin 16) r c := by
      obtain ⟨h0, h3, h4, hP⟩ := hK
      refine ⟨⟨($(id s!"ex{n}_arg0") V).trans h0, ($(id s!"ex{n}_arg3") V).trans h3, ($(id s!"ex{n}_arg4") V).trans h4,
        ($(id s!"ex{n}_v14") V).trans hP⟩, fun r c => ?_⟩
      rw [$(id s!"ex{n}_result"):ident, h0, h3, h4, hP]
      exact (eTerm_contrib $e $s3 $s2 $sp (by decide) _ _ _ _ _ _ r c).trans (congrArg (· + _) (hS r c))
    end)

end Cert.Moe.Ref

end
-- ==== Proof.RefExperts0.lean ====
/-
  The stretches of experts 0 to 3 of the reference program: for each, its list of operations, what its last buffer holds
  after it from any contents, that it leaves x, We, be and the softmax weights as they were, and the step of the running sum.
-/
import proofs.«118571_g10582799417755_week1_w2_590_23_alg».proof.Proof.RefStretch

noncomputable section

namespace Cert.Moe.Ref

open Cert.ReferenceIdeal Cert.ReferenceIdeal.Gen Idealize.ShloMosaic Idealize.ShloMosaic.TcCoe Idealize.SL.Sem
  Idealize.ShloMosaic.StableHlo Idealize.ShloMosaic.ValueIdx

expert_stretch 0
expert_stretch 1
expert_stretch 2
expert_stretch 3

end Cert.Moe.Ref

end
-- ==== Proof.RefExperts1.lean ====
/-
  The stretches of experts 4 to 7 of the reference program: for each, its list of operations, what its last buffer holds
  after it from any contents, that it leaves x, We, be and the softmax weights as they were, and the step of the running sum.
-/
import proofs.«118571_g10582799417755_week1_w2_590_23_alg».proof.Proof.RefStretch

noncomputable section

namespace Cert.Moe.Ref

open Cert.ReferenceIdeal Cert.ReferenceIdeal.Gen Idealize.ShloMosaic Idealize.ShloMosaic.TcCoe Idealize.SL.Sem
  Idealize.ShloMosaic.StableHlo Idealize.ShloMosaic.ValueIdx

expert_stretch 4
expert_stretch 5
expert_stretch 6
expert_stretch 7

end Cert.Moe.Ref

end
-- ==== Proof.RefExperts2.lean ====
/-
  The stretches of experts 8 to 11 of the reference program: for each, its list of operations, what its last buffer holds
  after it from any contents, that it leaves x, We, be and the softmax weights as they were, and the step of the running sum.
-/
import proofs.«118571_g10582799417755_week1_w2_590_23_alg».proof.Proof.RefStretch

noncomputable section

namespace Cert.Moe.Ref

open Cert.ReferenceIdeal Cert.ReferenceIdeal.Gen Idealize.ShloMosaic Idealize.ShloMosaic.TcCoe Idealize.SL.Sem
  Idealize.ShloMosaic.StableHlo Idealize.ShloMosaic.ValueIdx

expert_stretch 8
expert_stretch 9
expert_stretch 10
expert_stretch 11

end Cert.Moe.Ref

end
-- ==== Proof.RefExperts3.lean ====
/-
  The stretches of experts 12 to 15 of the reference program: for each, its list of operations, what its last buffer holds
  after it from any contents, that it leaves x, We, be and the softmax weights as they were, and the step of the running sum.
-/
import proofs.«118571_g10582799417755_week1_w2_590_23_alg».proof.Proof.RefStretch

noncomputable section

namespace Cert.Moe.Ref

open Cert.ReferenceIdeal Cert.ReferenceIdeal.Gen Idealize.ShloMosaic Idealize.ShloMosaic.TcCoe Idealize.SL.Sem
  Idealize.ShloMosaic.StableHlo Idealize.ShloMosaic.ValueIdx

expert_stretch 12
expert_stretch 13
expert_stretch 14
expert_stretch 15

end Cert.Moe.Ref

end
-- ==== Proof.RefChain.lean ====
/-
  The reference program's result, entry by entry.

  The 292 operations are the gate's stretch followed by the sixteen experts' stretches, and running a list of operations in
  two parts is running the second part from what the first leaves. From any contents `V0`: the gate leaves the softmax
  weights and a zero running sum and keeps x, We, be; each expert's stretch keeps those four and adds its share to the
  running sum. So after expert e the running sum's entry (r, c) is the sum of the shares of experts 0 … e — the
  specification's `upTo e r c`, built by `upTo 0 = contrib 0` and `upTo (n + 1) = upTo n + contrib (n + 1)` —, and after
  expert 15 it is `moe r c`. Only `0 + s = s` and the sum's own unfolding are used: the program adds the shares in the
  specification's order.
-/
import proofs.«118571_g10582799417755_week1_w2_590_23_alg».proof.Proof.RefExperts0
import proofs.«118571_g10582799417755_week1_w2_590_23_alg».proof.Proof.RefExperts1
import proofs.«118571_g10582799417755_week1_w2_590_23_alg».proof.Proof.RefExperts2
import proofs.«118571_g10582799417755_week1_w2_590_23_alg».proof.Proof.RefExperts3

noncomputable section

namespace Cert.Moe.Ref

open Cert.ReferenceIdeal Cert.ReferenceIdeal.Gen Idealize.ShloMosaic Idealize.ShloMosaic.TcCoe Idealize.SL.Sem
  Idealize.ShloMosaic.StableHlo Idealize.ShloMosaic.ValueIdx

/-- The program's operations, stretch after stretch. -/
abbrev allOps {F : FTy → Type} [FloatOps F] : List (HloOp τ sig (Elt F)) :=
  gateOps ++ exOps0 ++ exOps1 ++ exOps2 ++ exOps3 ++ exOps4 ++ exOps5 ++ exOps6 ++ exOps7 ++ exOps8 ++ exOps9 ++ exOps10
    ++ exOps11 ++ exOps12 ++ exOps13 ++ exOps14 ++ exOps15

section
variable (x : Fin 512 → Fin 2048 → EReal) (wg : Fin 2048 → Fin 16 → EReal) (bg : Fin 16 → EReal)
  (we : Fin 16 → Fin 2048 → Fin 2048 → EReal) (be : Fin 16 → Fin 2048 → EReal)

/-- Zero plus the first expert's share is the sum up to expert 0. -/
theorem upTo_first (h : 0 < 16) (r : Fin 512) (c : Fin 2048) :
    0 + contrib x wg bg we be ⟨0, h⟩ r c = upTo x wg bg we be 0 r c := by
  rw [zero_add, upTo_zero, contribN_of_lt x wg bg we be h]

/-- The sum up to expert n plus expert (n + 1)'s share is the sum up to expert n + 1. -/
theorem upTo_next (n k : ℕ) (hk : k = n + 1) (h : k < 16) (r : Fin 512) (c : Fin 2048) :
    upTo x wg bg we be n r c + contrib x wg bg we be ⟨k, h⟩ r c = upTo x wg bg we be k r c := by
  subst hk
  rw [upTo_succ, contribN_of_lt x wg bg we be h]

end

/-- From any contents, the last buffer after all the operations holds, at (r, c), the specification's `moe r c` of the
    coordinates of the five arrays the contents had. -/
theorem after_all (V0 : Valuation τ sig (Elt Ideal)) (r : Fin 512) (c : Fin 2048) :
    (after (allOps (F := Ideal)) V0 (Proc.devRef .tc main_v255) : S512x2048.Idx → EReal) (ix2 r c)
      = moe (cx (V0 (Proc.devRef .tc main_arg0))) (cwg (V0 (Proc.devRef .tc main_arg1))) (cbg (V0 (Proc.devRef .tc main_arg2))) (cwe (V0 (Proc.devRef .tc main_arg3))) (cbe (V0 (Proc.devRef .tc main_arg4))) r c := by
  have s0 := ex0_step V0 _ (kept_gate V0) (fun _ _ => 0) (fun r c => by rw [gate_v15]; exact eZero_apply r c)
  have s1 := ex1_step V0 _ s0.1 _ (fun r c => (s0.2 r c).trans (upTo_first _ _ _ _ _ (by decide) r c))
  have s2 := ex2_step V0 _ s1.1 _ (fun r c => (s1.2 r c).trans (upTo_next _ _ _ _ _ 0 1 rfl (by decide) r c))
  have s3 := ex3_step V0 _ s2.1 _ (fun r c => (s2.2 r c).trans (upTo_next _ _ _ _ _ 1 2 rfl (by decide) r c))
  have s4 := ex4_step V0 _ s3.1 _ (fun r c => (s3.2 r c).trans (upTo_next _ _ _ _ _ 2 3 rfl (by decide) r c))
  have s5 := ex5_step V0 _ s4.1 _ (fun r c => (s4.2 r c).trans (upTo_next _ _ _ _ _ 3 4 rfl (by decide) r c))
  have s6 := ex6_step V0 _ s5.1 _ (fun r c => (s5.2 r c).trans (upTo_next _ _ _ _ _ 4 5 rfl (by decide) r c))
  have s7 := ex7_step V0 _ s6.1 _ (fun r c => (s6.2 r c).trans (upTo_next _ _ _ _ _ 5 6 rfl (by decide) r c))
  have s8 := ex8_step V0 _ s7.1 _ (fun r c => (s7.2 r c).trans (upTo_next _ _ _ _ _ 6 7 rfl (by decide) r c))
  have s9 := ex9_step V0 _ s8.1 _ (fun r c => (s8.2 r c).trans (upTo_next _ _ _ _ _ 7 8 rfl (by decide) r c))
  have s10 := ex10_step V0 _ s9.1 _ (fun r c => (s9.2 r c).trans (upTo_next _ _ _ _ _ 8 9 rfl (by decide) r c))
  have s11 := ex11_step V0 _ s10.1 _ (fun r c => (s10.2 r c).trans (upTo_next _ _ _ _ _ 9 10 rfl (by decide) r c))
  have s12 := ex12_step V0 _ s11.1 _ (fun r c => (s11.2 r c).trans (upTo_next _ _ _ _ _ 10 11 rfl (by decide) r c))
  have s13 := ex13_step V0 _ s12.1 _ (fun r c => (s12.2 r c).trans (upTo_next _ _ _ _ _ 11 12 rfl (by decide) r c))
  have s14 := ex14_step V0 _ s13.1 _ (fun r c => (s13.2 r c).trans (upTo_next _ _ _ _ _ 12 13 rfl (by decide) r c))
  have s15 := ex15_step V0 _ s14.1 _ (fun r c => (s14.2 r c).trans (upTo_next _ _ _ _ _ 13 14 rfl (by decide) r c))
  simp only [allOps, Cert.LibAfter.after_append]
  exact (s15.2 r c).trans (upTo_next _ _ _ _ _ 14 15 rfl (by decide) r c)

/-- The same as one equation between arrays. -/
theorem after_all_eq (V0 : Valuation τ sig (Elt Ideal)) :
    after (allOps (F := Ideal)) V0 (Proc.devRef .tc main_v255)
      = fun i => moe (fun r k => (V0 (Proc.devRef .tc main_arg0) : S512x2048.Idx → EReal) (ix2 r k))
          (fun k e => (V0 (Proc.devRef .tc main_arg1) : S2048x16.Idx → EReal) (ix2 k e))
          (fun e => (V0 (Proc.devRef .tc main_arg2) : S16.Idx → EReal) (ix1 e))
          (fun e k c' => (V0 (Proc.devRef .tc main_arg3) : S16x2048x2048.Idx → EReal) (ix3 e k c'))
          (fun e c' => (V0 (Proc.devRef .tc main_arg4) : S16x2048.Idx → EReal) (ix2 e c')) (i 0) (i 1) := by
  funext i
  obtain ⟨r, c, rfl⟩ : ∃ (r : Fin 512) (c : Fin 2048), i = ix2 r c := ⟨i 0, i 1, eq_ix2 i⟩
  exact after_all V0 r c

end Cert.Moe.Ref

end
-- ==== Proof.RefRun.lean ====
/-
  The reference program as a straight line of host operations, and its run.

  The reference computes the gate (the token block times the gate weights plus the bias, the row maximum, the
  exponentials of the differences, their row sums, the quotient) and then, from a zero array, adds the sixteen
  experts' terms one after the other; the positive part is an outlined function whose three operations stand at
  each call site. Listed in order these are 292 host operations, here in the five stretches in which the program
  is printed. A straight line of host operations terminates on every weakly fair execution with each buffer at the
  fold of the operations' results over the launch contents. What the fold leaves in the result buffer and in the
  argument arrays is read in the modules that import this one.
-/
import proofs.«118571_g10582799417755_week1_w2_590_23_alg».proof.Proof.Gen.ReferenceIdeal
import Idealize.ShloMosaic.Lib.StableHlo.Run

noncomputable section

namespace Cert.Moe.Ref

open Cert.ReferenceIdeal Cert.ReferenceIdeal.Gen Idealize.ShloMosaic Idealize.ShloMosaic.TcCoe Idealize.SL.Sem Idealize.ShloMosaic.StableHlo

variable {F : FTy → Type} [FloatOps F]

/-- The operations of the program's stretch 0, in order (an outlined function's operations stand in its call's place). -/
abbrev ops0 : List (HloOp τ sig (Elt F)) :=
  [ binary main_arg0 main_arg1 main_v0 ((fun l r => Host.dotGeneral dot_S512x2048_S2048x16_S512x16_1_0_0_1_n_n none l r) : (⟨S512x2048, .f32⟩ : BufTy).Contents (Elt F) → (⟨S2048x16, .f32⟩ : BufTy).Contents (Elt F) → (⟨S512x16, .f32⟩ : BufTy).Contents (Elt F)),
    unary main_arg2 main_v1 (broadcastInDim S1x16 ![1] bcast_S16_S1x16_1 : (⟨S16, .f32⟩ : BufTy).Contents (Elt F) → (⟨S1x16, .f32⟩ : BufTy).Contents (Elt F)),
    unary main_v1 main_v2 (broadcastInDim S512x16 ![0, 1] bcast_S1x16_S512x16_0_1 : (⟨S1x16, .f32⟩ : BufTy).Contents (Elt F) → (⟨S512x16, .f32⟩ : BufTy).Contents (Elt F)),
    binary main_v0 main_v2 main_v3 (addf : (⟨S512x16, .f32⟩ : BufTy).Contents (Elt F) → (⟨S512x16, .f32⟩ : BufTy).Contents (Elt F) → (⟨S512x16, .f32⟩ : BufTy).Contents (Elt F)),
    nullary main_cst (constant S_ .f32 0xFF800000#32),
    binary main_v3 main_cst main_v4 ((fun x v => Host.reduce FloatOps.maximumf x v reducesTo_S512x16_S512_d1 h_S_) : (⟨S512x16, .f32⟩ : BufTy).Contents (Elt F) → (⟨S_, .f32⟩ : BufTy).Contents (Elt F) → (⟨S512, .f32⟩ : BufTy).Contents (Elt F)),
    nullary main_cst_0 (constant S_ .f32 0xFF800000#32),
    unary main_cst_0 main_v5 (broadcastInDim S512 ![] bcast_S_S512 : (⟨S_, .f32⟩ : BufTy).Contents (Elt F) → (⟨S512, .f32⟩ : BufTy).Contents (Elt F)),
    binary main_v5 main_v4 main_v6 (maximumf : (⟨S512, .f32⟩ : BufTy).Contents (Elt F) → (⟨S512, .f32⟩ : BufTy).Contents (Elt F) → (⟨S512, .f32⟩ : BufTy).Contents (Elt F)),
    unary main_v6 main_v7 (broadcastInDim S512x1 ![0] bcast_S512_S512x1_0 : (⟨S512, .f32⟩ : BufTy).Contents (Elt F) → (⟨S512x1, .f32⟩ : BufTy).Contents (Elt F)),
    unary main_v7 main_v8 (broadcastInDim S512x16 ![0, 1] bcast_S512x1_S512x16_0_1 : (⟨S512x1, .f32⟩ : BufTy).Contents (Elt F) → (⟨S512x16, .f32⟩ : BufTy).Contents (Elt F)),
    binary main_v3 main_v8 main_v9 (subf : (⟨S512x16, .f32⟩ : BufTy).Contents (Elt F) → (⟨S512x16, .f32⟩ : BufTy).Contents (Elt F) → (⟨S512x16, .f32⟩ : BufTy).Contents (Elt F)),
    unary main_v9 main_v10 (Host.exp : (⟨S512x16, .f32⟩ : BufTy).Contents (Elt F) → (⟨S512x16, .f32⟩ : BufTy).Contents (Elt F)),
    nullary main_cst_1 (constant S_ .f32 0x00000000#32),
    binary main_v10 main_cst_1 main_v11 ((fun x v => Host.reduceAdd x v reducesTo_S512x16_S512_d1 h_S_) : (⟨S512x16, .f32⟩ : BufTy).Contents (Elt F) → (⟨S_, .f32⟩ : BufTy).Contents (Elt F) → (⟨S512, .f32⟩ : BufTy).Contents (Elt F)),
    unary main_v11 main_v12 (broadcastInDim S512x1 ![0] bcast_S512_S512x1_0 : (⟨S512, .f32⟩ : BufTy).Contents (Elt F) → (⟨S512x1, .f32⟩ : BufTy).Contents (Elt F)),
    unary main_v12 main_v13 (broadcastInDim S512x16 ![0, 1] bcast_S512x1_S512x16_0_1 : (⟨S512x1, .f32⟩ : BufTy).Contents (Elt F) → (⟨S512x16, .f32⟩ : BufTy).Contents (Elt F)),
    binary main_v10 main_v13 main_v14 (Host.divf : (⟨S512x16, .f32⟩ : BufTy).Contents (Elt F) → (⟨S512x16, .f32⟩ : BufTy).Contents (Elt F) → (⟨S512x16, .f32⟩ : BufTy).Contents (Elt F)),
    nullary main_cst_2 (constant S_ .f32 0x00000000#32),
    unary main_cst_2 main_v15 (broadcastInDim S512x2048 ![] bcast_S_S512x2048 : (⟨S_, .f32⟩ : BufTy).Contents (Elt F) → (⟨S512x2048, .f32⟩ : BufTy).Contents (Elt F)),
    unary main_arg3 main_v16 ((extractStridedSlice S1x2048x2048 ![0, 0, 0] · slices_S16x2048x2048_S1x2048x2048_0_0_0) : (⟨S16x2048x2048, .f32⟩ : BufTy).Contents (Elt F) → (⟨S1x2048x2048, .f32⟩ : BufTy).Contents (Elt F)),
    reshape main_v16 main_v17 rfl shapeCasts_S1x2048x2048_S2048x2048,
    binary main_arg0 main_v17 main_v18 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v19 ((extractStridedSlice S1x2048 ![0, 0] · slices_S16x2048_S1x2048_0_0) : (⟨S16x2048, .f32⟩ : BufTy).Contents (Elt F) → (⟨S1x2048, .f32⟩ : BufTy).Contents (Elt F)),
    reshape main_v19 main_v20 rfl shapeCasts_S1x2048_S2048,
    unary main_v20 main_v21 (broadcastInDim S1x2048 ![1] bcast_S2048_S1x2048_1 : (⟨S2048, .f32⟩ : BufTy).Contents (Elt F) → (⟨S1x2048, .f32⟩ : BufTy).Contents (Elt F)),
    unary main_v21 main_v22 (broadcastInDim S512x2048 ![0, 1] bcast_S1x2048_S512x2048_0_1 : (⟨S1x2048, .f32⟩ : BufTy).Contents (Elt F) → (⟨S512x2048, .f32⟩ : BufTy).Contents (Elt F)),
    binary main_v18 main_v22 main_v23 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S512x2048, .f32⟩) main_call0_v0) (broadcastInDim S512x2048 ![] bcast_S_S512x2048),
    TRef.binary (TRef.of (T := ⟨S512x2048, .f32⟩) main_v23) (TRef.of (T := ⟨S512x2048, .f32⟩) main_call0_v0) (TRef.of (T := ⟨S512x2048, .f32⟩) main_v24) maximumf,
    unary main_v14 main_v25 ((extractStridedSlice S512x1 ![0, 0] · slices_S512x16_S512x1_0_0) : (⟨S512x16, .f32⟩ : BufTy).Contents (Elt F) → (⟨S512x1, .f32⟩ : BufTy).Contents (Elt F)),
    reshape main_v25 main_v26 rfl shapeCasts_S512x1_S512,
    unary main_v26 main_v27 (broadcastInDim S512x1 ![0] bcast_S512_S512x1_0 : (⟨S512, .f32⟩ : BufTy).Contents (Elt F) → (⟨S512x1, .f32⟩ : BufTy).Contents (Elt F)),
    unary main_v27 main_v28 (broadcastInDim S512x2048 ![0, 1] bcast_S512x1_S512x2048_0_1 : (⟨S512x1, .f32⟩ : BufTy).Contents (Elt F) → (⟨S512x2048, .f32⟩ : BufTy).Contents (Elt F)),
    binary main_v24 main_v28 main_v29 (mulf : (⟨S512x2048, .f32⟩ : BufTy).Contents (Elt F) → (⟨S512x2048, .f32⟩ : BufTy).Contents (Elt F) → (⟨S512x2048, .f32⟩ : BufTy).Contents (Elt F)),
    binary main_v15 main_v29 main_v30 (addf : (⟨S512x2048, .f32⟩ : BufTy).Contents (Elt F) → (⟨S512x2048, .f32⟩ : BufTy).Contents (Elt F) → (⟨S512x2048, .f32⟩ : BufTy).Contents (Elt F)),
    unary main_arg3 main_v31 ((extractStridedSlice S1x2048x2048 ![1, 0, 0] · slices_S16x2048x2048_S1x2048x2048_1_0_0) : (⟨S16x2048x2048, .f32⟩ : BufTy).Contents (Elt F) → (⟨S1x2048x2048, .f32⟩ : BufTy).Contents (Elt F)),
    reshape main_v31 main_v32 rfl shapeCasts_S1x2048x2048_S2048x2048,
    binary main_arg0 main_v32 main_v33 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v34 ((extractStridedSlice S1x2048 ![1, 0] · slices_S16x2048_S1x2048_1_0) : (⟨S16x2048, .f32⟩ : BufTy).Contents (Elt F) → (⟨S1x2048, .f32⟩ : BufTy).Contents (Elt F)),
    reshape main_v34 main_v35 rfl shapeCasts_S1x2048_S2048,
    unary main_v35 main_v36 (broadcastInDim S1x2048 ![1] bcast_S2048_S1x2048_1 : (⟨S2048, .f32⟩ : BufTy).Contents (Elt F) → (⟨S1x2048, .f32⟩ : BufTy).Contents (Elt F)),
    unary main_v36 main_v37 (broadcastInDim S512x2048 ![0, 1] bcast_S1x2048_S512x2048_0_1 : (⟨S1x2048, .f32⟩ : BufTy).Contents (Elt F) → (⟨S512x2048, .f32⟩ : BufTy).Contents (Elt F)),
    binary main_v33 main_v37 main_v38 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S512x2048, .f32⟩) main_call1_v0) (broadcastInDim S512x2048 ![] bcast_S_S512x2048),
    TRef.binary (TRef.of (T := ⟨S512x2048, .f32⟩) main_v38) (TRef.of (T := ⟨S512x2048, .f32⟩) main_call1_v0) (TRef.of (T := ⟨S512x2048, .f32⟩) main_v39) maximumf,
    unary main_v14 main_v40 ((extractStridedSlice S512x1 ![0, 1] · slices_S512x16_S512x1_0_1) : (⟨S512x16, .f32⟩ : BufTy).Contents (Elt F) → (⟨S512x1, .f32⟩ : BufTy).Contents (Elt F)),
    reshape main_v40 main_v41 rfl shapeCasts_S512x1_S512,
    unary main_v41 main_v42 (broadcastInDim S512x1 ![0] bcast_S512_S512x1_0 : (⟨S512, .f32⟩ : BufTy).Contents (Elt F) → (⟨S512x1, .f32⟩ : BufTy).Contents (Elt F)),
    unary main_v42 main_v43 (broadcastInDim S512x2048 ![0, 1] bcast_S512x1_S512x2048_0_1 : (⟨S512x1, .f32⟩ : BufTy).Contents (Elt F) → (⟨S512x2048, .f32⟩ : BufTy).Contents (Elt F)),
    binary main_v39 main_v43 main_v44 (mulf : (⟨S512x2048, .f32⟩ : BufTy).Contents (Elt F) → (⟨S512x2048, .f32⟩ : BufTy).Contents (Elt F) → (⟨S512x2048, .f32⟩ : BufTy).Contents (Elt F)),
    binary main_v30 main_v44 main_v45 (addf : (⟨S512x2048, .f32⟩ : BufTy).Contents (Elt F) → (⟨S512x2048, .f32⟩ : BufTy).Contents (Elt F) → (⟨S512x2048, .f32⟩ : BufTy).Contents (Elt F)),
    unary main_arg3 main_v46 ((extractStridedSlice S1x2048x2048 ![2, 0, 0] · slices_S16x2048x2048_S1x2048x2048_2_0_0) : (⟨S16x2048x2048, .f32⟩ : BufTy).Contents (Elt F) → (⟨S1x2048x2048, .f32⟩ : BufTy).Contents (Elt F)),
    reshape main_v46 main_v47 rfl shapeCasts_S1x2048x2048_S2048x2048,
    binary main_arg0 main_v47 main_v48 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v49 ((extractStridedSlice S1x2048 ![2, 0] · slices_S16x2048_S1x2048_2_0) : (⟨S16x2048, .f32⟩ : BufTy).Contents (Elt F) → (⟨S1x2048, .f32⟩ : BufTy).Contents (Elt F)),
    reshape main_v49 main_v50 rfl shapeCasts_S1x2048_S2048,
    unary main_v50 main_v51 (broadcastInDim S1x2048 ![1] bcast_S2048_S1x2048_1 : (⟨S2048, .f32⟩ : BufTy).Contents (Elt F) → (⟨S1x2048, .f32⟩ : BufTy).Contents (Elt F)),
    unary main_v51 main_v52 (broadcastInDim S512x2048 ![0, 1] bcast_S1x2048_S512x2048_0_1 : (⟨S1x2048, .f32⟩ : BufTy).Contents (Elt F) → (⟨S512x2048, .f32⟩ : BufTy).Contents (Elt F)),
    binary main_v48 main_v52 main_v53 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S512x2048, .f32⟩) main_call2_v0) (broadcastInDim S512x2048 ![] bcast_S_S512x2048),
    TRef.binary (TRef.of (T := ⟨S512x2048, .f32⟩) main_v53) (TRef.of (T := ⟨S512x2048, .f32⟩) main_call2_v0) (TRef.of (T := ⟨S512x2048, .f32⟩) main_v54) maximumf,
    unary main_v14 main_v55 ((extractStridedSlice S512x1 ![0, 2] · slices_S512x16_S512x1_0_2) : (⟨S512x16, .f32⟩ : BufTy).Contents (Elt F) → (⟨S512x1, .f32⟩ : BufTy).Contents (Elt F)) ]

/-- The operations of the program's stretch 1, in order (an outlined function's operations stand in its call's place). -/
abbrev ops1 : List (HloOp τ sig (Elt F)) :=
  [ reshape main_v55 main_v56 rfl shapeCasts_S512x1_S512,
    unary main_v56 main_v57 (broadcastInDim S512x1 ![0] bcast_S512_S512x1_0 : (⟨S512, .f32⟩ : BufTy).Contents (Elt F) → (⟨S512x1, .f32⟩ : BufTy).Contents (Elt F)),
    unary main_v57 main_v58 (broadcastInDim S512x2048 ![0, 1] bcast_S512x1_S512x2048_0_1 : (⟨S512x1, .f32⟩ : BufTy).Contents (Elt F) → (⟨S512x2048, .f32⟩ : BufTy).Contents (Elt F)),
    binary main_v54 main_v58 main_v59 (mulf : (⟨S512x2048, .f32⟩ : BufTy).Contents (Elt F) → (⟨S512x2048, .f32⟩ : BufTy).Contents (Elt F) → (⟨S512x2048, .f32⟩ : BufTy).Contents (Elt F)),
    binary main_v45 main_v59 main_v60 (addf : (⟨S512x2048, .f32⟩ : BufTy).Contents (Elt F) → (⟨S512x2048, .f32⟩ : BufTy).Contents (Elt F) → (⟨S512x2048, .f32⟩ : BufTy).Contents (Elt F)),
    unary main_arg3 main_v61 ((extractStridedSlice S1x2048x2048 ![3, 0, 0] · slices_S16x2048x2048_S1x2048x2048_3_0_0) : (⟨S16x2048x2048, .f32⟩ : BufTy).Contents (Elt F) → (⟨S1x2048x2048, .f32⟩ : BufTy).Contents (Elt F)),
    reshape main_v61 main_v62 rfl shapeCasts_S1x2048x2048_S2048x2048,
    binary main_arg0 main_v62 main_v63 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v64 ((extractStridedSlice S1x2048 ![3, 0] · slices_S16x2048_S1x2048_3_0) : (⟨S16x2048, .f32⟩ : BufTy).Contents (Elt F) → (⟨S1x2048, .f32⟩ : BufTy).Contents (Elt F)),
    reshape main_v64 main_v65 rfl shapeCasts_S1x2048_S2048,
    unary main_v65 main_v66 (broadcastInDim S1x2048 ![1] bcast_S2048_S1x2048_1 : (⟨S2048, .f32⟩ : BufTy).Contents (Elt F) → (⟨S1x2048, .f32⟩ : BufTy).Contents (Elt F)),
    unary main_v66 main_v67 (broadcastInDim S512x2048 ![0, 1] bcast_S1x2048_S512x2048_0_1 : (⟨S1x2048, .f32⟩ : BufTy).Contents (Elt F) → (⟨S512x2048, .f32⟩ : BufTy).Contents (Elt F)),
    binary main_v63 main_v67 main_v68 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x2048, .f32⟩) main_call3_v0) (broadcastInDim S512x2048 ![] bcast_S_S512x2048),
    TRef.binary (TRef.of (T := ⟨S512x2048, .f32⟩) main_v68) (TRef.of (T := ⟨S512x2048, .f32⟩) main_call3_v0) (TRef.of (T := ⟨S512x2048, .f32⟩) main_v69) maximumf,
    unary main_v14 main_v70 ((extractStridedSlice S512x1 ![0, 3] · slices_S512x16_S512x1_0_3) : (⟨S512x16, .f32⟩ : BufTy).Contents (Elt F) → (⟨S512x1, .f32⟩ : BufTy).Contents (Elt F)),
    reshape main_v70 main_v71 rfl shapeCasts_S512x1_S512,
    unary main_v71 main_v72 (broadcastInDim S512x1 ![0] bcast_S512_S512x1_0 : (⟨S512, .f32⟩ : BufTy).Contents (Elt F) → (⟨S512x1, .f32⟩ : BufTy).Contents (Elt F)),
    unary main_v72 main_v73 (broadcastInDim S512x2048 ![0, 1] bcast_S512x1_S512x2048_0_1 : (⟨S512x1, .f32⟩ : BufTy).Contents (Elt F) → (⟨S512x2048, .f32⟩ : BufTy).Contents (Elt F)),
    binary main_v69 main_v73 main_v74 (mulf : (⟨S512x2048, .f32⟩ : BufTy).Contents (Elt F) → (⟨S512x2048, .f32⟩ : BufTy).Contents (Elt F) → (⟨S512x2048, .f32⟩ : BufTy).Contents (Elt F)),
    binary main_v60 main_v74 main_v75 (addf : (⟨S512x2048, .f32⟩ : BufTy).Contents (Elt F) → (⟨S512x2048, .f32⟩ : BufTy).Contents (Elt F) → (⟨S512x2048, .f32⟩ : BufTy).Contents (Elt F)),
    unary main_arg3 main_v76 ((extractStridedSlice S1x2048x2048 ![4, 0, 0] · slices_S16x2048x2048_S1x2048x2048_4_0_0) : (⟨S16x2048x2048, .f32⟩ : BufTy).Contents (Elt F) → (⟨S1x2048x2048, .f32⟩ : BufTy).Contents (Elt F)),
    reshape main_v76 main_v77 rfl shapeCasts_S1x2048x2048_S2048x2048,
    binary main_arg0 main_v77 main_v78 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v79 ((extractStridedSlice S1x2048 ![4, 0] · slices_S16x2048_S1x2048_4_0) : (⟨S16x2048, .f32⟩ : BufTy).Contents (Elt F) → (⟨S1x2048, .f32⟩ : BufTy).Contents (Elt F)),
    reshape main_v79 main_v80 rfl shapeCasts_S1x2048_S2048,
    unary main_v80 main_v81 (broadcastInDim S1x2048 ![1] bcast_S2048_S1x2048_1 : (⟨S2048, .f32⟩ : BufTy).Contents (Elt F) → (⟨S1x2048, .f32⟩ : BufTy).Contents (Elt F)),
    unary main_v81 main_v82 (broadcastInDim S512x2048 ![0, 1] bcast_S1x2048_S512x2048_0_1 : (⟨S1x2048, .f32⟩ : BufTy).Contents (Elt F) → (⟨S512x2048, .f32⟩ : BufTy).Contents (Elt F)),
    binary main_v78 main_v82 main_v83 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S512x2048, .f32⟩) main_call4_v0) (broadcastInDim S512x2048 ![] bcast_S_S512x2048),
    TRef.binary (TRef.of (T := ⟨S512x2048, .f32⟩) main_v83) (TRef.of (T := ⟨S512x2048, .f32⟩) main_call4_v0) (TRef.of (T := ⟨S512x2048, .f32⟩) main_v84) maximumf,
    unary main_v14 main_v85 ((extractStridedSlice S512x1 ![0, 4] · slices_S512x16_S512x1_0_4) : (⟨S512x16, .f32⟩ : BufTy).Contents (Elt F) → (⟨S512x1, .f32⟩ : BufTy).Contents (Elt F)),
    reshape main_v85 main_v86 rfl shapeCasts_S512x1_S512,
    unary main_v86 main_v87 (broadcastInDim S512x1 ![0] bcast_S512_S512x1_0 : (⟨S512, .f32⟩ : BufTy).Contents (Elt F) → (⟨S512x1, .f32⟩ : BufTy).Contents (Elt F)),
    unary main_v87 main_v88 (broadcastInDim S512x2048 ![0, 1] bcast_S512x1_S512x2048_0_1 : (⟨S512x1, .f32⟩ : BufTy).Contents (Elt F) → (⟨S512x2048, .f32⟩ : BufTy).Contents (Elt F)),
    binary main_v84 main_v88 main_v89 (mulf : (⟨S512x2048, .f32⟩ : BufTy).Contents (Elt F) → (⟨S512x2048, .f32⟩ : BufTy).Contents (Elt F) → (⟨S512x2048, .f32⟩ : BufTy).Contents (Elt F)),
    binary main_v75 main_v89 main_v90 (addf : (⟨S512x2048, .f32⟩ : BufTy).Contents (Elt F) → (⟨S512x2048, .f32⟩ : BufTy).Contents (Elt F) → (⟨S512x2048, .f32⟩ : BufTy).Contents (Elt F)),
    unary main_arg3 main_v91 ((extractStridedSlice S1x2048x2048 ![5, 0, 0] · slices_S16x2048x2048_S1x2048x2048_5_0_0) : (⟨S16x2048x2048, .f32⟩ : BufTy).Contents (Elt F) → (⟨S1x2048x2048, .f32⟩ : BufTy).Contents (Elt F)),
    reshape main_v91 main_v92 rfl shapeCasts_S1x2048x2048_S2048x2048,
    binary main_arg0 main_v92 main_v93 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v94 ((extractStridedSlice S1x2048 ![5, 0] · slices_S16x2048_S1x2048_5_0) : (⟨S16x2048, .f32⟩ : BufTy).Contents (Elt F) → (⟨S1x2048, .f32⟩ : BufTy).Contents (Elt F)),
    reshape main_v94 main_v95 rfl shapeCasts_S1x2048_S2048,
    unary main_v95 main_v96 (broadcastInDim S1x2048 ![1] bcast_S2048_S1x2048_1 : (⟨S2048, .f32⟩ : BufTy).Contents (Elt F) → (⟨S1x2048, .f32⟩ : BufTy).Contents (Elt F)),
    unary main_v96 main_v97 (broadcastInDim S512x2048 ![0, 1] bcast_S1x2048_S512x2048_0_1 : (⟨S1x2048, .f32⟩ : BufTy).Contents (Elt F) → (⟨S512x2048, .f32⟩ : BufTy).Contents (Elt F)),
    binary main_v93 main_v97 main_v98 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S512x2048, .f32⟩) main_call5_v0) (broadcastInDim S512x2048 ![] bcast_S_S512x2048),
    TRef.binary (TRef.of (T := ⟨S512x2048, .f32⟩) main_v98) (TRef.of (T := ⟨S512x2048, .f32⟩) main_call5_v0) (TRef.of (T := ⟨S512x2048, .f32⟩) main_v99) maximumf,
    unary main_v14 main_v100 ((extractStridedSlice S512x1 ![0, 5] · slices_S512x16_S512x1_0_5) : (⟨S512x16, .f32⟩ : BufTy).Contents (Elt F) → (⟨S512x1, .f32⟩ : BufTy).Contents (Elt F)),
    reshape main_v100 main_v101 rfl shapeCasts_S512x1_S512,
    unary main_v101 main_v102 (broadcastInDim S512x1 ![0] bcast_S512_S512x1_0 : (⟨S512, .f32⟩ : BufTy).Contents (Elt F) → (⟨S512x1, .f32⟩ : BufTy).Contents (Elt F)),
    unary main_v102 main_v103 (broadcastInDim S512x2048 ![0, 1] bcast_S512x1_S512x2048_0_1 : (⟨S512x1, .f32⟩ : BufTy).Contents (Elt F) → (⟨S512x2048, .f32⟩ : BufTy).Contents (Elt F)),
    binary main_v99 main_v103 main_v104 (mulf : (⟨S512x2048, .f32⟩ : BufTy).Contents (Elt F) → (⟨S512x2048, .f32⟩ : BufTy).Contents (Elt F) → (⟨S512x2048, .f32⟩ : BufTy).Contents (Elt F)),
    binary main_v90 main_v104 main_v105 (addf : (⟨S512x2048, .f32⟩ : BufTy).Contents (Elt F) → (⟨S512x2048, .f32⟩ : BufTy).Contents (Elt F) → (⟨S512x2048, .f32⟩ : BufTy).Contents (Elt F)),
    unary main_arg3 main_v106 ((extractStridedSlice S1x2048x2048 ![6, 0, 0] · slices_S16x2048x2048_S1x2048x2048_6_0_0) : (⟨S16x2048x2048, .f32⟩ : BufTy).Contents (Elt F) → (⟨S1x2048x2048, .f32⟩ : BufTy).Contents (Elt F)),
    reshape main_v106 main_v107 rfl shapeCasts_S1x2048x2048_S2048x2048,
    binary main_arg0 main_v107 main_v108 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v109 ((extractStridedSlice S1x2048 ![6, 0] · slices_S16x2048_S1x2048_6_0) : (⟨S16x2048, .f32⟩ : BufTy).Contents (Elt F) → (⟨S1x2048, .f32⟩ : BufTy).Contents (Elt F)),
    reshape main_v109 main_v110 rfl shapeCasts_S1x2048_S2048,
    unary main_v110 main_v111 (broadcastInDim S1x2048 ![1] bcast_S2048_S1x2048_1 : (⟨S2048, .f32⟩ : BufTy).Contents (Elt F) → (⟨S1x2048, .f32⟩ : BufTy).Contents (Elt F)),
    unary main_v111 main_v112 (broadcastInDim S512x2048 ![0, 1] bcast_S1x2048_S512x2048_0_1 : (⟨S1x2048, .f32⟩ : BufTy).Contents (Elt F) → (⟨S512x2048, .f32⟩ : BufTy).Contents (Elt F)),
    binary main_v108 main_v112 main_v113 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S512x2048, .f32⟩) main_call6_v0) (broadcastInDim S512x2048 ![] bcast_S_S512x2048),
    TRef.binary (TRef.of (T := ⟨S512x2048, .f32⟩) main_v113) (TRef.of (T := ⟨S512x2048, .f32⟩) main_call6_v0) (TRef.of (T := ⟨S512x2048, .f32⟩) main_v114) maximumf,
    unary main_v14 main_v115 ((extractStridedSlice S512x1 ![0, 6] · slices_S512x16_S512x1_0_6) : (⟨S512x16, .f32⟩ : BufTy).Contents (Elt F) → (⟨S512x1, .f32⟩ : BufTy).Contents (Elt F)) ]

/-- The operations of the program's stretch 2, in order (an outlined function's operations stand in its call's place). -/
abbrev ops2 : List (HloOp τ sig (Elt F)) :=
  [ reshape main_v115 main_v116 rfl shapeCasts_S512x1_S512,
    unary main_v116 main_v117 (broadcastInDim S512x1 ![0] bcast_S512_S512x1_0 : (⟨S512, .f32⟩ : BufTy).Contents (Elt F) → (⟨S512x1, .f32⟩ : BufTy).Contents (Elt F)),
    unary main_v117 main_v118 (broadcastInDim S512x2048 ![0, 1] bcast_S512x1_S512x2048_0_1 : (⟨S512x1, .f32⟩ : BufTy).Contents (Elt F) → (⟨S512x2048, .f32⟩ : BufTy).Contents (Elt F)),
    binary main_v114 main_v118 main_v119 (mulf : (⟨S512x2048, .f32⟩ : BufTy).Contents (Elt F) → (⟨S512x2048, .f32⟩ : BufTy).Contents (Elt F) → (⟨S512x2048, .f32⟩ : BufTy).Contents (Elt F)),
    binary main_v105 main_v119 main_v120 (addf : (⟨S512x2048, .f32⟩ : BufTy).Contents (Elt F) → (⟨S512x2048, .f32⟩ : BufTy).Contents (Elt F) → (⟨S512x2048, .f32⟩ : BufTy).Contents (Elt F)),
    unary main_arg3 main_v121 ((extractStridedSlice S1x2048x2048 ![7, 0, 0] · slices_S16x2048x2048_S1x2048x2048_7_0_0) : (⟨S16x2048x2048, .f32⟩ : BufTy).Contents (Elt F) → (⟨S1x2048x2048, .f32⟩ : BufTy).Contents (Elt F)),
    reshape main_v121 main_v122 rfl shapeCasts_S1x2048x2048_S2048x2048,
    binary main_arg0 main_v122 main_v123 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v124 ((extractStridedSlice S1x2048 ![7, 0] · slices_S16x2048_S1x2048_7_0) : (⟨S16x2048, .f32⟩ : BufTy).Contents (Elt F) → (⟨S1x2048, .f32⟩ : BufTy).Contents (Elt F)),
    reshape main_v124 main_v125 rfl shapeCasts_S1x2048_S2048,
    unary main_v125 main_v126 (broadcastInDim S1x2048 ![1] bcast_S2048_S1x2048_1 : (⟨S2048, .f32⟩ : BufTy).Contents (Elt F) → (⟨S1x2048, .f32⟩ : BufTy).Contents (Elt F)),
    unary main_v126 main_v127 (broadcastInDim S512x2048 ![0, 1] bcast_S1x2048_S512x2048_0_1 : (⟨S1x2048, .f32⟩ : BufTy).Contents (Elt F) → (⟨S512x2048, .f32⟩ : BufTy).Contents (Elt F)),
    binary main_v123 main_v127 main_v128 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S512x2048, .f32⟩) main_call7_v0) (broadcastInDim S512x2048 ![] bcast_S_S512x2048),
    TRef.binary (TRef.of (T := ⟨S512x2048, .f32⟩) main_v128) (TRef.of (T := ⟨S512x2048, .f32⟩) main_call7_v0) (TRef.of (T := ⟨S512x2048, .f32⟩) main_v129) maximumf,
    unary main_v14 main_v130 ((extractStridedSlice S512x1 ![0, 7] · slices_S512x16_S512x1_0_7) : (⟨S512x16, .f32⟩ : BufTy).Contents (Elt F) → (⟨S512x1, .f32⟩ : BufTy).Contents (Elt F)),
    reshape main_v130 main_v131 rfl shapeCasts_S512x1_S512,
    unary main_v131 main_v132 (broadcastInDim S512x1 ![0] bcast_S512_S512x1_0 : (⟨S512, .f32⟩ : BufTy).Contents (Elt F) → (⟨S512x1, .f32⟩ : BufTy).Contents (Elt F)),
    unary main_v132 main_v133 (broadcastInDim S512x2048 ![0, 1] bcast_S512x1_S512x2048_0_1 : (⟨S512x1, .f32⟩ : BufTy).Contents (Elt F) → (⟨S512x2048, .f32⟩ : BufTy).Contents (Elt F)),
    binary main_v129 main_v133 main_v134 (mulf : (⟨S512x2048, .f32⟩ : BufTy).Contents (Elt F) → (⟨S512x2048, .f32⟩ : BufTy).Contents (Elt F) → (⟨S512x2048, .f32⟩ : BufTy).Contents (Elt F)),
    binary main_v120 main_v134 main_v135 (addf : (⟨S512x2048, .f32⟩ : BufTy).Contents (Elt F) → (⟨S512x2048, .f32⟩ : BufTy).Contents (Elt F) → (⟨S512x2048, .f32⟩ : BufTy).Contents (Elt F)),
    unary main_arg3 main_v136 ((extractStridedSlice S1x2048x2048 ![8, 0, 0] · slices_S16x2048x2048_S1x2048x2048_8_0_0) : (⟨S16x2048x2048, .f32⟩ : BufTy).Contents (Elt F) → (⟨S1x2048x2048, .f32⟩ : BufTy).Contents (Elt F)),
    reshape main_v136 main_v137 rfl shapeCasts_S1x2048x2048_S2048x2048,
    binary main_arg0 main_v137 main_v138 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v139 ((extractStridedSlice S1x2048 ![8, 0] · slices_S16x2048_S1x2048_8_0) : (⟨S16x2048, .f32⟩ : BufTy).Contents (Elt F) → (⟨S1x2048, .f32⟩ : BufTy).Contents (Elt F)),
    reshape main_v139 main_v140 rfl shapeCasts_S1x2048_S2048,
    unary main_v140 main_v141 (broadcastInDim S1x2048 ![1] bcast_S2048_S1x2048_1 : (⟨S2048, .f32⟩ : BufTy).Contents (Elt F) → (⟨S1x2048, .f32⟩ : BufTy).Contents (Elt F)),
    unary main_v141 main_v142 (broadcastInDim S512x2048 ![0, 1] bcast_S1x2048_S512x2048_0_1 : (⟨S1x2048, .f32⟩ : BufTy).Contents (Elt F) → (⟨S512x2048, .f32⟩ : BufTy).Contents (Elt F)),
    binary main_v138 main_v142 main_v143 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S512x2048, .f32⟩) main_call8_v0) (broadcastInDim S512x2048 ![] bcast_S_S512x2048),
    TRef.binary (TRef.of (T := ⟨S512x2048, .f32⟩) main_v143) (TRef.of (T := ⟨S512x2048, .f32⟩) main_call8_v0) (TRef.of (T := ⟨S512x2048, .f32⟩) main_v144) maximumf,
    unary main_v14 main_v145 ((extractStridedSlice S512x1 ![0, 8] · slices_S512x16_S512x1_0_8) : (⟨S512x16, .f32⟩ : BufTy).Contents (Elt F) → (⟨S512x1, .f32⟩ : BufTy).Contents (Elt F)),
    reshape main_v145 main_v146 rfl shapeCasts_S512x1_S512,
    unary main_v146 main_v147 (broadcastInDim S512x1 ![0] bcast_S512_S512x1_0 : (⟨S512, .f32⟩ : BufTy).Contents (Elt F) → (⟨S512x1, .f32⟩ : BufTy).Contents (Elt F)),
    unary main_v147 main_v148 (broadcastInDim S512x2048 ![0, 1] bcast_S512x1_S512x2048_0_1 : (⟨S512x1, .f32⟩ : BufTy).Contents (Elt F) → (⟨S512x2048, .f32⟩ : BufTy).Contents (Elt F)),
    binary main_v144 main_v148 main_v149 (mulf : (⟨S512x2048, .f32⟩ : BufTy).Contents (Elt F) → (⟨S512x2048, .f32⟩ : BufTy).Contents (Elt F) → (⟨S512x2048, .f32⟩ : BufTy).Contents (Elt F)),
    binary main_v135 main_v149 main_v150 (addf : (⟨S512x2048, .f32⟩ : BufTy).Contents (Elt F) → (⟨S512x2048, .f32⟩ : BufTy).Contents (Elt F) → (⟨S512x2048, .f32⟩ : BufTy).Contents (Elt F)),
    unary main_arg3 main_v151 ((extractStridedSlice S1x2048x2048 ![9, 0, 0] · slices_S16x2048x2048_S1x2048x2048_9_0_0) : (⟨S16x2048x2048, .f32⟩ : BufTy).Contents (Elt F) → (⟨S1x2048x2048, .f32⟩ : BufTy).Contents (Elt F)),
    reshape main_v151 main_v152 rfl shapeCasts_S1x2048x2048_S2048x2048,
    binary main_arg0 main_v152 main_v153 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v154 ((extractStridedSlice S1x2048 ![9, 0] · slices_S16x2048_S1x2048_9_0) : (⟨S16x2048, .f32⟩ : BufTy).Contents (Elt F) → (⟨S1x2048, .f32⟩ : BufTy).Contents (Elt F)),
    reshape main_v154 main_v155 rfl shapeCasts_S1x2048_S2048,
    unary main_v155 main_v156 (broadcastInDim S1x2048 ![1] bcast_S2048_S1x2048_1 : (⟨S2048, .f32⟩ : BufTy).Contents (Elt F) → (⟨S1x2048, .f32⟩ : BufTy).Contents (Elt F)),
    unary main_v156 main_v157 (broadcastInDim S512x2048 ![0, 1] bcast_S1x2048_S512x2048_0_1 : (⟨S1x2048, .f32⟩ : BufTy).Contents (Elt F) → (⟨S512x2048, .f32⟩ : BufTy).Contents (Elt F)),
    binary main_v153 main_v157 main_v158 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S512x2048, .f32⟩) main_call9_v0) (broadcastInDim S512x2048 ![] bcast_S_S512x2048),
    TRef.binary (TRef.of (T := ⟨S512x2048, .f32⟩) main_v158) (TRef.of (T := ⟨S512x2048, .f32⟩) main_call9_v0) (TRef.of (T := ⟨S512x2048, .f32⟩) main_v159) maximumf,
    unary main_v14 main_v160 ((extractStridedSlice S512x1 ![0, 9] · slices_S512x16_S512x1_0_9) : (⟨S512x16, .f32⟩ : BufTy).Contents (Elt F) → (⟨S512x1, .f32⟩ : BufTy).Contents (Elt F)),
    reshape main_v160 main_v161 rfl shapeCasts_S512x1_S512,
    unary main_v161 main_v162 (broadcastInDim S512x1 ![0] bcast_S512_S512x1_0 : (⟨S512, .f32⟩ : BufTy).Contents (Elt F) → (⟨S512x1, .f32⟩ : BufTy).Contents (Elt F)),
    unary main_v162 main_v163 (broadcastInDim S512x2048 ![0, 1] bcast_S512x1_S512x2048_0_1 : (⟨S512x1, .f32⟩ : BufTy).Contents (Elt F) → (⟨S512x2048, .f32⟩ : BufTy).Contents (Elt F)),
    binary main_v159 main_v163 main_v164 (mulf : (⟨S512x2048, .f32⟩ : BufTy).Contents (Elt F) → (⟨S512x2048, .f32⟩ : BufTy).Contents (Elt F) → (⟨S512x2048, .f32⟩ : BufTy).Contents (Elt F)),
    binary main_v150 main_v164 main_v165 (addf : (⟨S512x2048, .f32⟩ : BufTy).Contents (Elt F) → (⟨S512x2048, .f32⟩ : BufTy).Contents (Elt F) → (⟨S512x2048, .f32⟩ : BufTy).Contents (Elt F)),
    unary main_arg3 main_v166 ((extractStridedSlice S1x2048x2048 ![10, 0, 0] · slices_S16x2048x2048_S1x2048x2048_10_0_0) : (⟨S16x2048x2048, .f32⟩ : BufTy).Contents (Elt F) → (⟨S1x2048x2048, .f32⟩ : BufTy).Contents (Elt F)),
    reshape main_v166 main_v167 rfl shapeCasts_S1x2048x2048_S2048x2048,
    binary main_arg0 main_v167 main_v168 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v169 ((extractStridedSlice S1x2048 ![10, 0] · slices_S16x2048_S1x2048_10_0) : (⟨S16x2048, .f32⟩ : BufTy).Contents (Elt F) → (⟨S1x2048, .f32⟩ : BufTy).Contents (Elt F)),
    reshape main_v169 main_v170 rfl shapeCasts_S1x2048_S2048,
    unary main_v170 main_v171 (broadcastInDim S1x2048 ![1] bcast_S2048_S1x2048_1 : (⟨S2048, .f32⟩ : BufTy).Contents (Elt F) → (⟨S1x2048, .f32⟩ : BufTy).Contents (Elt F)),
    unary main_v171 main_v172 (broadcastInDim S512x2048 ![0, 1] bcast_S1x2048_S512x2048_0_1 : (⟨S1x2048, .f32⟩ : BufTy).Contents (Elt F) → (⟨S512x2048, .f32⟩ : BufTy).Contents (Elt F)),
    binary main_v168 main_v172 main_v173 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S512x2048, .f32⟩) main_call10_v0) (broadcastInDim S512x2048 ![] bcast_S_S512x2048),
    TRef.binary (TRef.of (T := ⟨S512x2048, .f32⟩) main_v173) (TRef.of (T := ⟨S512x2048, .f32⟩) main_call10_v0) (TRef.of (T := ⟨S512x2048, .f32⟩) main_v174) maximumf,
    unary main_v14 main_v175 ((extractStridedSlice S512x1 ![0, 10] · slices_S512x16_S512x1_0_10) : (⟨S512x16, .f32⟩ : BufTy).Contents (Elt F) → (⟨S512x1, .f32⟩ : BufTy).Contents (Elt F)) ]

/-- The operations of the program's stretch 3, in order (an outlined function's operations stand in its call's place). -/
abbrev ops3 : List (HloOp τ sig (Elt F)) :=
  [ reshape main_v175 main_v176 rfl shapeCasts_S512x1_S512,
    unary main_v176 main_v177 (broadcastInDim S512x1 ![0] bcast_S512_S512x1_0 : (⟨S512, .f32⟩ : BufTy).Contents (Elt F) → (⟨S512x1, .f32⟩ : BufTy).Contents (Elt F)),
    unary main_v177 main_v178 (broadcastInDim S512x2048 ![0, 1] bcast_S512x1_S512x2048_0_1 : (⟨S512x1, .f32⟩ : BufTy).Contents (Elt F) → (⟨S512x2048, .f32⟩ : BufTy).Contents (Elt F)),
    binary main_v174 main_v178 main_v179 (mulf : (⟨S512x2048, .f32⟩ : BufTy).Contents (Elt F) → (⟨S512x2048, .f32⟩ : BufTy).Contents (Elt F) → (⟨S512x2048, .f32⟩ : BufTy).Contents (Elt F)),
    binary main_v165 main_v179 main_v180 (addf : (⟨S512x2048, .f32⟩ : BufTy).Contents (Elt F) → (⟨S512x2048, .f32⟩ : BufTy).Contents (Elt F) → (⟨S512x2048, .f32⟩ : BufTy).Contents (Elt F)),
    unary main_arg3 main_v181 ((extractStridedSlice S1x2048x2048 ![11, 0, 0] · slices_S16x2048x2048_S1x2048x2048_11_0_0) : (⟨S16x2048x2048, .f32⟩ : BufTy).Contents (Elt F) → (⟨S1x2048x2048, .f32⟩ : BufTy).Contents (Elt F)),
    reshape main_v181 main_v182 rfl shapeCasts_S1x2048x2048_S2048x2048,
    binary main_arg0 main_v182 main_v183 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v184 ((extractStridedSlice S1x2048 ![11, 0] · slices_S16x2048_S1x2048_11_0) : (⟨S16x2048, .f32⟩ : BufTy).Contents (Elt F) → (⟨S1x2048, .f32⟩ : BufTy).Contents (Elt F)),
    reshape main_v184 main_v185 rfl shapeCasts_S1x2048_S2048,
    unary main_v185 main_v186 (broadcastInDim S1x2048 ![1] bcast_S2048_S1x2048_1 : (⟨S2048, .f32⟩ : BufTy).Contents (Elt F) → (⟨S1x2048, .f32⟩ : BufTy).Contents (Elt F)),
    unary main_v186 main_v187 (broadcastInDim S512x2048 ![0, 1] bcast_S1x2048_S512x2048_0_1 : (⟨S1x2048, .f32⟩ : BufTy).Contents (Elt F) → (⟨S512x2048, .f32⟩ : BufTy).Contents (Elt F)),
    binary main_v183 main_v187 main_v188 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S512x2048, .f32⟩) main_call11_v0) (broadcastInDim S512x2048 ![] bcast_S_S512x2048),
    TRef.binary (TRef.of (T := ⟨S512x2048, .f32⟩) main_v188) (TRef.of (T := ⟨S512x2048, .f32⟩) main_call11_v0) (TRef.of (T := ⟨S512x2048, .f32⟩) main_v189) maximumf,
    unary main_v14 main_v190 ((extractStridedSlice S512x1 ![0, 11] · slices_S512x16_S512x1_0_11) : (⟨S512x16, .f32⟩ : BufTy).Contents (Elt F) → (⟨S512x1, .f32⟩ : BufTy).Contents (Elt F)),
    reshape main_v190 main_v191 rfl shapeCasts_S512x1_S512,
    unary main_v191 main_v192 (broadcastInDim S512x1 ![0] bcast_S512_S512x1_0 : (⟨S512, .f32⟩ : BufTy).Contents (Elt F) → (⟨S512x1, .f32⟩ : BufTy).Contents (Elt F)),
    unary main_v192 main_v193 (broadcastInDim S512x2048 ![0, 1] bcast_S512x1_S512x2048_0_1 : (⟨S512x1, .f32⟩ : BufTy).Contents (Elt F) → (⟨S512x2048, .f32⟩ : BufTy).Contents (Elt F)),
    binary main_v189 main_v193 main_v194 (mulf : (⟨S512x2048, .f32⟩ : BufTy).Contents (Elt F) → (⟨S512x2048, .f32⟩ : BufTy).Contents (Elt F) → (⟨S512x2048, .f32⟩ : BufTy).Contents (Elt F)),
    binary main_v180 main_v194 main_v195 (addf : (⟨S512x2048, .f32⟩ : BufTy).Contents (Elt F) → (⟨S512x2048, .f32⟩ : BufTy).Contents (Elt F) → (⟨S512x2048, .f32⟩ : BufTy).Contents (Elt F)),
    unary main_arg3 main_v196 ((extractStridedSlice S1x2048x2048 ![12, 0, 0] · slices_S16x2048x2048_S1x2048x2048_12_0_0) : (⟨S16x2048x2048, .f32⟩ : BufTy).Contents (Elt F) → (⟨S1x2048x2048, .f32⟩ : BufTy).Contents (Elt F)),
    reshape main_v196 main_v197 rfl shapeCasts_S1x2048x2048_S2048x2048,
    binary main_arg0 main_v197 main_v198 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v199 ((extractStridedSlice S1x2048 ![12, 0] · slices_S16x2048_S1x2048_12_0) : (⟨S16x2048, .f32⟩ : BufTy).Contents (Elt F) → (⟨S1x2048, .f32⟩ : BufTy).Contents (Elt F)),
    reshape main_v199 main_v200 rfl shapeCasts_S1x2048_S2048,
    unary main_v200 main_v201 (broadcastInDim S1x2048 ![1] bcast_S2048_S1x2048_1 : (⟨S2048, .f32⟩ : BufTy).Contents (Elt F) → (⟨S1x2048, .f32⟩ : BufTy).Contents (Elt F)),
    unary main_v201 main_v202 (broadcastInDim S512x2048 ![0, 1] bcast_S1x2048_S512x2048_0_1 : (⟨S1x2048, .f32⟩ : BufTy).Contents (Elt F) → (⟨S512x2048, .f32⟩ : BufTy).Contents (Elt F)),
    binary main_v198 main_v202 main_v203 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S512x2048, .f32⟩) main_call12_v0) (broadcastInDim S512x2048 ![] bcast_S_S512x2048),
    TRef.binary (TRef.of (T := ⟨S512x2048, .f32⟩) main_v203) (TRef.of (T := ⟨S512x2048, .f32⟩) main_call12_v0) (TRef.of (T := ⟨S512x2048, .f32⟩) main_v204) maximumf,
    unary main_v14 main_v205 ((extractStridedSlice S512x1 ![0, 12] · slices_S512x16_S512x1_0_12) : (⟨S512x16, .f32⟩ : BufTy).Contents (Elt F) → (⟨S512x1, .f32⟩ : BufTy).Contents (Elt F)),
    reshape main_v205 main_v206 rfl shapeCasts_S512x1_S512,
    unary main_v206 main_v207 (broadcastInDim S512x1 ![0] bcast_S512_S512x1_0 : (⟨S512, .f32⟩ : BufTy).Contents (Elt F) → (⟨S512x1, .f32⟩ : BufTy).Contents (Elt F)),
    unary main_v207 main_v208 (broadcastInDim S512x2048 ![0, 1] bcast_S512x1_S512x2048_0_1 : (⟨S512x1, .f32⟩ : BufTy).Contents (Elt F) → (⟨S512x2048, .f32⟩ : BufTy).Contents (Elt F)),
    binary main_v204 main_v208 main_v209 (mulf : (⟨S512x2048, .f32⟩ : BufTy).Contents (Elt F) → (⟨S512x2048, .f32⟩ : BufTy).Contents (Elt F) → (⟨S512x2048, .f32⟩ : BufTy).Contents (Elt F)),
    binary main_v195 main_v209 main_v210 (addf : (⟨S512x2048, .f32⟩ : BufTy).Contents (Elt F) → (⟨S512x2048, .f32⟩ : BufTy).Contents (Elt F) → (⟨S512x2048, .f32⟩ : BufTy).Contents (Elt F)),
    unary main_arg3 main_v211 ((extractStridedSlice S1x2048x2048 ![13, 0, 0] · slices_S16x2048x2048_S1x2048x2048_13_0_0) : (⟨S16x2048x2048, .f32⟩ : BufTy).Contents (Elt F) → (⟨S1x2048x2048, .f32⟩ : BufTy).Contents (Elt F)),
    reshape main_v211 main_v212 rfl shapeCasts_S1x2048x2048_S2048x2048,
    binary main_arg0 main_v212 main_v213 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v214 ((extractStridedSlice S1x2048 ![13, 0] · slices_S16x2048_S1x2048_13_0) : (⟨S16x2048, .f32⟩ : BufTy).Contents (Elt F) → (⟨S1x2048, .f32⟩ : BufTy).Contents (Elt F)),
    reshape main_v214 main_v215 rfl shapeCasts_S1x2048_S2048,
    unary main_v215 main_v216 (broadcastInDim S1x2048 ![1] bcast_S2048_S1x2048_1 : (⟨S2048, .f32⟩ : BufTy).Contents (Elt F) → (⟨S1x2048, .f32⟩ : BufTy).Contents (Elt F)),
    unary main_v216 main_v217 (broadcastInDim S512x2048 ![0, 1] bcast_S1x2048_S512x2048_0_1 : (⟨S1x2048, .f32⟩ : BufTy).Contents (Elt F) → (⟨S512x2048, .f32⟩ : BufTy).Contents (Elt F)),
    binary main_v213 main_v217 main_v218 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S512x2048, .f32⟩) main_call13_v0) (broadcastInDim S512x2048 ![] bcast_S_S512x2048),
    TRef.binary (TRef.of (T := ⟨S512x2048, .f32⟩) main_v218) (TRef.of (T := ⟨S512x2048, .f32⟩) main_call13_v0) (TRef.of (T := ⟨S512x2048, .f32⟩) main_v219) maximumf,
    unary main_v14 main_v220 ((extractStridedSlice S512x1 ![0, 13] · slices_S512x16_S512x1_0_13) : (⟨S512x16, .f32⟩ : BufTy).Contents (Elt F) → (⟨S512x1, .f32⟩ : BufTy).Contents (Elt F)),
    reshape main_v220 main_v221 rfl shapeCasts_S512x1_S512,
    unary main_v221 main_v222 (broadcastInDim S512x1 ![0] bcast_S512_S512x1_0 : (⟨S512, .f32⟩ : BufTy).Contents (Elt F) → (⟨S512x1, .f32⟩ : BufTy).Contents (Elt F)),
    unary main_v222 main_v223 (broadcastInDim S512x2048 ![0, 1] bcast_S512x1_S512x2048_0_1 : (⟨S512x1, .f32⟩ : BufTy).Contents (Elt F) → (⟨S512x2048, .f32⟩ : BufTy).Contents (Elt F)),
    binary main_v219 main_v223 main_v224 (mulf : (⟨S512x2048, .f32⟩ : BufTy).Contents (Elt F) → (⟨S512x2048, .f32⟩ : BufTy).Contents (Elt F) → (⟨S512x2048, .f32⟩ : BufTy).Contents (Elt F)),
    binary main_v210 main_v224 main_v225 (addf : (⟨S512x2048, .f32⟩ : BufTy).Contents (Elt F) → (⟨S512x2048, .f32⟩ : BufTy).Contents (Elt F) → (⟨S512x2048, .f32⟩ : BufTy).Contents (Elt F)),
    unary main_arg3 main_v226 ((extractStridedSlice S1x2048x2048 ![14, 0, 0] · slices_S16x2048x2048_S1x2048x2048_14_0_0) : (⟨S16x2048x2048, .f32⟩ : BufTy).Contents (Elt F) → (⟨S1x2048x2048, .f32⟩ : BufTy).Contents (Elt F)),
    reshape main_v226 main_v227 rfl shapeCasts_S1x2048x2048_S2048x2048,
    binary main_arg0 main_v227 main_v228 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v229 ((extractStridedSlice S1x2048 ![14, 0] · slices_S16x2048_S1x2048_14_0) : (⟨S16x2048, .f32⟩ : BufTy).Contents (Elt F) → (⟨S1x2048, .f32⟩ : BufTy).Contents (Elt F)),
    reshape main_v229 main_v230 rfl shapeCasts_S1x2048_S2048,
    unary main_v230 main_v231 (broadcastInDim S1x2048 ![1] bcast_S2048_S1x2048_1 : (⟨S2048, .f32⟩ : BufTy).Contents (Elt F) → (⟨S1x2048, .f32⟩ : BufTy).Contents (Elt F)),
    unary main_v231 main_v232 (broadcastInDim S512x2048 ![0, 1] bcast_S1x2048_S512x2048_0_1 : (⟨S1x2048, .f32⟩ : BufTy).Contents (Elt F) → (⟨S512x2048, .f32⟩ : BufTy).Contents (Elt F)),
    binary main_v228 main_v232 main_v233 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S512x2048, .f32⟩) main_call14_v0) (broadcastInDim S512x2048 ![] bcast_S_S512x2048),
    TRef.binary (TRef.of (T := ⟨S512x2048, .f32⟩) main_v233) (TRef.of (T := ⟨S512x2048, .f32⟩) main_call14_v0) (TRef.of (T := ⟨S512x2048, .f32⟩) main_v234) maximumf,
    unary main_v14 main_v235 ((extractStridedSlice S512x1 ![0, 14] · slices_S512x16_S512x1_0_14) : (⟨S512x16, .f32⟩ : BufTy).Contents (Elt F) → (⟨S512x1, .f32⟩ : BufTy).Contents (Elt F)) ]

/-- The operations of the program's stretch 4, in order (an outlined function's operations stand in its call's place). -/
abbrev ops4 : List (HloOp τ sig (Elt F)) :=
  [ reshape main_v235 main_v236 rfl shapeCasts_S512x1_S512,
    unary main_v236 main_v237 (broadcastInDim S512x1 ![0] bcast_S512_S512x1_0 : (⟨S512, .f32⟩ : BufTy).Contents (Elt F) → (⟨S512x1, .f32⟩ : BufTy).Contents (Elt F)),
    unary main_v237 main_v238 (broadcastInDim S512x2048 ![0, 1] bcast_S512x1_S512x2048_0_1 : (⟨S512x1, .f32⟩ : BufTy).Contents (Elt F) → (⟨S512x2048, .f32⟩ : BufTy).Contents (Elt F)),
    binary main_v234 main_v238 main_v239 (mulf : (⟨S512x2048, .f32⟩ : BufTy).Contents (Elt F) → (⟨S512x2048, .f32⟩ : BufTy).Contents (Elt F) → (⟨S512x2048, .f32⟩ : BufTy).Contents (Elt F)),
    binary main_v225 main_v239 main_v240 (addf : (⟨S512x2048, .f32⟩ : BufTy).Contents (Elt F) → (⟨S512x2048, .f32⟩ : BufTy).Contents (Elt F) → (⟨S512x2048, .f32⟩ : BufTy).Contents (Elt F)),
    unary main_arg3 main_v241 ((extractStridedSlice S1x2048x2048 ![15, 0, 0] · slices_S16x2048x2048_S1x2048x2048_15_0_0) : (⟨S16x2048x2048, .f32⟩ : BufTy).Contents (Elt F) → (⟨S1x2048x2048, .f32⟩ : BufTy).Contents (Elt F)),
    reshape main_v241 main_v242 rfl shapeCasts_S1x2048x2048_S2048x2048,
    binary main_arg0 main_v242 main_v243 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    unary main_arg4 main_v244 ((extractStridedSlice S1x2048 ![15, 0] · slices_S16x2048_S1x2048_15_0) : (⟨S16x2048, .f32⟩ : BufTy).Contents (Elt F) → (⟨S1x2048, .f32⟩ : BufTy).Contents (Elt F)),
    reshape main_v244 main_v245 rfl shapeCasts_S1x2048_S2048,
    unary main_v245 main_v246 (broadcastInDim S1x2048 ![1] bcast_S2048_S1x2048_1 : (⟨S2048, .f32⟩ : BufTy).Contents (Elt F) → (⟨S1x2048, .f32⟩ : BufTy).Contents (Elt F)),
    unary main_v246 main_v247 (broadcastInDim S512x2048 ![0, 1] bcast_S1x2048_S512x2048_0_1 : (⟨S1x2048, .f32⟩ : BufTy).Contents (Elt F) → (⟨S512x2048, .f32⟩ : BufTy).Contents (Elt F)),
    binary main_v243 main_v247 main_v248 (addf : (⟨S512x2048, .f32⟩ : BufTy).Contents (Elt F) → (⟨S512x2048, .f32⟩ : BufTy).Contents (Elt F) → (⟨S512x2048, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S512x2048, .f32⟩) main_call15_v0) (broadcastInDim S512x2048 ![] bcast_S_S512x2048),
    TRef.binary (TRef.of (T := ⟨S512x2048, .f32⟩) main_v248) (TRef.of (T := ⟨S512x2048, .f32⟩) main_call15_v0) (TRef.of (T := ⟨S512x2048, .f32⟩) main_v249) maximumf,
    unary main_v14 main_v250 ((extractStridedSlice S512x1 ![0, 15] · slices_S512x16_S512x1_0_15) : (⟨S512x16, .f32⟩ : BufTy).Contents (Elt F) → (⟨S512x1, .f32⟩ : BufTy).Contents (Elt F)),
    reshape main_v250 main_v251 rfl shapeCasts_S512x1_S512,
    unary main_v251 main_v252 (broadcastInDim S512x1 ![0] bcast_S512_S512x1_0 : (⟨S512, .f32⟩ : BufTy).Contents (Elt F) → (⟨S512x1, .f32⟩ : BufTy).Contents (Elt F)),
    unary main_v252 main_v253 (broadcastInDim S512x2048 ![0, 1] bcast_S512x1_S512x2048_0_1 : (⟨S512x1, .f32⟩ : BufTy).Contents (Elt F) → (⟨S512x2048, .f32⟩ : BufTy).Contents (Elt F)),
    binary main_v249 main_v253 main_v254 (mulf : (⟨S512x2048, .f32⟩ : BufTy).Contents (Elt F) → (⟨S512x2048, .f32⟩ : BufTy).Contents (Elt F) → (⟨S512x2048, .f32⟩ : BufTy).Contents (Elt F)),
    binary main_v240 main_v254 main_v255 (addf : (⟨S512x2048, .f32⟩ : BufTy).Contents (Elt F) → (⟨S512x2048, .f32⟩ : BufTy).Contents (Elt F) → (⟨S512x2048, .f32⟩ : BufTy).Contents (Elt F)) ]

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl
set_option maxRecDepth 8192 in
set_option maxHeartbeats 4000000 in
theorem part3_eq (c : Dev nD) : main_part3 (F := F) c = seq ops3 := rfl
set_option maxRecDepth 8192 in
set_option maxHeartbeats 4000000 in
theorem part4_eq (c : Dev nD) : main_part4 (F := F) c = seq ops4 := rfl

/-- The whole program's operations. -/
abbrev ops : List (HloOp τ sig (Elt F)) := ops0 ++ (ops1 ++ (ops2 ++ (ops3 ++ ops4)))

/-- The program is its operations run in order. -/
theorem main_eq (c : Dev nD) : main (F := F) c = seq ops := by
  unfold main
  rw [part0_eq, part1_eq, part2_eq, part3_eq, part4_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩
set_option maxRecDepth 8192 in
theorem ops1_sub : (ops1 : List (HloOp τ sig (Elt F))).Forall fun op => op.bufs ⊆ tcRefs τ sig :=
  ⟨reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩
set_option maxRecDepth 8192 in
theorem ops2_sub : (ops2 : List (HloOp τ sig (Elt F))).Forall fun op => op.bufs ⊆ tcRefs τ sig :=
  ⟨reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩
set_option maxRecDepth 8192 in
theorem ops3_sub : (ops3 : List (HloOp τ sig (Elt F))).Forall fun op => op.bufs ⊆ tcRefs τ sig :=
  ⟨reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩
set_option maxRecDepth 8192 in
theorem ops4_sub : (ops4 : List (HloOp τ sig (Elt F))).Forall fun op => op.bufs ⊆ tcRefs τ sig :=
  ⟨reshape_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub ..⟩

/-- Every operation touches TensorCore references only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, ops4_sub⟩⟩⟩⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor

/-- No operation allocates a buffer. -/
theorem ops_fresh : ∀ op ∈ (ops : List (HloOp τ sig (Elt F))), op.fresh = ∅ :=
  List.forall_iff_forall_mem.mp (List.forall_append.mpr ⟨ops0_fresh, List.forall_append.mpr ⟨ops1_fresh, List.forall_append.mpr ⟨ops2_fresh, List.forall_append.mpr ⟨ops3_fresh, ops4_fresh⟩⟩⟩⟩)

/-- Every weakly fair execution of the reference terminates with each TensorCore buffer at the fold of the
    operations' results over its launch contents. -/
theorem ref_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.Moe.Ref

end
-- ==== Proof.RefArgs.lean ====
/-
  The reference leaves its arguments unchanged.

  Each of the reference's host operations writes exactly one buffer, its own result, and no result buffer is one
  of the five argument arrays. A buffer that no operation of a list writes holds after the list what it held
  before it; the 292 operations are taken in the five stretches the program is cut in, and the contents after two
  stretches are the contents after the second from the contents after the first. So after the whole line each
  argument array holds what it held at the launch.
-/
import proofs.«118571_g10582799417755_week1_w2_590_23_alg».proof.Proof.RefRun
import proofs.«118571_g10582799417755_week1_w2_590_23_alg».proof.Proof.LibAfter
import Idealize.ShloMosaic.Lib.StableHlo.Run

noncomputable section

namespace Cert.Moe.Ref

open Cert.ReferenceIdeal Cert.ReferenceIdeal.Gen Idealize.ShloMosaic Idealize.ShloMosaic.TcCoe Idealize.SL.Sem Idealize.ShloMosaic.StableHlo

variable {F : FTy → Type} [FloatOps F]

/-- The reference's five argument arrays. -/
abbrev args : List (Ref sig .tc) := [main_arg0, main_arg1, main_arg2, main_arg3, main_arg4]

/-- An operation whose one result is a reference outside the arguments writes no argument. -/
theorem nw {b y : Ref sig .tc} (hb : b ∈ args) (hy : y ∉ args) :
    Proc.devRef (τ := τ) .tc b ∉ ({Proc.devRef .tc y} : Finset (DevRef τ sig)) :=
  fun h => hy ((Proc.devRef_injective _ (Finset.mem_singleton.mp h)) ▸ hb)

/-- None of stretch 0's 66 operations writes an argument. -/
theorem no_writes0 {b : Ref sig .tc} (hb : b ∈ args) :
    (ops0 : List (HloOp τ sig (Elt F))).Forall fun op => Proc.devRef .tc b ∉ op.writes :=
  ⟨
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide)⟩

/-- So an argument holds after stretch 0 what it held before it. -/
theorem after0_arg (V : Valuation τ sig (Elt F)) {b : Ref sig .tc} (hb : b ∈ args) :
    after ops0 V (Proc.devRef .tc b) = V (Proc.devRef .tc b) :=
  after_of_forall_not_mem (ops0 (F := F)) V (List.forall_iff_forall_mem.mp (no_writes0 hb))

/-- None of stretch 1's 68 operations writes an argument. -/
theorem no_writes1 {b : Ref sig .tc} (hb : b ∈ args) :
    (ops1 : List (HloOp τ sig (Elt F))).Forall fun op => Proc.devRef .tc b ∉ op.writes :=
  ⟨
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide)⟩

/-- So an argument holds after stretch 1 what it held before it. -/
theorem after1_arg (V : Valuation τ sig (Elt F)) {b : Ref sig .tc} (hb : b ∈ args) :
    after ops1 V (Proc.devRef .tc b) = V (Proc.devRef .tc b) :=
  after_of_forall_not_mem (ops1 (F := F)) V (List.forall_iff_forall_mem.mp (no_writes1 hb))

/-- None of stretch 2's 68 operations writes an argument. -/
theorem no_writes2 {b : Ref sig .tc} (hb : b ∈ args) :
    (ops2 : List (HloOp τ sig (Elt F))).Forall fun op => Proc.devRef .tc b ∉ op.writes :=
  ⟨
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide)⟩

/-- So an argument holds after stretch 2 what it held before it. -/
theorem after2_arg (V : Valuation τ sig (Elt F)) {b : Ref sig .tc} (hb : b ∈ args) :
    after ops2 V (Proc.devRef .tc b) = V (Proc.devRef .tc b) :=
  after_of_forall_not_mem (ops2 (F := F)) V (List.forall_iff_forall_mem.mp (no_writes2 hb))

/-- None of stretch 3's 68 operations writes an argument. -/
theorem no_writes3 {b : Ref sig .tc} (hb : b ∈ args) :
    (ops3 : List (HloOp τ sig (Elt F))).Forall fun op => Proc.devRef .tc b ∉ op.writes :=
  ⟨
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide)⟩

/-- So an argument holds after stretch 3 what it held before it. -/
theorem after3_arg (V : Valuation τ sig (Elt F)) {b : Ref sig .tc} (hb : b ∈ args) :
    after ops3 V (Proc.devRef .tc b) = V (Proc.devRef .tc b) :=
  after_of_forall_not_mem (ops3 (F := F)) V (List.forall_iff_forall_mem.mp (no_writes3 hb))

/-- None of stretch 4's 22 operations writes an argument. -/
theorem no_writes4 {b : Ref sig .tc} (hb : b ∈ args) :
    (ops4 : List (HloOp τ sig (Elt F))).Forall fun op => Proc.devRef .tc b ∉ op.writes :=
  ⟨
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide), nw hb (by decide), nw hb (by decide),
    nw hb (by decide), nw hb (by decide), nw hb (by decide), nw hb (by decide)⟩

/-- So an argument holds after stretch 4 what it held before it. -/
theorem after4_arg (V : Valuation τ sig (Elt F)) {b : Ref sig .tc} (hb : b ∈ args) :
    after ops4 V (Proc.devRef .tc b) = V (Proc.devRef .tc b) :=
  after_of_forall_not_mem (ops4 (F := F)) V (List.forall_iff_forall_mem.mp (no_writes4 hb))

/-- After the whole line each argument holds what it held. -/
theorem after_arg (V : Valuation τ sig (Elt F)) (b : Ref sig .tc)
    (hb : b = main_arg0 ∨ b = main_arg1 ∨ b = main_arg2 ∨ b = main_arg3 ∨ b = main_arg4) :
    after ops V (Proc.devRef .tc b) = V (Proc.devRef .tc b) := by
  have hm : b ∈ args := by rcases hb with rfl | rfl | rfl | rfl | rfl <;> decide
  unfold ops
  rw [Cert.LibAfter.after_append, Cert.LibAfter.after_append, Cert.LibAfter.after_append, Cert.LibAfter.after_append,
    after4_arg _ hm, after3_arg _ hm, after2_arg _ hm, after1_arg _ hm, after0_arg _ hm]

/-- A buffer contents equal to the line's fold at an argument is the argument's launch contents. -/
theorem arg_kept (m : (ℓ : Loc nD τ sig) → Buf (Elt F) ℓ) (c : Dev nD) (b : Ref sig .tc)
    (hb : b = main_arg0 ∨ b = main_arg1 ∨ b = main_arg2 ∨ b = main_arg3 ∨ b = main_arg4)
    {x : Buf (Elt F) ((c.tc : Thread nD τ).loc b)} (h : x = after ops (launchContents m c) (Proc.devRef .tc b)) :
    x = m ((c.tc : Thread nD τ).loc b) :=
  h.trans (after_arg (launchContents m c) b hb)

/-- The reference runs, and its five argument arrays end as launched. -/
theorem ref_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨arg_kept m c main_arg0 (.inl rfl) (h c main_arg0),
     arg_kept m c main_arg1 (.inr (.inl rfl)) (h c main_arg1),
     arg_kept m c main_arg2 (.inr (.inr (.inl rfl))) (h c main_arg2),
     arg_kept m c main_arg3 (.inr (.inr (.inr (.inl rfl)))) (h c main_arg3),
     arg_kept m c main_arg4 (.inr (.inr (.inr (.inr rfl)))) (h c main_arg4)⟩)
    (ref_after m ρ)

end Cert.Moe.Ref

end
-- ==== Proof.RefResult.lean ====
/-
  The reference program's run, with its result read as the specification.

  The program's operations, listed part by part as the program is printed, are the gate's stretch followed by the sixteen
  experts' stretches: each printed part is some whole stretches and a piece of one more (experts 2, 6, 10 and 14 straddle two
  parts, twelve operations in one and five in the next), so the two listings are the same list. Every weakly fair
  execution ends with each buffer at the fold of the operations over the launch contents; read stretch by stretch the
  result buffer holds the specification's `moe` of the five argument arrays' coordinates, and the arguments end unchanged.
-/
import proofs.«118571_g10582799417755_week1_w2_590_23_alg».proof.Proof.RefChain
import proofs.«118571_g10582799417755_week1_w2_590_23_alg».proof.Proof.RefRun
import proofs.«118571_g10582799417755_week1_w2_590_23_alg».proof.Proof.RefArgs

noncomputable section

namespace Cert.Moe.Ref

open Cert.ReferenceIdeal Cert.ReferenceIdeal.Gen Idealize.ShloMosaic Idealize.ShloMosaic.TcCoe Idealize.SL.Sem
  Idealize.ShloMosaic.StableHlo Idealize.ShloMosaic.ValueIdx

/-- A list cut in two and put back, in front of anything. -/
theorem take_drop_app {α : Type} (n : ℕ) (l r : List α) : l.take n ++ (l.drop n ++ r) = l ++ r := by
  rw [← List.append_assoc, List.take_append_drop]

section
variable {F : FTy → Type} [FloatOps F]

/-- The first printed part: the gate, experts 0 and 1, and the first twelve operations of expert 2. -/
theorem part0_list : (ops0 : List (HloOp τ sig (Elt F))) = gateOps ++ exOps0 ++ exOps1 ++ exOps2.take 12 := rfl
/-- The second: the rest of expert 2, experts 3 to 5, the first twelve operations of expert 6. -/
theorem part1_list : (ops1 : List (HloOp τ sig (Elt F))) = exOps2.drop 12 ++ exOps3 ++ exOps4 ++ exOps5 ++ exOps6.take 12 := rfl
/-- The third: the rest of expert 6, experts 7 to 9, the first twelve operations of expert 10. -/
theorem part2_list : (ops2 : List (HloOp τ sig (Elt F))) = exOps6.drop 12 ++ exOps7 ++ exOps8 ++ exOps9 ++ exOps10.take 12 := rfl
/-- The fourth: the rest of expert 10, experts 11 to 13, the first twelve operations of expert 14. -/
theorem part3_list : (ops3 : List (HloOp τ sig (Elt F))) = exOps10.drop 12 ++ exOps11 ++ exOps12 ++ exOps13 ++ exOps14.take 12 := rfl
/-- The fifth: the rest of expert 14 and expert 15. -/
theorem part4_list : (ops4 : List (HloOp τ sig (Elt F))) = exOps14.drop 12 ++ exOps15 := rfl

/-- The operations listed part by part are the operations listed stretch by stretch. -/
theorem ops_eq : (ops : List (HloOp τ sig (Elt F))) = allOps := by
  show ops0 ++ (ops1 ++ (ops2 ++ (ops3 ++ ops4))) = _
  rw [part0_list, part1_list, part2_list, part3_list, part4_list]
  simp only [allOps, List.append_assoc, take_drop_app]

end

/-- Every weakly fair execution of the reference ends with the result buffer at the specification's `moe` of the
    coordinates of the five arrays it started from, and with those five arrays unchanged. -/
theorem ref_run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v255)
        = (fun i => Cert.Moe.moe
            (fun r k => (m ((c.tc : Thread nD τ).loc main_arg0) : S512x2048.Idx → EReal) (ix2 r k))
            (fun k e => (m ((c.tc : Thread nD τ).loc main_arg1) : S2048x16.Idx → EReal) (ix2 k e))
            (fun e => (m ((c.tc : Thread nD τ).loc main_arg2) : S16.Idx → EReal) (ix1 e))
            (fun e k c' => (m ((c.tc : Thread nD τ).loc main_arg3) : S16x2048x2048.Idx → EReal) (ix3 e k c'))
            (fun e c' => (m ((c.tc : Thread nD τ).loc main_arg4) : S16x2048.Idx → EReal) (ix2 e c'))
            (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run Cert.ReferenceIdeal.defs _ _).mono (fun _ h c =>
    ⟨(h c main_v255).trans ((congrArg (fun l => after l (launchContents m c) (Proc.devRef .tc main_v255)) ops_eq).trans
        (after_all_eq (launchContents m c))),
      arg_kept m c main_arg0 (.inl rfl) (h c main_arg0),
      arg_kept m c main_arg1 (.inr (.inl rfl)) (h c main_arg1),
      arg_kept m c main_arg2 (.inr (.inr (.inl rfl))) (h c main_arg2),
      arg_kept m c main_arg3 (.inr (.inr (.inr (.inl rfl)))) (h c main_arg3),
      arg_kept m c main_arg4 (.inr (.inr (.inr (.inr rfl)))) (h c main_arg4)⟩)
    (ref_after (F := Ideal) m ρ)

end Cert.Moe.Ref

end
-- ==== Proof.lean ====
/-
  The certificate of the dense mixture-of-experts kernel against its reference.

  The layer: for tokens x [512,2048], gate weights Wg [2048,16] and bias bg [16], expert weights We [16,2048,2048]
  and biases be [16,2048], the output is the sum over the sixteen experts e of relu(x·We[e] + be[e]) scaled, row by
  row, by the softmax of x·Wg + bg at column e (Proof/Spec.lean states it over coordinates).

  The kernel visits the experts one grid point at a time. At expert 0 it computes the softmax once and keeps it in
  a scratch buffer; at every expert it contracts the token block against the expert's weights in four blocks of 512
  rows (four windows on the one regrouped weight array), adds the bias, takes the positive part, picks the
  expert's probability column by a lane mask and a lane sum, and adds the product to an output block that stays in
  fast memory until the last expert. The reference computes the softmax on the host, then adds the sixteen experts'
  terms to a zero array one after the other.

  Read over the extended reals the two are one function: a sum over 2048 contraction indices is the sum of its four
  blocks of 512, a lane sum whose terms vanish off one lane is that lane's term, adding to zero is the identity,
  and both add the experts' terms in the same order. These are laws of a commutative additive monoid, so no
  input needs to be finite.

  The frames of the two printed kernels are proved by running the body once for expert 0 and once for a later
  expert and launching the region with the weight array's share dealt among its four windows; the reference
  is a straight line of host operations whose result is read one stretch (the gate, then each expert) at a time. The ideal pass rewrote nothing, so `preserves` is `True`.
-/
import proofs.«118571_g10582799417755_week1_w2_590_23_alg».proof.Defs
import proofs.«118571_g10582799417755_week1_w2_590_23_alg».proof.Proof.Gen.Kernel
import proofs.«118571_g10582799417755_week1_w2_590_23_alg».proof.Proof.Gen.KernelIdeal
import proofs.«118571_g10582799417755_week1_w2_590_23_alg».proof.Proof.Gen.ReferenceIdeal
import proofs.«118571_g10582799417755_week1_w2_590_23_alg».proof.Proof.Gen.Pre_finite_inputs
import proofs.«118571_g10582799417755_week1_w2_590_23_alg».proof.Proof.Kernel.Frame
import proofs.«118571_g10582799417755_week1_w2_590_23_alg».proof.Proof.KernelIdeal.Value
import proofs.«118571_g10582799417755_week1_w2_590_23_alg».proof.Proof.RefResult
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Moe.Ref.ref_run m ρ)

/-- Over the extended reals both programs end with the layer's output at every index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run_named m ρ, ?_⟩
  refine (θ_run Cert.ReferenceIdeal.defs _ _).mono (fun _ h c => ⟨(h c).1.trans ?_, (h c).2⟩)
    (Cert.Moe.Ref.ref_run m' ρ')
  rw [(hagree c).1, (hagree c).2.1, (hagree c).2.2.1, (hagree c).2.2.2.1, (hagree c).2.2.2.2]
  exact (Cert.KernelIdeal.HandValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
